-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x524288 : Shape := ⟨2, ![2, 524288]⟩
abbrev S16384 : Shape := ⟨1, ![16384]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S256 .f32) (main_arg7 : FVec F S256x10 .f32) (main_arg8 : FVec F S10 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x10 .f32 := Host.absf main_arg7
  let main_cst_8 : FVec F S_ .f32 := constant S_ .f32 0x7F800000#32
  let main_v25 : FVec F S256x10 .f32 := broadcastInDim S256x10 ![] bcast_S_S256x10 main_cst_8
  let main_v26 : IVec S256x10 1 := cmpf .olt main_v24 main_v25
  let main_c_9 : IVec S_ 1 := constantI S_ 1 1#1
  let main_v27 : IVec S_ 1 := (fun x v => Host.reduce IntOp.andi x v reducesTo_S256x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S16384x128 .f32) (main_arg1 : IVec S2x524288 32) (main_arg2 : IVec S16384 32) (main_arg3 : FVec F S128x256 .f32) (main_arg4 : FVec F S256 .f32) (main_arg5 : FVec F S256x256 .f32) (main_arg6 : FVec F S256 .f32) (main_arg7 : FVec F S256x10 .f32) (main_arg8 : FVec F S10 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S16384x128 : Shape := ⟨2, ![16384, 128]⟩
abbrev S2x524288 : Shape := ⟨2, ![2, 524288]⟩
abbrev S16384 : Shape := ⟨1, ![16384]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩
abbrev S16384x16384 : Shape := ⟨2, ![16384, 16384]⟩
abbrev S1x524288 : Shape := ⟨2, ![1, 524288]⟩
abbrev S524288 : Shape := ⟨1, ![524288]⟩
abbrev S524288x1 : Shape := ⟨2, ![524288, 1]⟩
abbrev S524288x2 : Shape := ⟨2, ![524288, 2]⟩
abbrev S16384x1 : Shape := ⟨2, ![16384, 1]⟩
abbrev S16384x2 : Shape := ⟨2, ![16384, 2]⟩
abbrev S2048x2048 : Shape := ⟨2, ![2048, 2048]⟩
abbrev S2048x1 : Shape := ⟨2, ![2048, 1]⟩
abbrev S2048 : Shape := ⟨1, ![2048]⟩
abbrev S1x256 : Shape := ⟨2, ![1, 256]⟩
abbrev S16384x256 : Shape := ⟨2, ![16384, 256]⟩
abbrev S2048x128 : Shape := ⟨2, ![2048, 128]⟩
abbrev S2048x256 : Shape := ⟨2, ![2048, 256]⟩
abbrev S64x256 : Shape := ⟨2, ![64, 256]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 97
  | .vmem => 27
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S16384, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x10, .f32⟩
  | .hbm, ⟨8, _⟩ => ⟨S10, .f32⟩
  | .hbm, ⟨9, _⟩ => ⟨S_, .bf16⟩
  | .hbm, ⟨10, _⟩ => ⟨S16384x16384, .bf16⟩
  | .hbm, ⟨11, _⟩ => ⟨S1x524288, .i32⟩
  | .hbm, ⟨12, _⟩ => ⟨S524288, .i32⟩
  | .hbm, ⟨13, _⟩ => ⟨S1x524288, .i32⟩
  | .hbm, ⟨14, _⟩ => ⟨S524288, .i32⟩
  | .hbm, ⟨15, _⟩ => ⟨S_, .i32⟩
  | .hbm, ⟨16, _⟩ => ⟨S524288, .i32⟩
  | .hbm, ⟨17, _⟩ => ⟨S524288, .i1⟩
  | .hbm, ⟨18, _⟩ => ⟨S_, .i32⟩
  | .hbm, ⟨19, _⟩ => ⟨S524288, .i32⟩
  | .hbm, ⟨20, _⟩ => ⟨S524288, .i32⟩
  | .hbm, ⟨21, _⟩ => ⟨S524288, .i32⟩
  | .hbm, ⟨22, _⟩ => ⟨S_, .i32⟩
  | .hbm, ⟨23, _⟩ => ⟨S524288, .i32⟩
  | .hbm, ⟨24, _⟩ => ⟨S524288, .i1⟩
  | .hbm, ⟨25, _⟩ => ⟨S_, .i32⟩
  | .hbm, ⟨26, _⟩ => ⟨S524288, .i32⟩
  | .hbm, ⟨27, _⟩ => ⟨S524288, .i32⟩
  | .hbm, ⟨28, _⟩ => ⟨S524288, .i32⟩
  | .hbm, ⟨29, _⟩ => ⟨S524288x1, .i32⟩
  | .hbm, ⟨30, _⟩ => ⟨S524288x1, .i32⟩
  | .hbm, ⟨31, _⟩ => ⟨S524288x2, .i32⟩
  | .hbm, ⟨32, _⟩ => ⟨S_, .bf16⟩
  | .hbm, ⟨33, _⟩ => ⟨S524288, .bf16⟩
  | .hbm, ⟨34, _⟩ => ⟨S16384x16384, .bf16⟩
  | .hbm, ⟨35, _⟩ => ⟨S16384, .i32⟩
  | .hbm, ⟨36, _⟩ => ⟨S_, .i32⟩
  | .hbm, ⟨37, _⟩ => ⟨S16384, .i32⟩
  | .hbm, ⟨38, _⟩ => ⟨S16384, .i1⟩
  | .hbm, ⟨39, _⟩ => ⟨S_, .i32⟩
  | .hbm, ⟨40, _⟩ => ⟨S16384, .i32⟩
  | .hbm, ⟨41, _⟩ => ⟨S16384, .i32⟩
  | .hbm, ⟨42, _⟩ => ⟨S16384, .i32⟩
  | .hbm, ⟨43, _⟩ => ⟨S_, .i32⟩
  | .hbm, ⟨44, _⟩ => ⟨S16384, .i32⟩
  | .hbm, ⟨45, _⟩ => ⟨S16384, .i1⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S16384x1, .i32⟩
  | .hbm, ⟨51, _⟩ => ⟨S16384x1, .i32⟩
  | .hbm, ⟨52, _⟩ => ⟨S16384x2, .i32⟩
  | .hbm, ⟨53, _⟩ => ⟨S_, .bf16⟩
  | .hbm, ⟨54, _⟩ => ⟨S16384, .bf16⟩
  | .hbm, ⟨55, _⟩ => ⟨S16384x16384, .bf16⟩
  | .hbm, ⟨56, _⟩ => ⟨S16384x1, .f32⟩
  | .hbm, ⟨57, _⟩ => ⟨S_, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x128, .f32⟩
  | .hbm, ⟨65, _⟩ => ⟨S16384x128, .f32⟩
  | .hbm, ⟨66, _⟩ => ⟨S16384x128, .bf16⟩
  | .hbm, ⟨67, _⟩ => ⟨S128x256, .bf16⟩
  | .hbm, ⟨68, _⟩ => ⟨S1x256, .f32⟩
  | .hbm, ⟨69, _⟩ => ⟨S16384x256, .f32⟩
  | .hbm, ⟨70, _⟩ => ⟨S16384x256, .f32⟩
  | .hbm, ⟨71, _⟩ => ⟨S16384x256, .f32⟩
  | .hbm, ⟨72, _⟩ => ⟨S16384x256, .bf16⟩
  | .hbm, ⟨73, _⟩ => ⟨S256x256, .bf16⟩
  | .hbm, ⟨74, _⟩ => ⟨S1x256, .f32⟩
  | .hbm, ⟨75, _⟩ => ⟨S16384x256, .f32⟩
  | .hbm, ⟨76, _⟩ => ⟨S_, .f32⟩
  | .hbm, ⟨77, _⟩ => ⟨S64x256, .f32⟩
  | .hbm, ⟨78, _⟩ => ⟨S16384x1, .i32⟩
  | .hbm, ⟨79, _⟩ => ⟨S64x256, .f32⟩
  | .hbm, ⟨80, _⟩ => ⟨S_, .f32⟩
  | .hbm, ⟨81, _⟩ => ⟨S16384, .f32⟩
  | .hbm, ⟨82, _⟩ => ⟨S_, .f32⟩
  | .hbm, ⟨83, _⟩ => ⟨S64, .f32⟩
  | .hbm, ⟨84, _⟩ => ⟨S16384x1, .i32⟩
  | .hbm, ⟨85, _⟩ => ⟨S64, .f32⟩
  | .hbm, ⟨86, _⟩ => ⟨S_, .f32⟩
  | .hbm, ⟨87, _⟩ => ⟨S_, .f32⟩
  | .hbm, ⟨88, _⟩ => ⟨S64, .f32⟩
  | .hbm, ⟨89, _⟩ => ⟨S64, .f32⟩
  | .hbm, ⟨90, _⟩ => ⟨S64x1, .f32⟩
  | .hbm, ⟨91, _⟩ => ⟨S64x256, .f32⟩
  | .hbm, ⟨92, _⟩ => ⟨S64x256, .f32⟩
  | .hbm, ⟨93, _⟩ => ⟨S64x10, .f32⟩
  | .hbm, ⟨94, _⟩ => ⟨S1x10, .f32⟩
  | .hbm, ⟨95, _⟩ => ⟨S64x10, .f32⟩
  | .hbm, ⟨96, _⟩ => ⟨S64x10, .f32⟩
  | .local _ .vmem, ⟨0, _⟩ => ⟨S2048x2048, .bf16⟩
  | .local _ .vmem, ⟨1, _⟩ => ⟨S2048x2048, .bf16⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S2048x2048, .bf16⟩
  | .local _ .vmem, ⟨6, _⟩ => ⟨S2048x2048, .bf16⟩
  | .local _ .vmem, ⟨7, _⟩ => ⟨S2048x128, .bf16⟩
  | .local _ .vmem, ⟨8, _⟩ => ⟨S2048x128, .bf16⟩
  | .local _ .vmem, ⟨9, _⟩ => ⟨S2048x1, .f32⟩
  | .local _ .vmem, ⟨10, _⟩ => ⟨S2048x1, .f32⟩
  | .local _ .vmem, ⟨11, _⟩ => ⟨S128x256, .bf16⟩
  | .local _ .vmem, ⟨12, _⟩ => ⟨S1x256, .f32⟩
  | .local _ .vmem, ⟨13, _⟩ => ⟨S2048x256, .f32⟩
  | .local _ .vmem, ⟨14, _⟩ => ⟨S2048x256, .f32⟩
  | .local _ .vmem, ⟨15, _⟩ => ⟨S2048x128, .f32⟩
  | .local _ .vmem, ⟨16, _⟩ => ⟨S2048x2048, .bf16⟩
  | .local _ .vmem, ⟨17, _⟩ => ⟨S2048x2048, .bf16⟩
  | .local _ .vmem, ⟨18, _⟩ => ⟨S2048x256, .bf16⟩
  | .local _ .vmem, ⟨19, _⟩ => ⟨S2048x256, .bf16⟩
  | .local _ .vmem, ⟨20, _⟩ => ⟨S2048x1, .f32⟩
  | .local _ .vmem, ⟨21, _⟩ => ⟨S2048x1, .f32⟩
  | .local _ .vmem, ⟨22, _⟩ => ⟨S256x256, .bf16⟩
  | .local _ .vmem, ⟨23, _⟩ => ⟨S1x256, .f32⟩
  | .local _ .vmem, ⟨24, _⟩ => ⟨S2048x256, .f32⟩
  | .local _ .vmem, ⟨25, _⟩ => ⟨S2048x256, .f32⟩
  | .local _ .vmem, ⟨26, _⟩ => ⟨S2048x256, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_call0_v0 : Ref sig .tc := ⟨.hbm, 58, rfl⟩
abbrev main_call0_v1 : Ref sig .tc := ⟨.hbm, 59, rfl⟩
abbrev main_v37 : Ref sig .tc := ⟨.hbm, 60, rfl⟩
abbrev main_cst_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_14 : Ref sig .tc := ⟨.hbm, 86, rfl⟩
abbrev main_call1_v0 : Ref sig .tc := ⟨.hbm, 87, rfl⟩
abbrev main_call1_v1 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S2048x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  bcast_S_S16384x16384 : S_.BroadcastsInDim S16384x16384 (![] : Fin 0 → Fin S16384x16384.rank)
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  bitsLt_bf16_f32 : FTy.bits .bf16 < FTy.bits .f32
  reduces_S2048x2048_S2048 : S2048x2048.Reduces [1] S2048
  shapeCasts_S2048_S2048x1 : S2048.ShapeCasts S2048x1
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  shapeCasts_S256_S1x256 : S256.ShapeCasts S1x256
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S2048x1_S2048x128 : S2048x1.Broadcasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  bcast_S16384x1_S16384x256_0_1 : S16384x1.BroadcastsInDim S16384x256 (![0, 1] : Fin 2 → Fin S16384x256.rank)
  shapeCasts_S2048x256_S2048x256 : S2048x256.ShapeCasts S2048x256
  broadcasts_S2048x1_S2048x256 : S2048x1.Broadcasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S64x256 : S_.BroadcastsInDim S64x256 (![] : Fin 0 → Fin S64x256.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S16384x16384_S524288x2_S524288_n_01_01_1_wf : ScatterDims.WF S16384x16384 S524288x2 S524288 [] [0, 1] [0, 1] 1
  scatter_S16384x16384_S16384x2_S16384_n_01_01_1_wf : ScatterDims.WF S16384x16384 S16384x2 S16384 [] [0, 1] [0, 1] 1
  dot_S2048x2048_S2048x128_S2048x128_1_0_0_1_n_n_wf : DotDims.WF S2048x2048 S2048x128 S2048x128 [1] [0] [0] [1] [] []
  dot_S2048x128_S128x256_S2048x256_1_0_0_1_n_n_wf : DotDims.WF S2048x128 S128x256 S2048x256 [1] [0] [0] [1] [] []
  dot_S2048x2048_S2048x256_S2048x256_1_0_0_1_n_n_wf : DotDims.WF S2048x2048 S2048x256 S2048x256 [1] [0] [0] [1] [] []
  dot_S2048x256_S256x256_S2048x256_1_0_0_1_n_n_wf : DotDims.WF S2048x256 S256x256 S2048x256 [1] [0] [0] [1] [] []
  scatter_S64x256_S16384x1_S16384x256_1_0_0_1_wf : ScatterDims.WF S64x256 S16384x1 S16384x256 [1] [0] [0] 1
  scatter_S64_S16384x1_S16384_n_0_0_1_wf : ScatterDims.WF S64 S16384x1 S16384 [] [0] [0] 1
  dot_S64x256_S256x10_S64x10_1_0_0_1_n_n_wf : DotDims.WF S64x256 S256x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x16384.size a
  hwx0_0 : ∀ i : grid0.Coords, EltTy.bits .bf16 = 32 ∨ (Rect.block (s := S16384x16384) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S16384x1.size a
  hwx0_1 : ∀ i : grid0.Coords, EltTy.bits .f32 = 32 ∨ (Rect.block (s := S16384x1) S2048x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S16384x16384.size a
  hwx1_0 : ∀ i : grid1.Coords, EltTy.bits .bf16 = 32 ∨ (Rect.block (s := S16384x16384) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .bf16 = 32 ∨ (Rect.block (s := S16384x128) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S16384x1.size a
  hwx1_2 : ∀ i : grid1.Coords, EltTy.bits .f32 = 32 ∨ (Rect.block (s := S16384x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .bf16 = 32 ∨ (Rect.block (s := S128x256) S128x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x256.size a ≤ S16384x256.size a
  hwx1_5 : ∀ i : grid1.Coords, EltTy.bits .f32 = 32 ∨ (Rect.block (s := S16384x256) S2048x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S16384x16384.size a
  hwx2_0 : ∀ i : grid2.Coords, EltTy.bits .bf16 = 32 ∨ (Rect.block (s := S16384x16384) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S16384x256.size a
  hwx2_1 : ∀ i : grid2.Coords, EltTy.bits .bf16 = 32 ∨ (Rect.block (s := S16384x256) S2048x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S16384x1.size a
  hwx2_2 : ∀ i : grid2.Coords, EltTy.bits .f32 = 32 ∨ (Rect.block (s := S16384x1) S2048x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x256.size a ≤ S16384x256.size a
  hwx2_5 : ∀ i : grid2.Coords, EltTy.bits .f32 = 32 ∨ (Rect.block (s := S16384x256) S2048x256.size (cc2_transform_5 i) (hinb2_5 i)).WholeWords (EltTy.packing .f32)

variable [Facts₀]

def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def scatter_S16384x16384_S16384x2_S16384_n_01_01_1 : ScatterDims S16384x16384 S16384x2 S16384 where
  updateWindowDims := []
  insertedWindowDims := [0, 1]
  scatterDimsToOperandDims := [0, 1]
  indexVectorDim := 1
  wf := scatter_S16384x16384_S16384x2_S16384_n_01_01_1_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def scatter_S64x256_S16384x1_S16384x256_1_0_0_1 : ScatterDims S64x256 S16384x1 S16384x256 where
  updateWindowDims := [1]
  insertedWindowDims := [0]
  scatterDimsToOperandDims := [0]
  indexVectorDim := 1
  wf := scatter_S64x256_S16384x1_S16384x256_1_0_0_1_wf
def scatter_S64_S16384x1_S16384_n_0_0_1 : ScatterDims S64 S16384x1 S16384 where
  updateWindowDims := []
  insertedWindowDims := [0]
  scatterDimsToOperandDims := [0]
  indexVectorDim := 1
  wf := scatter_S64_S16384x1_S16384_n_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

abbrev win0_0 : Pipeline.Window sig grid0 :=
  Pipeline.Window.ofSpec (Memref.whole main_v35) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S2048x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v35) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2048x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v35) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v49) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S2048x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S16384x128 : Shape := ⟨2, ![16384, 128]⟩
abbrev S2x524288 : Shape := ⟨2, ![2, 524288]⟩
abbrev S16384 : Shape := ⟨1, ![16384]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩
abbrev S16384x16384 : Shape := ⟨2, ![16384, 16384]⟩
abbrev S1x524288 : Shape := ⟨2, ![1, 524288]⟩
abbrev S524288 : Shape := ⟨1, ![524288]⟩
abbrev S524288x1 : Shape := ⟨2, ![524288, 1]⟩
abbrev S524288x2 : Shape := ⟨2, ![524288, 2]⟩
abbrev S16384x1 : Shape := ⟨2, ![16384, 1]⟩
abbrev S16384x2 : Shape := ⟨2, ![16384, 2]⟩
abbrev S1x16384 : Shape := ⟨2, ![1, 16384]⟩
abbrev S16384x256 : Shape := ⟨2, ![16384, 256]⟩
abbrev S1x256 : Shape := ⟨2, ![1, 256]⟩
abbrev S64x256 : Shape := ⟨2, ![64, 256]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 108
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S16384, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x10, .f32⟩
  | .hbm, ⟨8, _⟩ => ⟨S10, .f32⟩
  | .hbm, ⟨9, _⟩ => ⟨S_, .f32⟩
  | .hbm, ⟨10, _⟩ => ⟨S16384x16384, .f32⟩
  | .hbm, ⟨11, _⟩ => ⟨S1x524288, .i32⟩
  | .hbm, ⟨12, _⟩ => ⟨S524288, .i32⟩
  | .hbm, ⟨13, _⟩ => ⟨S1x524288, .i32⟩
  | .hbm, ⟨14, _⟩ => ⟨S524288, .i32⟩
  | .hbm, ⟨15, _⟩ => ⟨S_, .i32⟩
  | .hbm, ⟨16, _⟩ => ⟨S524288, .i32⟩
  | .hbm, ⟨17, _⟩ => ⟨S524288, .i1⟩
  | .hbm, ⟨18, _⟩ => ⟨S_, .i32⟩
  | .hbm, ⟨19, _⟩ => ⟨S524288, .i32⟩
  | .hbm, ⟨20, _⟩ => ⟨S524288, .i32⟩
  | .hbm, ⟨21, _⟩ => ⟨S524288, .i32⟩
  | .hbm, ⟨22, _⟩ => ⟨S_, .i32⟩
  | .hbm, ⟨23, _⟩ => ⟨S524288, .i32⟩
  | .hbm, ⟨24, _⟩ => ⟨S524288, .i1⟩
  | .hbm, ⟨25, _⟩ => ⟨S_, .i32⟩
  | .hbm, ⟨26, _⟩ => ⟨S524288, .i32⟩
  | .hbm, ⟨27, _⟩ => ⟨S524288, .i32⟩
  | .hbm, ⟨28, _⟩ => ⟨S524288, .i32⟩
  | .hbm, ⟨29, _⟩ => ⟨S524288x1, .i32⟩
  | .hbm, ⟨30, _⟩ => ⟨S524288x1, .i32⟩
  | .hbm, ⟨31, _⟩ => ⟨S524288x2, .i32⟩
  | .hbm, ⟨32, _⟩ => ⟨S_, .f32⟩
  | .hbm, ⟨33, _⟩ => ⟨S524288, .f32⟩
  | .hbm, ⟨34, _⟩ => ⟨S16384x16384, .f32⟩
  | .hbm, ⟨35, _⟩ => ⟨S16384, .i32⟩
  | .hbm, ⟨36, _⟩ => ⟨S_, .i32⟩
  | .hbm, ⟨37, _⟩ => ⟨S16384, .i32⟩
  | .hbm, ⟨38, _⟩ => ⟨S16384, .i1⟩
  | .hbm, ⟨39, _⟩ => ⟨S_, .i32⟩
  | .hbm, ⟨40, _⟩ => ⟨S16384, .i32⟩
  | .hbm, ⟨41, _⟩ => ⟨S16384, .i32⟩
  | .hbm, ⟨42, _⟩ => ⟨S16384, .i32⟩
  | .hbm, ⟨43, _⟩ => ⟨S_, .i32⟩
  | .hbm, ⟨44, _⟩ => ⟨S16384, .i32⟩
  | .hbm, ⟨45, _⟩ => ⟨S16384, .i1⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S16384x1, .i32⟩
  | .hbm, ⟨51, _⟩ => ⟨S16384x1, .i32⟩
  | .hbm, ⟨52, _⟩ => ⟨S16384x2, .i32⟩
  | .hbm, ⟨53, _⟩ => ⟨S_, .f32⟩
  | .hbm, ⟨54, _⟩ => ⟨S16384, .f32⟩
  | .hbm, ⟨55, _⟩ => ⟨S16384x16384, .f32⟩
  | .hbm, ⟨56, _⟩ => ⟨S_, .f32⟩
  | .hbm, ⟨57, _⟩ => ⟨S16384, .f32⟩
  | .hbm, ⟨58, _⟩ => ⟨S_, .f32⟩
  | .hbm, ⟨59, _⟩ => ⟨S_, .f32⟩
  | .hbm, ⟨60, _⟩ => ⟨S16384, .f32⟩
  | .hbm, ⟨61, _⟩ => ⟨S16384, .f32⟩
  | .hbm, ⟨62, _⟩ => ⟨S_, .f32⟩
  | .hbm, ⟨63, _⟩ => ⟨S16384, .f32⟩
  | .hbm, ⟨64, _⟩ => ⟨S16384, .f32⟩
  | .hbm, ⟨65, _⟩ => ⟨S16384x1, .f32⟩
  | .hbm, ⟨66, _⟩ => ⟨S16384x16384, .f32⟩
  | .hbm, ⟨67, _⟩ => ⟨S16384x16384, .f32⟩
  | .hbm, ⟨68, _⟩ => ⟨S1x16384, .f32⟩
  | .hbm, ⟨69, _⟩ => ⟨S16384x16384, .f32⟩
  | .hbm, ⟨70, _⟩ => ⟨S16384x16384, .f32⟩
  | .hbm, ⟨71, _⟩ => ⟨S16384x128, .f32⟩
  | .hbm, ⟨72, _⟩ => ⟨S16384x256, .f32⟩
  | .hbm, ⟨73, _⟩ => ⟨S1x256, .f32⟩
  | .hbm, ⟨74, _⟩ => ⟨S16384x256, .f32⟩
  | .hbm, ⟨75, _⟩ => ⟨S16384x256, .f32⟩
  | .hbm, ⟨76, _⟩ => ⟨S_, .f32⟩
  | .hbm, ⟨77, _⟩ => ⟨S16384x256, .f32⟩
  | .hbm, ⟨78, _⟩ => ⟨S16384x256, .f32⟩
  | .hbm, ⟨79, _⟩ => ⟨S16384x256, .f32⟩
  | .hbm, ⟨80, _⟩ => ⟨S16384x256, .f32⟩
  | .hbm, ⟨81, _⟩ => ⟨S1x256, .f32⟩
  | .hbm, ⟨82, _⟩ => ⟨S16384x256, .f32⟩
  | .hbm, ⟨83, _⟩ => ⟨S16384x256, .f32⟩
  | .hbm, ⟨84, _⟩ => ⟨S_, .f32⟩
  | .hbm, ⟨85, _⟩ => ⟨S16384x256, .f32⟩
  | .hbm, ⟨86, _⟩ => ⟨S16384x256, .f32⟩
  | .hbm, ⟨87, _⟩ => ⟨S_, .f32⟩
  | .hbm, ⟨88, _⟩ => ⟨S64x256, .f32⟩
  | .hbm, ⟨89, _⟩ => ⟨S16384x1, .i32⟩
  | .hbm, ⟨90, _⟩ => ⟨S64x256, .f32⟩
  | .hbm, ⟨91, _⟩ => ⟨S_, .f32⟩
  | .hbm, ⟨92, _⟩ => ⟨S16384, .f32⟩
  | .hbm, ⟨93, _⟩ => ⟨S_, .f32⟩
  | .hbm, ⟨94, _⟩ => ⟨S64, .f32⟩
  | .hbm, ⟨95, _⟩ => ⟨S16384x1, .i32⟩
  | .hbm, ⟨96, _⟩ => ⟨S64, .f32⟩
  | .hbm, ⟨97, _⟩ => ⟨S_, .f32⟩
  | .hbm, ⟨98, _⟩ => ⟨S_, .f32⟩
  | .hbm, ⟨99, _⟩ => ⟨S64, .f32⟩
  | .hbm, ⟨100, _⟩ => ⟨S64, .f32⟩
  | .hbm, ⟨101, _⟩ => ⟨S64x1, .f32⟩
  | .hbm, ⟨102, _⟩ => ⟨S64x256, .f32⟩
  | .hbm, ⟨103, _⟩ => ⟨S64x256, .f32⟩
  | .hbm, ⟨104, _⟩ => ⟨S64x10, .f32⟩
  | .hbm, ⟨105, _⟩ => ⟨S1x10, .f32⟩
  | .hbm, ⟨106, _⟩ => ⟨S64x10, .f32⟩
  | .hbm, ⟨107, _⟩ => ⟨S64x10, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_cst_10 : Ref sig .tc := ⟨.hbm, 58, rfl⟩
abbrev main_call0_v0 : Ref sig .tc := ⟨.hbm, 59, rfl⟩
abbrev main_call0_v1 : Ref sig .tc := ⟨.hbm, 60, rfl⟩
abbrev main_v37 : Ref sig .tc := ⟨.hbm, 61, rfl⟩
abbrev main_cst_11 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call2_cst : Ref sig .tc := ⟨.hbm, 84, rfl⟩
abbrev main_call2_v0 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_13 : Ref sig .tc := ⟨.hbm, 91, rfl⟩
abbrev main_v61 : Ref sig .tc := ⟨.hbm, 92, rfl⟩
abbrev main_cst_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_15 : Ref sig .tc := ⟨.hbm, 97, rfl⟩
abbrev main_call3_v0 : Ref sig .tc := ⟨.hbm, 98, rfl⟩
abbrev main_call3_v1 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩

abbrev nD : Nat := 1
abbrev τ : Topo := Topo.v7x

variable {F : FTy → Type} [FloatOps F]

class Facts₀ : Prop where
  bcast_S_S16384x16384 : S_.BroadcastsInDim S16384x16384 (![] : Fin 0 → Fin S16384x16384.rank)
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  reducesTo_S16384x16384_S16384_d1 : S16384x16384.ReducesTo [1] S16384
  h_S_ : 0 < S_.numel
  bcast_S16384x1_S16384x16384_0_1 : S16384x1.BroadcastsInDim S16384x16384 (![0, 1] : Fin 2 → Fin S16384x16384.rank)
  bcast_S16384_S1x16384_1 : S16384.BroadcastsInDim S1x16384 (![1] : Fin 1 → Fin S1x16384.rank)
  bcast_S1x16384_S16384x16384_0_1 : S1x16384.BroadcastsInDim S16384x16384 (![0, 1] : Fin 2 → Fin S16384x16384.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S_S64x256 : S_.BroadcastsInDim S64x256 (![] : Fin 0 → Fin S64x256.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S16384x16384_S524288x2_S524288_n_01_01_1_wf : ScatterDims.WF S16384x16384 S524288x2 S524288 [] [0, 1] [0, 1] 1
  scatter_S16384x16384_S16384x2_S16384_n_01_01_1_wf : ScatterDims.WF S16384x16384 S16384x2 S16384 [] [0, 1] [0, 1] 1
  dot_S16384x16384_S16384x128_S16384x128_1_0_0_1_n_n_wf : DotDims.WF S16384x16384 S16384x128 S16384x128 [1] [0] [0] [1] [] []
  dot_S16384x128_S128x256_S16384x256_1_0_0_1_n_n_wf : DotDims.WF S16384x128 S128x256 S16384x256 [1] [0] [0] [1] [] []
  dot_S16384x16384_S16384x256_S16384x256_1_0_0_1_n_n_wf : DotDims.WF S16384x16384 S16384x256 S16384x256 [1] [0] [0] [1] [] []
  dot_S16384x256_S256x256_S16384x256_1_0_0_1_n_n_wf : DotDims.WF S16384x256 S256x256 S16384x256 [1] [0] [0] [1] [] []
  scatter_S64x256_S16384x1_S16384x256_1_0_0_1_wf : ScatterDims.WF S64x256 S16384x1 S16384x256 [1] [0] [0] 1
  scatter_S64_S16384x1_S16384_n_0_0_1_wf : ScatterDims.WF S64 S16384x1 S16384 [] [0] [0] 1
  dot_S64x256_S256x10_S64x10_1_0_0_1_n_n_wf : DotDims.WF S64x256 S256x10 S64x10 [1] [0] [0] [1] [] []

variable [Facts₀]

def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def scatter_S16384x16384_S16384x2_S16384_n_01_01_1 : ScatterDims S16384x16384 S16384x2 S16384 where
  updateWindowDims := []
  insertedWindowDims := [0, 1]
  scatterDimsToOperandDims := [0, 1]
  indexVectorDim := 1
  wf := scatter_S16384x16384_S16384x2_S16384_n_01_01_1_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def scatter_S64x256_S16384x1_S16384x256_1_0_0_1 : ScatterDims S64x256 S16384x1 S16384x256 where
  updateWindowDims := [1]
  insertedWindowDims := [0]
  scatterDimsToOperandDims := [0]
  indexVectorDim := 1
  wf := scatter_S64x256_S16384x1_S16384x256_1_0_0_1_wf
def scatter_S64_S16384x1_S16384_n_0_0_1 : ScatterDims S64 S16384x1 S16384 where
  updateWindowDims := []
  insertedWindowDims := [0]
  scatterDimsToOperandDims := [0]
  indexVectorDim := 1
  wf := scatter_S64_S16384x1_S16384_n_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

class Facts : Prop extends Facts₀ where

variable [Facts]
-- ==== Proof.BitsRegion0Runs.lean ====
/-
  Region 0 — the row degrees. The grid is 8 × 8; at point (i, k) the body adds to a column accumulator kept in
  scratch the lane sums of block (i, k) of the adjacency matrix, clearing the accumulator first when k = 0 and
  copying it to the output block when k = 7. Three control cases: k = 0 (A), 0 < k < 7 (B), k = 7 (C).
  This module: the branch conditions in closed form, where the output window is idle, and the body's run in each
  case on whole staging buffers, with the stores each buffer ends with as the run finds them.
-/
import proofs.«103720_j9775345566347_1_alg».proof.Proof.Gen.Kernel.Launch
import proofs.«103720_j9775345566347_1_alg».proof.Proof.Gen.Kernel.Skeleton
import proofs.«103720_j9775345566347_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, from the grid coordinates -/

/-- "k = 0": the accumulator is cleared first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "k = 7": the accumulator is copied to the output block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The staging and scratch buffers at a point -/

abbrev VO0_1 : View sig .tc .vmem S2048x1 .f32 := (Memref.whole cc0_stg1_0 : Memref sig .tc .vmem S2048x1 .f32).view
abbrev ms0_0 (t : Fin cfg0.N) : Memref sig .tc .vmem S2048x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S2048x1 .f32 := Memref.whole cc0_scratch0
abbrev VS0_0 : View sig .tc .vmem S2048x1 .f32 := scM0_0.view

/-- The core's other scoped buffers (the other two regions' staging buffers and accumulators), each whole at some
    contents: they ride through region 0 untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f))

/-- The class invariant splits into the accumulator at some contents, the other scoped buffers, and the generator
    register at some state. -/
theorem PhiA0_split (c : Dev nD) :
    (Pipeline.ΦA spec0 c : sProp 𝕄) ⊢ iprop((∃ d, owns (c : Thread nD τ) scM0_0 fullShare d) ∗ rest0 c ∗ (∃ r, prngReg c r)) := by
  unfold Pipeline.ΦA rest0; rw [scopedRest0_eq]; simp only [scM0_0, owns_whole]
  iintro ⟨⟨HS, Hrest⟩, Hg⟩
  isplitl [HS]; · iexact HS
  isplitl [Hrest]; · iexact Hrest
  iexact Hg

theorem PhiA0_join (c : Dev nD) :
    iprop((∃ d, owns (c : Thread nD τ) scM0_0 fullShare d) ∗ rest0 c ∗ (∃ r, prngReg c r)) ⊢ (Pipeline.ΦA spec0 c : sProp 𝕄) := by
  unfold Pipeline.ΦA rest0; rw [scopedRest0_eq]; simp only [scM0_0, owns_whole]
  iintro ⟨HS, Hrest, Hg⟩
  isplitr [Hg]
  · isplitl [HS]; · iexact HS
    iexact Hrest
  iexact Hg

/-! ## The body's run, case by case -/

set_option maxHeartbeats 1000000 in
/-- Case A (k = 0): the accumulator, at anything, is cleared and then holds the block's lane sums added to zero; the
    output block's buffer is handed back untouched. -/
noncomputable def kernelRun0_A (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x2048 .bf16) :
    { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- Case B (0 < k < 7): the accumulator, at what the point before left, gains the block's lane sums; the output
    block's buffer is handed back untouched. -/
noncomputable def kernelRun0_B (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x2048 .bf16) (xs0 : Vec F S2048x1 .f32) :
    { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, fun xi1 E K => ?run⟩
  case run =>
    simp only [cc0__degree_kernel_eq_skeleton]; unfold cc0__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- Case C (k = 7): the accumulator gains the block's lane sums and is then copied to the output block's buffer. -/
noncomputable def kernelRun0_C (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .bf16) (xs0 : Vec F S2048x1 .f32) :
    Σ' (L1 : List (View.Piece (Elt F) S2048x1 .f32)), { LS0 : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Gen

end
-- ==== Proof.BitsRegion0.lean ====
/-
  Region 0 — the row degrees, continued. What the accumulator holds after each grid point (a recursion over the
  points: cleared and restarted at k = 0, extended otherwise), what the output block's buffer holds at the points
  k = 7, the region's invariant (before the first point the class's; afterwards the accumulator at the recursion's
  value, every other scoped buffer at some contents, the generator register at some state), the proof data over
  the contents V the region is entered with, and the body's obligation at every point.
-/
import proofs.«103720_j9775345566347_1_alg».proof.Proof.Gen.Kernel.Launch
import proofs.«103720_j9775345566347_1_alg».proof.Proof.Gen.Kernel.Skeleton
import proofs.«103720_j9775345566347_1_alg».proof.Proof.Gen.Kernel.Points
import proofs.«103720_j9775345566347_1_alg».proof.Proof.BitsRegion0Runs
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's current buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

theorem scover0_A_0 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x2048 .bf16) (y : S2048x1.Idx) :
    ∃ pc ∈ (kernelRun0_A c i arg2 harg2 arg3 harg3 arg4 harg4 hc0 hc1 x0).1, y ∈ pc.1.set :=
  View.cover_of_tiledL (kernelRun0_A c i arg2 harg2 arg3 harg3 arg4 harg4 hc0 hc1 x0).1 S2048x1.size (by sl_kernel_rfl) y

/-- The accumulator after a point with k = 0. -/
def sout0_A_0 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x2048 .bf16) : Vec F S2048x1 .f32 :=
  VS0_0.read (Elt F) (VS0_0.writes (Elt F) VS0_0.junk (kernelRun0_A c i arg2 harg2 arg3 harg3 arg4 harg4 hc0 hc1 x0).1)

theorem scover0_B_0 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x2048 .bf16) (xs0 : Vec F S2048x1 .f32) (y : S2048x1.Idx) :
    ∃ pc ∈ (kernelRun0_B c i arg2 harg2 arg3 harg3 arg4 harg4 hc0 hc1 x0 xs0).1, y ∈ pc.1.set :=
  View.cover_of_tiledL (kernelRun0_B c i arg2 harg2 arg3 harg3 arg4 harg4 hc0 hc1 x0 xs0).1 S2048x1.size (by sl_kernel_rfl) y

/-- The accumulator after a point with 0 < k < 7. -/
def sout0_B_0 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x2048 .bf16) (xs0 : Vec F S2048x1 .f32) : Vec F S2048x1 .f32 :=
  VS0_0.read (Elt F) (VS0_0.writes (Elt F) VS0_0.junk (kernelRun0_B c i arg2 harg2 arg3 harg3 arg4 harg4 hc0 hc1 x0 xs0).1)

theorem cover0_C_1 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .bf16) (xs0 : Vec F S2048x1 .f32) (y : S2048x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S2048x1.size (by sl_kernel_rfl) y

/-- The output block's buffer after a point with k = 7. -/
def out0_C_1 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .bf16) (xs0 : Vec F S2048x1 .f32) : Vec F S2048x1 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .bf16) (xs0 : Vec F S2048x1 .f32) (y : S2048x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S2048x1.size (by sl_kernel_rfl) y

/-- The accumulator after a point with k = 7. -/
def sout0_C_0 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .bf16) (xs0 : Vec F S2048x1 .f32) : Vec F S2048x1 .f32 :=
  VS0_0.read (Elt F) (VS0_0.writes (Elt F) VS0_0.junk (kernelRun0_C c i arg2 harg2 arg3 harg3 arg4 harg4 hc0 hc1 x0 xs0).2.1)

/-! ## The accumulator after each point -/

/-- The accumulator after the body at position n: restarted from the block's lane sums where n ≡ 0 (mod 8),
    otherwise what the point before left plus this block's lane sums. -/
def acc0 (c : Dev nD) : (n : ℕ) → n < cfg0.N → Vec F S2048x1 .f32
  | 0, hn => sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩)
  | n + 1, hn =>
    if h0 : (n + 1) % 8 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩)
    else
      if h1 : (n + 1) % 8 = 7 then
        sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (acc0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (acc0 c n (Nat.lt_of_succ_lt hn))

theorem acc0_A (c : Dev nD) (t : Fin cfg0.N) (h0 : t.val % 8 = 0) (h1 : ¬t.val % 8 = 7) :
    acc0 V c t.val t.isLt = sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t) := by
  obtain ⟨n, hn⟩ := t
  cases n with
  | zero => exact rfl
  | succ n => exact (dif_pos h0).trans rfl

theorem acc0_B (c : Dev nD) (t : Fin cfg0.N) (h0 : ¬t.val % 8 = 0) (h1 : ¬t.val % 8 = 7) :
    acc0 V c t.val t.isLt = sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (acc0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem acc0_C (c : Dev nD) (t : Fin cfg0.N) (h0 : ¬t.val % 8 = 0) (h1 : t.val % 8 = 7) :
    acc0 V c t.val t.isLt = sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (acc0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block's buffer after the body at point t: at k = 7 what the copy leaves; elsewhere the window is idle
    and nothing consults this value. -/
def out0 (c : Dev nD) (t : Fin cfg0.N) : Vec F S2048x1 .f32 :=
  if h1 : t.val % 8 = 7 then
    out0_C_1 c (grid0.coords t) (ms0_0 t) (hs0_0 t) (ms0_1 t) (hs0_1 t) scM0_0 (Memref.isWhole_whole _) (fun h => (fun h => by omega) ((hcond0_0 t).mp h)) ((hcond0_1 t).mpr h1) (iblk0 V c 0 t) (acc0 V c (t.val - 1) (Nat.lt_of_le_of_lt (Nat.sub_le _ _) t.isLt))
  else VO0_1.read (Elt F) VO0_1.junk

theorem out0_C (c : Dev nD) (t : Fin cfg0.N) (h0 : ¬t.val % 8 = 0) (h1 : t.val % 8 = 7) :
    out0 V c t = out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (acc0 V c (t.val - 1) (Nat.lt_of_le_of_lt (Nat.sub_le _ _) t.isLt)) :=
  (dif_pos h1).trans rfl

/-! ## The region's invariant -/

def PhiS0 (c : Dev nD) : (n : ℕ) → n ≤ cfg0.N → sProp 𝕄
  | 0, _ => Pipeline.ΦA spec0 c
  | n + 1, hn => iprop(owns (c : Thread nD τ) scM0_0 fullShare (acc0 V c n hn) ∗ rest0 c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare (acc0 V c n hn) ∗ rest0 c ∗ (∃ r, prngReg c r)) := rfl

theorem PhiS0_pos (c : Dev nD) (n : ℕ) (h : n ≤ cfg0.N) (hz : n ≠ 0) :
    PhiS0 V c n h = iprop(owns (c : Thread nD τ) scM0_0 fullShare (acc0 V c (n - 1) (by omega)) ∗ rest0 c ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = out0 V c t := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the adjacency window's buffer holds its block; the closed forms say which case the point
    is in; the invariant hands the body the accumulator at what the point before left (at anything before the first
    point) and takes it back at this point's value; the other scoped buffers, the generator register and the
    core's dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  have hN : t.val < 64 := lt_of_lt_of_eq t.isLt (show cfg0.N = 64 from N_0)
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V c) 1 t (idleAt0_1 t hc1) (noFlush0_1 t hc1)]
    rw [acc0_A V c t h0 h1]
    unfold sout0_A_0; (try dsimp only)
    by_cases hz : t.val = 0
    · rw [PhiS0_castSucc V c t, PhiS0_zero V c _ _ hz]
      iintro ⟨HΦ, Ho, ⟨%d0, H0⟩, ⟨%d1, H1⟩⟩
      ihave HΦ' := (PhiA0_split c) $$ HΦ
      icases HΦ' with ⟨HS0, Hr, Hg⟩
      iapply ((kernelRun0_A c (grid0.coords t) _ _ _ _ _ _ hc0 hc1 (iblk0 V c 0 t)).2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0]
        · unfold owns; iexists _; isplitr
          swap; · iexact HS0
          ipureintro; exact View.read_writes_of_cover _ _ _ _ _ (scover0_A_0 c _ _ _ _ _ _ _ _ _ _)
        isplitl [Hr]; · iexact Hr
        iexact Hg
      isplitl [Ho]; · iexact Ho
      isplitl [H0]; · iexact H0
      iexists _; iexact H1
    · rw [PhiS0_castSucc V c t, PhiS0_pos V c _ _ hz]
      iintro ⟨⟨HS0, Hr, Hg⟩, Ho, ⟨%d0, H0⟩, ⟨%d1, H1⟩⟩
      iapply ((kernelRun0_A c (grid0.coords t) _ _ _ _ _ _ hc0 hc1 (iblk0 V c 0 t)).2 _ Set.univ _)
      isplitl [H0]; · iexact H0
      isplitl [H1]; · iexact H1
      isplitl [HS0]; · iexists _; iexact HS0
      iintro ⟨H0, H1, ⟨%es0, HS0⟩⟩
      isplitl [HS0 Hr Hg]
      · isplitl [HS0]
        · unfold owns; iexists _; isplitr
          swap; · iexact HS0
          ipureintro; exact View.read_writes_of_cover _ _ _ _ _ (scover0_A_0 c _ _ _ _ _ _ _ _ _ _)
        isplitl [Hr]; · iexact Hr
        iexact Hg
      isplitl [Ho]; · iexact Ho
      isplitl [H0]; · iexact H0
      iexists _; iexact H1
  · have hz : t.val ≠ 0 := fun e => h0 (by rw [e])
    have hc0 : ¬cond0_0 (grid0.coords t) := fun h => h0 ((hcond0_0 t).mp h)
    by_cases h1 : t.val % 8 = 7
    · have hc1 : cond0_1 (grid0.coords t) := (hcond0_1 t).mpr h1
      rw [show (dat0 V c).leavesExact 1 t = owns (c : Thread nD τ) (ms0_1 t) fullShare ((dat0 V c).after 1 t) from by
        unfold Dat.leavesExact; rw [liveAt0_1 t hc1], after0_1]
      rw [out0_C V c t h0 h1, acc0_C V c t h0 h1]
      unfold out0_C_1 sout0_C_0; (try dsimp only)
      rw [PhiS0_castSucc V c t, PhiS0_pos V c _ _ hz]
      iintro ⟨⟨HS0, Hr, Hg⟩, Ho, ⟨%d0, H0⟩, ⟨%d1, H1⟩⟩
      iapply ((kernelRun0_C c (grid0.coords t) _ _ _ _ _ _ hc0 hc1 (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hr Hg]
      · isplitl [HS0]
        · unfold owns; iexists _; isplitr
          swap; · iexact HS0
          ipureintro; exact View.read_writes_of_cover _ _ _ _ _ (scover0_C_0 c _ _ _ _ _ _ _ _ _ _ _)
        isplitl [Hr]; · iexact Hr
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · have hc1 : ¬cond0_1 (grid0.coords t) := fun h => h1 ((hcond0_1 t).mp h)
      rw [Dat.leavesExact_idle (dat0 V c) 1 t (idleAt0_1 t hc1) (noFlush0_1 t hc1)]
      rw [acc0_B V c t h0 h1]
      unfold sout0_B_0; (try dsimp only)
      rw [PhiS0_castSucc V c t, PhiS0_pos V c _ _ hz]
      iintro ⟨⟨HS0, Hr, Hg⟩, Ho, ⟨%d0, H0⟩, ⟨%d1, H1⟩⟩
      iapply ((kernelRun0_B c (grid0.coords t) _ _ _ _ _ _ hc0 hc1 (iblk0 V c 0 t) _).2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0]
        · unfold owns; iexists _; isplitr
          swap; · iexact HS0
          ipureintro; exact View.read_writes_of_cover _ _ _ _ _ (scover0_B_0 c _ _ _ _ _ _ _ _ _ _ _)
        isplitl [Hr]; · iexact Hr
        iexact Hg
      isplitl [Ho]; · iexact Ho
      isplitl [H0]; · iexact H0
      iexists _; iexact H1

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the accumulator's value is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  exact (show _ ⊢ (iprop((∃ d, owns (c : Thread nD τ) scM0_0 fullShare d) ∗ rest0 c ∗ (∃ r, prngReg c r)) : sProp 𝕄) from by
    iintro ⟨HS0, Hr, Hg⟩
    isplitl [HS0]
    · iexists _; iexact HS0
    isplitl [Hr]; · iexact Hr
    iexact Hg).trans (PhiA0_join c)

theorem hout0 (c : Dev nD) : (dat0 V c).Φ (Fin.last cfg0.N) ⊢ Pipeline.ΦA spec0 c :=
  Phi_out0 V c _ (by rw [Fin.val_last]; have : cfg0.N = 64 := N_0; omega)

end Cert.Kernel.Gen

end
-- ==== Proof.LibStoreReadback.lean ====
/-
  Reading back what a kernel body's stores leave in a buffer, for any shape, element type and view.
  · The LAST store, through the whole rectangle (offsets zero, however spelt), leaves its payload, whatever was stored
    before it and whatever the buffer held (`read_store_whole`; at rank two with the offsets spelt `![0, 0]`,
    `read_store_whole2`).
  · A load through the whole rectangle of a whole buffer at contents `X` reads `X` (`load_whole`, `ld_whole2`); through a
    part, `X` at the part's indices (`load_part`).
  · ONE store through a part of a whole buffer that held `X` leaves the payload on the part and `X` off it: the
    rectangle's overlay (`read_store_part`) — what a buffer filled slice by slice over several grid points holds.
  · A load through any part, after one store through the whole rectangle, reads the stored payload at the part's
    indices, whatever the buffer held before (`readCov_part`, `readCov_part2`).
  They turn the piece lists a symbolic run of a body finds into the body's payload terms.
-/
import Idealize.ShloMosaic.Lib.Pipeline.FrameBody
import Idealize.ShloMosaic.Lib.Pipeline.Value

noncomputable section

namespace Idealize.ShloMosaic.StoreReadback

open Idealize.ShloMosaic

theorem zeros2 : (![0, 0] : Fin 2 → ℕ) = fun _ => 0 := by funext a; fin_cases a <;> rfl

variable {sg : RefSig} {κ : Kind} {sp : Space} {S : Shape} {e : EltTy} {Val : EltTy → Type} [∀ e, Nonempty (Val e)]

/-- The last store, through the whole rectangle, leaves its payload. -/
theorem read_store_whole (v : View sg κ sp S e) (f : v.ty.Contents Val) {off : Fin S.rank → ℕ} (hz : off = fun _ => 0)
    (inb : ∀ a, off a + S.size a ≤ S.size a) (w : S.Idx → Val e) (L : List (View.Piece Val S e)) :
    v.read Val (v.writes Val f (⟨Rect.unit off S.size inb, w⟩ :: L)) = w := by
  rw [View.read_writes_eq_canon v f _ (fun y => ⟨_, List.mem_cons_self, View.mem_set_unit_zero hz inb y⟩),
    View.canon_cons_unit_zero hz inb w L]

/-- A load through the whole rectangle of a whole buffer reads its contents. -/
theorem load_whole (mr : Memref sg κ sp S e) (h : mr.IsWhole) {off : Fin S.rank → ℕ} (hz : off = fun _ => 0)
    (inb : ∀ a, off a + S.size a ≤ S.size a) (X : S.Idx → Val e) :
    View.readAt Val mr.view (Rect.unit off S.size inb).toLoadRect (h.unread X) = X := by
  rw [View.readAt_eq_ld, h.read_unread, View.ld_unit_zero hz inb]

/-- A load through a part of a whole buffer reads the contents at the part's indices. -/
theorem load_part (mr : Memref sg κ sp S e) (h : mr.IsWhole) (r : Rect S) (X : S.Idx → Val e) :
    View.readAt Val mr.view r.toLoadRect (h.unread X) = View.ld X r := by
  rw [View.readAt_eq_ld, h.read_unread]

/-- One store through a part of a whole buffer that held `X` leaves the payload on the part, `X` off it. -/
theorem read_store_part (mr : Memref sg κ sp S e) (h : mr.IsWhole) (r : Rect S) (w : r.shape.Idx → Val e) (X : S.Idx → Val e) :
    mr.view.read Val (mr.view.writes Val (h.unread X) [⟨r, w⟩]) = r.overlay X w := by
  funext y
  by_cases hy : y ∈ r.set
  · obtain ⟨x, rfl⟩ := r.exists_idx_of_mem hy
    rw [show r.idx x = r.emb x from rfl, View.read_writes_cons_emb, Rect.overlay_emb]
  · rw [View.read_writes_apply_of_forall_not_mem _ _ y [⟨r, w⟩] (fun p hp => by
        rw [List.mem_singleton] at hp; subst hp; exact hy), h.read_unread, Rect.overlay_of_not_mem _ _ _ hy]

/-- A load through any part, after one store through the whole rectangle, reads the payload at the part's indices. -/
theorem readCov_part (v : View sg κ sp S e) {off : Fin S.rank → ℕ} (hz : off = fun _ => 0)
    (inb : ∀ a, off a + S.size a ≤ S.size a) (w : S.Idx → Val e) (r : Rect S) :
    v.readCov [(⟨Rect.unit off S.size inb, w⟩ : View.Piece Val S e)] r.toLoadRect = View.ld w r := by
  subst hz
  rw [View.readCov_eq_canon_ld v _ r (fun y => ⟨_, List.mem_singleton_self _, View.mem_set_unit_zero rfl inb y⟩),
    View.canon_unit_zero rfl inb w]

/-! The same at rank two with the offsets spelt `![0, 0]`, as printed programs spell them: usable as `simp only` lemmas. -/

theorem ld_whole2 {d : Fin 2 → ℕ} (X : (⟨2, d⟩ : Shape).Idx → Val e)
    (inb : ∀ a, (![0, 0] : Fin 2 → ℕ) a + d a ≤ (⟨2, d⟩ : Shape).size a) :
    View.ld X (Rect.unit (s := ⟨2, d⟩) ![0, 0] d inb) = X := View.ld_unit_zero zeros2 inb X

theorem read_store_whole2 {d : Fin 2 → ℕ} (v : View sg κ sp ⟨2, d⟩ e) (f : v.ty.Contents Val)
    (inb : ∀ a, (![0, 0] : Fin 2 → ℕ) a + d a ≤ (⟨2, d⟩ : Shape).size a) (w : (⟨2, d⟩ : Shape).Idx → Val e)
    (L : List (View.Piece Val ⟨2, d⟩ e)) :
    v.read Val (v.writes Val f (⟨Rect.unit (s := ⟨2, d⟩) ![0, 0] d inb, w⟩ :: L)) = w := read_store_whole v f zeros2 inb w L

theorem readCov_part2 {d : Fin 2 → ℕ} (v : View sg κ sp ⟨2, d⟩ e)
    (inb : ∀ a, (![0, 0] : Fin 2 → ℕ) a + d a ≤ (⟨2, d⟩ : Shape).size a) (w : (⟨2, d⟩ : Shape).Idx → Val e) (r : Rect ⟨2, d⟩) :
    v.readCov [(⟨Rect.unit (s := ⟨2, d⟩) ![0, 0] d inb, w⟩ : View.Piece Val ⟨2, d⟩ e)] r.toLoadRect = View.ld w r :=
  readCov_part v zeros2 inb w r

end Idealize.ShloMosaic.StoreReadback

end
-- ==== Proof.BitsRegion1Runs.lean ====
/-
  Region 1 of @main — the first graph-convolution layer. The grid is 8 × 8; at point (i, k) the body adds to an
  accumulator kept in the kernel's own scoped buffer the product of block (i, k) of the adjacency matrix with block k of
  the features, clearing the accumulator first when k = 0; when k = 7 it scales the accumulated rows by the degree
  column, multiplies by the weights, adds the bias row, clamps below at zero and stores the result to the output block.
  Three control cases: k = 0 (A), 0 < k < 7 (B), k = 7 (C).
  This module: each window's block at a point and that an input's buffer holds it; the two branch conditions in closed
  form over the grid; where the output window is idle; the class invariant with the accumulator split off from the
  scoped buffers the kernel never touches; and the body's triple in each case on whole memrefs, with the contents every
  buffer ends with stated through the skeleton's payloads.
-/
import proofs.«103720_j9775345566347_1_alg».proof.Proof.Gen.Kernel.Launch
import proofs.«103720_j9775345566347_1_alg».proof.Proof.Gen.Kernel.Skeleton
import proofs.«103720_j9775345566347_1_alg».proof.Proof.Gen.Kernel.Points
import Idealize.ShloMosaic.Lib.Pipeline.FrameBody
import Idealize.ShloMosaic.Lib.Ring
import Idealize.ShloMosaic.Lib.Tactic
import proofs.«103720_j9775345566347_1_alg».proof.Proof.LibStoreReadback

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is not
    fetched its block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (where it is not
    fetched its block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (where it is not
    fetched its block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (where it is not
    fetched its block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (where it is not
    fetched its block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- The first conditional (clear the accumulator) is taken when the reduction coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional (finish the row block and store it) is taken when the reduction coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the second conditional is not taken the output window is idle and is not written back; where it is taken the
    window is live. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The accumulator and the other scoped buffers -/

/-- The accumulator: the kernel's own scoped buffer, carried from one grid point to the next. -/
abbrev scM1 : Memref sig .tc .vmem S2048x128 .f32 := Memref.whole cc1_scratch0

/-- The core's scoped buffers that this kernel never touches (the other kernels' staging buffers and accumulators), each
    whole at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg5_1), ((c : Thread nD τ).loc cc2_stg5_1) ↦{fullShare} f)
    ∗ (∃ f : Buf (Elt F) ((c : Thread nD τ).loc cc2_scratch0), ((c : Thread nD τ).loc cc2_scratch0) ↦{fullShare} f))

/-- What the region holds beside its windows splits into the accumulator at some contents, the untouched scoped buffers,
    and the generator register at some state; -/
theorem PhiA1_split (c : Dev nD) :
    (Pipeline.ΦA spec1 c : sProp 𝕄) ⊢ iprop(iprop((∃ d, owns (c : Thread nD τ) scM1 fullShare d) ∗ others1 c) ∗ (∃ r, prngReg c r)) := by
  unfold Pipeline.ΦA others1; rw [scopedRest1_eq]; simp only [scM1, owns_whole]
  iintro ⟨⟨B_cc0_stg0_0, B_cc0_stg0_1, B_cc0_stg1_0, B_cc0_stg1_1, B_cc0_scratch0, HS, B_cc2_stg0_0, B_cc2_stg0_1, B_cc2_stg1_0, B_cc2_stg1_1, B_cc2_stg2_0, B_cc2_stg2_1, B_cc2_stg3_0, B_cc2_stg4_0, B_cc2_stg5_0, B_cc2_stg5_1, B_cc2_scratch0⟩, Hg⟩
  isplitr [Hg]
  · isplitl [HS]; · iexact HS
    isplitl [B_cc0_stg0_0]; · iexact B_cc0_stg0_0
    isplitl [B_cc0_stg0_1]; · iexact B_cc0_stg0_1
    isplitl [B_cc0_stg1_0]; · iexact B_cc0_stg1_0
    isplitl [B_cc0_stg1_1]; · iexact B_cc0_stg1_1
    isplitl [B_cc0_scratch0]; · iexact B_cc0_scratch0
    isplitl [B_cc2_stg0_0]; · iexact B_cc2_stg0_0
    isplitl [B_cc2_stg0_1]; · iexact B_cc2_stg0_1
    isplitl [B_cc2_stg1_0]; · iexact B_cc2_stg1_0
    isplitl [B_cc2_stg1_1]; · iexact B_cc2_stg1_1
    isplitl [B_cc2_stg2_0]; · iexact B_cc2_stg2_0
    isplitl [B_cc2_stg2_1]; · iexact B_cc2_stg2_1
    isplitl [B_cc2_stg3_0]; · iexact B_cc2_stg3_0
    isplitl [B_cc2_stg4_0]; · iexact B_cc2_stg4_0
    isplitl [B_cc2_stg5_0]; · iexact B_cc2_stg5_0
    isplitl [B_cc2_stg5_1]; · iexact B_cc2_stg5_1
    iexact B_cc2_scratch0
  iexact Hg

/-- and is put together from them again. -/
theorem PhiA1_join (c : Dev nD) :
    iprop(iprop((∃ d, owns (c : Thread nD τ) scM1 fullShare d) ∗ others1 c) ∗ (∃ r, prngReg c r)) ⊢ (Pipeline.ΦA spec1 c : sProp 𝕄) := by
  unfold Pipeline.ΦA others1; rw [scopedRest1_eq]; simp only [scM1, owns_whole]
  iintro ⟨⟨HS, B_cc0_stg0_0, B_cc0_stg0_1, B_cc0_stg1_0, B_cc0_stg1_1, B_cc0_scratch0, B_cc2_stg0_0, B_cc2_stg0_1, B_cc2_stg1_0, B_cc2_stg1_1, B_cc2_stg2_0, B_cc2_stg2_1, B_cc2_stg3_0, B_cc2_stg4_0, B_cc2_stg5_0, B_cc2_stg5_1, B_cc2_scratch0⟩, Hg⟩
  isplitr [Hg]
  ·
    isplitl [B_cc0_stg0_0]; · iexact B_cc0_stg0_0
    isplitl [B_cc0_stg0_1]; · iexact B_cc0_stg0_1
    isplitl [B_cc0_stg1_0]; · iexact B_cc0_stg1_0
    isplitl [B_cc0_stg1_1]; · iexact B_cc0_stg1_1
    isplitl [B_cc0_scratch0]; · iexact B_cc0_scratch0
    isplitl [HS]; · iexact HS
    isplitl [B_cc2_stg0_0]; · iexact B_cc2_stg0_0
    isplitl [B_cc2_stg0_1]; · iexact B_cc2_stg0_1
    isplitl [B_cc2_stg1_0]; · iexact B_cc2_stg1_0
    isplitl [B_cc2_stg1_1]; · iexact B_cc2_stg1_1
    isplitl [B_cc2_stg2_0]; · iexact B_cc2_stg2_0
    isplitl [B_cc2_stg2_1]; · iexact B_cc2_stg2_1
    isplitl [B_cc2_stg3_0]; · iexact B_cc2_stg3_0
    isplitl [B_cc2_stg4_0]; · iexact B_cc2_stg4_0
    isplitl [B_cc2_stg5_0]; · iexact B_cc2_stg5_0
    isplitl [B_cc2_stg5_1]; · iexact B_cc2_stg5_1
    iexact B_cc2_scratch0
  iexact Hg

theorem PhiA1_eq (c : Dev nD) :
    (Pipeline.ΦA spec1 c : sProp 𝕄) = iprop(iprop((∃ d, owns (c : Thread nD τ) scM1 fullShare d) ∗ others1 c) ∗ (∃ r, prngReg c r)) :=
  BI.equiv_iff.mp ⟨PhiA1_split c, PhiA1_join c⟩

/-! ## The body's triple, case by case -/

set_option maxHeartbeats 1000000 in
/-- The body where the reduction coordinate is 0 (the first conditional taken, the second not), on whole memrefs: the
    accumulator, found at anything, is cleared and then holds the first product; the inputs and the output's buffer are
    handed back as found. -/
theorem run1_A (c : Dev nD) (i : grid1.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x128 .f32) (harg8 : arg8.IsWhole)
    (hc0 : cond1_0 i) (hc1 : ¬cond1_1 i)
    (x0 : Vec F S2048x2048 .bf16) (x1 : Vec F S2048x128 .bf16) (x2 : Vec F S2048x1 .f32) (x3 : Vec F S128x256 .bf16) (x4 : Vec F S1x256 .f32)
    (xi5 : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (k1_pay2 k1_pay1 x0 x1)) -∗ K ⟨⟩))
      ⊢ wp frame (wpE (defs₀ (F := F)) Variants.none c none) E (cc1__gcn_kernel i arg2 harg2 arg3 harg3 arg4 harg4 arg5 harg5 arg6 harg6 arg7 harg7 arg8 harg8) K := by
  simp only [cc1__gcn_kernel_eq_skeleton]; unfold cc1__gcn_kernel_skel
  unfold owns
  iintro ⟨⟨%f0, %hf0, H0⟩, ⟨%f1, %hf1, H1⟩, H2, H3, H4, H5, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]; · iexact H2
  isplitl [H3]; · iexact H3
  isplitl [H4]; · iexact H4
  isplitl [H5]; · iexact H5
  iexists _; isplitr
  swap; · iexact HS
  ipureintro
  rw [StoreReadback.read_store_whole2]
  sl_unfold_run_names
  rw [StoreReadback.readCov_part2, StoreReadback.ld_whole2, StoreReadback.load_whole arg2 harg2 StoreReadback.zeros2, StoreReadback.load_whole arg3 harg3 StoreReadback.zeros2]

set_option maxHeartbeats 1000000 in
/-- The body where the reduction coordinate is strictly between 0 and 7 (neither conditional taken): the accumulator,
    found at `xs`, gains this point's product; everything else is handed back as found. -/
theorem run1_B (c : Dev nD) (i : grid1.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x128 .f32) (harg8 : arg8.IsWhole)
    (hc0 : ¬cond1_0 i) (hc1 : ¬cond1_1 i)
    (x0 : Vec F S2048x2048 .bf16) (x1 : Vec F S2048x128 .bf16) (x2 : Vec F S2048x1 .f32) (x3 : Vec F S128x256 .bf16) (x4 : Vec F S1x256 .f32)
    (xi5 : Vec F S2048x256 .f32) (xs : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
        ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (k1_pay2 xs x0 x1)) -∗ K ⟨⟩))
      ⊢ wp frame (wpE (defs₀ (F := F)) Variants.none c none) E (cc1__gcn_kernel i arg2 harg2 arg3 harg3 arg4 harg4 arg5 harg5 arg6 harg6 arg7 harg7 arg8 harg8) K := by
  simp only [cc1__gcn_kernel_eq_skeleton]; unfold cc1__gcn_kernel_skel
  unfold owns
  iintro ⟨⟨%f0, %hf0, H0⟩, ⟨%f1, %hf1, H1⟩, H2, H3, H4, H5, ⟨%fs, %hfs, HS⟩, Hk⟩
  obtain rfl := harg2.eq_unread hf0; obtain rfl := harg3.eq_unread hf1; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]; · iexact H2
  isplitl [H3]; · iexact H3
  isplitl [H4]; · iexact H4
  isplitl [H5]; · iexact H5
  iexists _; isplitr
  swap; · iexact HS
  ipureintro
  rw [StoreReadback.read_store_whole2, StoreReadback.load_whole arg8 harg8 StoreReadback.zeros2, StoreReadback.load_whole arg2 harg2 StoreReadback.zeros2, StoreReadback.load_whole arg3 harg3 StoreReadback.zeros2]

set_option maxHeartbeats 1000000 in
/-- The body where the reduction coordinate is 7 (the second conditional taken, the first not): the accumulator, found at
    `xs`, gains this point's product, and the output's buffer, found at anything, is stored whole with the finished
    row block computed from the accumulator, the scaling column, the weights and the bias row. -/
theorem run1_C (c : Dev nD) (i : grid1.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x128 .f32) (harg8 : arg8.IsWhole)
    (hc0 : ¬cond1_0 i) (hc1 : cond1_1 i)
    (x0 : Vec F S2048x2048 .bf16) (x1 : Vec F S2048x128 .bf16) (x2 : Vec F S2048x1 .f32) (x3 : Vec F S128x256 .bf16) (x4 : Vec F S1x256 .f32)
    (xs : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay3 (k1_pay2 xs x0 x1) x2 x3 x4)
            ∗ owns (c : Thread nD τ) arg8 fullShare (k1_pay2 xs x0 x1)) -∗ K ⟨⟩))
      ⊢ wp frame (wpE (defs₀ (F := F)) Variants.none c none) E (cc1__gcn_kernel i arg2 harg2 arg3 harg3 arg4 harg4 arg5 harg5 arg6 harg6 arg7 harg7 arg8 harg8) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_run_names
    rw [StoreReadback.read_store_whole2, StoreReadback.readCov_part2, StoreReadback.ld_whole2, StoreReadback.load_whole arg8 harg8 StoreReadback.zeros2, StoreReadback.load_whole arg2 harg2 StoreReadback.zeros2, StoreReadback.load_whole arg3 harg3 StoreReadback.zeros2,
      StoreReadback.load_whole arg4 harg4 StoreReadback.zeros2, StoreReadback.load_whole arg5 harg5 StoreReadback.zeros2, StoreReadback.load_whole arg6 harg6 StoreReadback.zeros2]
  iexists _; isplitr
  swap; · iexact HS
  ipureintro
  sl_unfold_run_names
  rw [StoreReadback.read_store_whole2, StoreReadback.load_whole arg8 harg8 StoreReadback.zeros2, StoreReadback.load_whole arg2 harg2 StoreReadback.zeros2, StoreReadback.load_whole arg3 harg3 StoreReadback.zeros2]

end Cert.Kernel.Gen

end
-- ==== Proof.BitsRegion1.lean ====
/-
  Region 1 of @main — the first graph-convolution layer: the frame data of its pipeline, at the buffer contents `V` the
  region is entered with. What the accumulator holds after each grid point (`acc1`, by recursion on the point); the
  region invariant (`PhiS1`: what the launch hands over before the first point, afterwards the accumulator owned at
  `acc1` of the point before beside the untouched scoped buffers and the generator register); the proof data (`dat1`:
  every input's buffer at its block, the output's at the finished row block computed from the accumulator); the body
  obligation at every point from the three case triples; and that the invariant starts from and ends in the launch's form.
-/
import proofs.«103720_j9775345566347_1_alg».proof.Proof.BitsRegion1Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator after each point -/

/-- THE ACCUMULATION. What the accumulator holds after the body at position `n`: where the reduction coordinate is 0 the
    product of this point's adjacency and feature blocks added to zero, elsewhere that product added to what the point
    before left. -/
def acc1 (c : Dev nD) : (n : ℕ) → n < cfg1.N → Vec F S2048x128 .f32
  | 0, hn => k1_pay2 k1_pay1 (iblk1 V c 0 ⟨0, hn⟩) (iblk1 V c 1 ⟨0, hn⟩)
  | n + 1, hn =>
    if (n + 1) % 8 = 0 then k1_pay2 k1_pay1 (iblk1 V c 0 ⟨n + 1, hn⟩) (iblk1 V c 1 ⟨n + 1, hn⟩)
    else k1_pay2 (acc1 c n (Nat.lt_of_succ_lt hn)) (iblk1 V c 0 ⟨n + 1, hn⟩) (iblk1 V c 1 ⟨n + 1, hn⟩)

/-- At the first point of a row block the accumulation starts afresh. -/
theorem acc1_first (c : Dev nD) (n : ℕ) (hn : n < cfg1.N) (h : n % 8 = 0) :
    acc1 V c n hn = k1_pay2 k1_pay1 (iblk1 V c 0 ⟨n, hn⟩) (iblk1 V c 1 ⟨n, hn⟩) := by
  cases n with
  | zero => rfl
  | succ n => exact if_pos h

/-- At any other point it continues from the point before. -/
theorem acc1_next (c : Dev nD) (n : ℕ) (hn : n < cfg1.N) (h : n % 8 ≠ 0) :
    acc1 V c n hn = k1_pay2 (acc1 V c (n - 1) (Nat.lt_of_le_of_lt (Nat.sub_le _ _) hn)) (iblk1 V c 0 ⟨n, hn⟩) (iblk1 V c 1 ⟨n, hn⟩) := by
  cases n with
  | zero => exact absurd (Nat.zero_mod _) h
  | succ n => exact if_neg h

/-! ## The region invariant -/

/-- Before position `n`: before the first point what the launch hands the region (every scoped buffer that is no staging
    buffer of this kernel at some contents, the generator register at some state); afterwards the same with the accumulator
    at what the point before left in it. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ others1 c) ∗ (∃ r, prngReg c r)) := by
  cases n with
  | zero => exact absurd rfl hz
  | succ n => rfl

/-! ## The pipeline's proof data -/

/-- The proof data of pipeline 1 on core `c`: the arrays as the region finds them (`V`); after the body at point `t` each
    input's buffer at its block and the output's at the finished row block computed from the accumulator at `t` (consulted
    only where the window is written back: the last point of each row block); the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay3 (acc1 V c t.val t.isLt) (iblk1 V c 2 t) (iblk1 V c 3 t) (iblk1 V c 4 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = k1_pay3 (acc1 V c t.val t.isLt) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the reduction coordinate `t % 8` says which of the three
    cases the point is in; the invariant hands the body the accumulator at what the point before left (at anything before
    the first point) and takes it back at this point's contents; where the output window is idle its buffer goes back as
    found, and at the last point of a row block it goes back at the finished block; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  have hN : t.val < 64 := lt_of_lt_of_eq t.isLt (show cfg1.N = 64 from N_1)
  by_cases h0 : t.val % 8 = 0
  · -- the first point of a row block
    have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 t hc1) (noFlush1_5 t hc1)]
    rw [acc1_first V c t.val t.isLt h0]
    by_cases hz : t.val = 0
    · rw [PhiS1_castSucc V c t, PhiS1_zero V c _ _ hz, PhiA1_eq]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run1_A c (grid1.coords t) _ _ _ _ _ _ _ _ _ _ _ _ _ _ hc0 hc1 (iblk1 V c 0 t) (iblk1 V c 1 t) (iblk1 V c 2 t) (iblk1 V c 3 t) (iblk1 V c 4 t) ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run1_A c (grid1.coords t) _ _ _ _ _ _ _ _ _ _ _ _ _ _ hc0 hc1 (iblk1 V c 0 t) (iblk1 V c 1 t) (iblk1 V c 2 t) (iblk1 V c 3 t) (iblk1 V c 4 t) ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    have hc0 : ¬cond1_0 (grid1.coords t) := fun h => h0 ((hcond1_0 t).mp h)
    rw [acc1_next V c t.val t.isLt h0]
    rw [PhiS1_castSucc V c t, PhiS1_pos V c _ _ hz]
    by_cases h1 : t.val % 8 = 7
    · -- the last point of a row block
      have hc1 : cond1_1 (grid1.coords t) := (hcond1_1 t).mpr h1
      rw [show (dat1 V c).leavesExact 5 t = owns (c : Thread nD τ) (st1_5 t) fullShare ((dat1 V c).after 5 t) from by
        unfold Dat.leavesExact; rw [liveAt1_5 t hc1], after1_5, acc1_next V c t.val t.isLt h0]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run1_C c (grid1.coords t) _ _ _ _ _ _ _ _ _ _ _ _ _ _ hc0 hc1 (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a point strictly inside a row block
      have hc1 : ¬cond1_1 (grid1.coords t) := fun h => h1 ((hcond1_1 t).mp h)
      rw [Dat.leavesExact_idle (dat1 V c) 5 t (idleAt1_5 t hc1) (noFlush1_5 t hc1)]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run1_B c (grid1.coords t) _ _ _ _ _ _ _ _ _ _ _ _ _ _ hc0 hc1 (iblk1 V c 0 t) (iblk1 V c 1 t) (iblk1 V c 2 t) (iblk1 V c 3 t) (iblk1 V c 4 t) ((dat1 V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hoth⟩, Hg⟩
  isplitl [HS Hoth]
  · isplitl [HS]; · iexists _; iexact HS
    iexact Hoth
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Gen

end
-- ==== Proof.BitsRegion2Runs.lean ====
/-
  Region 2 of @main — the second graph-convolution layer. The grid is 8 × 8; at point (i, k) the body adds to an
  accumulator kept in the kernel's own scoped buffer the product of block (i, k) of the adjacency matrix with block k of
  the features, clearing the accumulator first when k = 0; when k = 7 it scales the accumulated rows by the degree
  column, multiplies by the weights, adds the bias row, clamps below at zero and stores the result to the output block.
  Three control cases: k = 0 (A), 0 < k < 7 (B), k = 7 (C).
  This module: each window's block at a point and that an input's buffer holds it; the two branch conditions in closed
  form over the grid; where the output window is idle; the class invariant with the accumulator split off from the
  scoped buffers the kernel never touches; and the body's triple in each case on whole memrefs, with the contents every
  buffer ends with stated through the skeleton's payloads.
-/
import proofs.«103720_j9775345566347_1_alg».proof.Proof.Gen.Kernel.Launch
import proofs.«103720_j9775345566347_1_alg».proof.Proof.Gen.Kernel.Skeleton
import proofs.«103720_j9775345566347_1_alg».proof.Proof.Gen.Kernel.Points
import Idealize.ShloMosaic.Lib.Pipeline.FrameBody
import Idealize.ShloMosaic.Lib.Ring
import Idealize.ShloMosaic.Lib.Tactic
import proofs.«103720_j9775345566347_1_alg».proof.Proof.LibStoreReadback

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (where it is not
    fetched its block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (where it is not
    fetched its block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (where it is not
    fetched its block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (where it is not
    fetched its block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (where it is not
    fetched its block index has not moved), for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, in closed form over the grid -/

/-- The first conditional (clear the accumulator) is taken when the reduction coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional (finish the row block and store it) is taken when the reduction coordinate is 7. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Where the second conditional is not taken the output window is idle and is not written back; where it is taken the
    window is live. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

/-! ## The accumulator and the other scoped buffers -/

/-- The accumulator: the kernel's own scoped buffer, carried from one grid point to the next. -/
abbrev scM2 : Memref sig .tc .vmem S2048x256 .f32 := Memref.whole cc2_scratch0

/-- The core's scoped buffers that this kernel never touches (the other kernels' staging buffers and accumulators), each
    whole at some contents. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_scratch0), ((c : Thread nD τ).loc cc1_scratch0) ↦{fullShare} f))

/-- What the region holds beside its windows splits into the accumulator at some contents, the untouched scoped buffers,
    and the generator register at some state; -/
theorem PhiA2_split (c : Dev nD) :
    (Pipeline.ΦA spec2 c : sProp 𝕄) ⊢ iprop(iprop((∃ d, owns (c : Thread nD τ) scM2 fullShare d) ∗ others2 c) ∗ (∃ r, prngReg c r)) := by
  unfold Pipeline.ΦA others2; rw [scopedRest2_eq]; simp only [scM2, owns_whole]
  iintro ⟨⟨B_cc0_stg0_0, B_cc0_stg0_1, B_cc0_stg1_0, B_cc0_stg1_1, B_cc0_scratch0, B_cc1_stg0_0, B_cc1_stg0_1, B_cc1_stg1_0, B_cc1_stg1_1, B_cc1_stg2_0, B_cc1_stg2_1, B_cc1_stg3_0, B_cc1_stg4_0, B_cc1_stg5_0, B_cc1_stg5_1, B_cc1_scratch0, HS⟩, Hg⟩
  isplitr [Hg]
  · isplitl [HS]; · iexact HS
    isplitl [B_cc0_stg0_0]; · iexact B_cc0_stg0_0
    isplitl [B_cc0_stg0_1]; · iexact B_cc0_stg0_1
    isplitl [B_cc0_stg1_0]; · iexact B_cc0_stg1_0
    isplitl [B_cc0_stg1_1]; · iexact B_cc0_stg1_1
    isplitl [B_cc0_scratch0]; · iexact B_cc0_scratch0
    isplitl [B_cc1_stg0_0]; · iexact B_cc1_stg0_0
    isplitl [B_cc1_stg0_1]; · iexact B_cc1_stg0_1
    isplitl [B_cc1_stg1_0]; · iexact B_cc1_stg1_0
    isplitl [B_cc1_stg1_1]; · iexact B_cc1_stg1_1
    isplitl [B_cc1_stg2_0]; · iexact B_cc1_stg2_0
    isplitl [B_cc1_stg2_1]; · iexact B_cc1_stg2_1
    isplitl [B_cc1_stg3_0]; · iexact B_cc1_stg3_0
    isplitl [B_cc1_stg4_0]; · iexact B_cc1_stg4_0
    isplitl [B_cc1_stg5_0]; · iexact B_cc1_stg5_0
    isplitl [B_cc1_stg5_1]; · iexact B_cc1_stg5_1
    iexact B_cc1_scratch0
  iexact Hg

/-- and is put together from them again. -/
theorem PhiA2_join (c : Dev nD) :
    iprop(iprop((∃ d, owns (c : Thread nD τ) scM2 fullShare d) ∗ others2 c) ∗ (∃ r, prngReg c r)) ⊢ (Pipeline.ΦA spec2 c : sProp 𝕄) := by
  unfold Pipeline.ΦA others2; rw [scopedRest2_eq]; simp only [scM2, owns_whole]
  iintro ⟨⟨HS, B_cc0_stg0_0, B_cc0_stg0_1, B_cc0_stg1_0, B_cc0_stg1_1, B_cc0_scratch0, B_cc1_stg0_0, B_cc1_stg0_1, B_cc1_stg1_0, B_cc1_stg1_1, B_cc1_stg2_0, B_cc1_stg2_1, B_cc1_stg3_0, B_cc1_stg4_0, B_cc1_stg5_0, B_cc1_stg5_1, B_cc1_scratch0⟩, Hg⟩
  isplitr [Hg]
  ·
    isplitl [B_cc0_stg0_0]; · iexact B_cc0_stg0_0
    isplitl [B_cc0_stg0_1]; · iexact B_cc0_stg0_1
    isplitl [B_cc0_stg1_0]; · iexact B_cc0_stg1_0
    isplitl [B_cc0_stg1_1]; · iexact B_cc0_stg1_1
    isplitl [B_cc0_scratch0]; · iexact B_cc0_scratch0
    isplitl [B_cc1_stg0_0]; · iexact B_cc1_stg0_0
    isplitl [B_cc1_stg0_1]; · iexact B_cc1_stg0_1
    isplitl [B_cc1_stg1_0]; · iexact B_cc1_stg1_0
    isplitl [B_cc1_stg1_1]; · iexact B_cc1_stg1_1
    isplitl [B_cc1_stg2_0]; · iexact B_cc1_stg2_0
    isplitl [B_cc1_stg2_1]; · iexact B_cc1_stg2_1
    isplitl [B_cc1_stg3_0]; · iexact B_cc1_stg3_0
    isplitl [B_cc1_stg4_0]; · iexact B_cc1_stg4_0
    isplitl [B_cc1_stg5_0]; · iexact B_cc1_stg5_0
    isplitl [B_cc1_stg5_1]; · iexact B_cc1_stg5_1
    isplitl [B_cc1_scratch0]; · iexact B_cc1_scratch0
    iexact HS
  iexact Hg

theorem PhiA2_eq (c : Dev nD) :
    (Pipeline.ΦA spec2 c : sProp 𝕄) = iprop(iprop((∃ d, owns (c : Thread nD τ) scM2 fullShare d) ∗ others2 c) ∗ (∃ r, prngReg c r)) :=
  BI.equiv_iff.mp ⟨PhiA2_split c, PhiA2_join c⟩

/-! ## The body's triple, case by case -/

set_option maxHeartbeats 1000000 in
/-- The body where the reduction coordinate is 0 (the first conditional taken, the second not), on whole memrefs: the
    accumulator, found at anything, is cleared and then holds the first product; the inputs and the output's buffer are
    handed back as found. -/
theorem run2_A (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S2048x1 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x256 .f32) (harg8 : arg8.IsWhole)
    (hc0 : cond2_0 i) (hc1 : ¬cond2_1 i)
    (x0 : Vec F S2048x2048 .bf16) (x1 : Vec F S2048x256 .bf16) (x2 : Vec F S2048x1 .f32) (x3 : Vec F S256x256 .bf16) (x4 : Vec F S1x256 .f32)
    (xi5 : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (k2_pay2 k2_pay1 x0 x1)) -∗ K ⟨⟩))
      ⊢ wp frame (wpE (defs₀ (F := F)) Variants.none c none) E (cc2__gcn_kernel i arg2 harg2 arg3 harg3 arg4 harg4 arg5 harg5 arg6 harg6 arg7 harg7 arg8 harg8) K := by
  simp only [cc2__gcn_kernel_eq_skeleton]; unfold cc2__gcn_kernel_skel
  unfold owns
  iintro ⟨⟨%f0, %hf0, H0⟩, ⟨%f1, %hf1, H1⟩, H2, H3, H4, H5, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]; · iexact H2
  isplitl [H3]; · iexact H3
  isplitl [H4]; · iexact H4
  isplitl [H5]; · iexact H5
  iexists _; isplitr
  swap; · iexact HS
  ipureintro
  rw [StoreReadback.read_store_whole2]
  sl_unfold_run_names
  rw [StoreReadback.readCov_part2, StoreReadback.ld_whole2, StoreReadback.load_whole arg2 harg2 StoreReadback.zeros2, StoreReadback.load_whole arg3 harg3 StoreReadback.zeros2]

set_option maxHeartbeats 1000000 in
/-- The body where the reduction coordinate is strictly between 0 and 7 (neither conditional taken): the accumulator,
    found at `xs`, gains this point's product; everything else is handed back as found. -/
theorem run2_B (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S2048x1 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x256 .f32) (harg8 : arg8.IsWhole)
    (hc0 : ¬cond2_0 i) (hc1 : ¬cond2_1 i)
    (x0 : Vec F S2048x2048 .bf16) (x1 : Vec F S2048x256 .bf16) (x2 : Vec F S2048x1 .f32) (x3 : Vec F S256x256 .bf16) (x4 : Vec F S1x256 .f32)
    (xi5 : Vec F S2048x256 .f32) (xs : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
        ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (k2_pay2 xs x0 x1)) -∗ K ⟨⟩))
      ⊢ wp frame (wpE (defs₀ (F := F)) Variants.none c none) E (cc2__gcn_kernel i arg2 harg2 arg3 harg3 arg4 harg4 arg5 harg5 arg6 harg6 arg7 harg7 arg8 harg8) K := by
  simp only [cc2__gcn_kernel_eq_skeleton]; unfold cc2__gcn_kernel_skel
  unfold owns
  iintro ⟨⟨%f0, %hf0, H0⟩, ⟨%f1, %hf1, H1⟩, H2, H3, H4, H5, ⟨%fs, %hfs, HS⟩, Hk⟩
  obtain rfl := harg2.eq_unread hf0; obtain rfl := harg3.eq_unread hf1; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]; · iexact H2
  isplitl [H3]; · iexact H3
  isplitl [H4]; · iexact H4
  isplitl [H5]; · iexact H5
  iexists _; isplitr
  swap; · iexact HS
  ipureintro
  rw [StoreReadback.read_store_whole2, StoreReadback.load_whole arg8 harg8 StoreReadback.zeros2, StoreReadback.load_whole arg2 harg2 StoreReadback.zeros2, StoreReadback.load_whole arg3 harg3 StoreReadback.zeros2]

set_option maxHeartbeats 1000000 in
/-- The body where the reduction coordinate is 7 (the second conditional taken, the first not): the accumulator, found at
    `xs`, gains this point's product, and the output's buffer, found at anything, is stored whole with the finished
    row block computed from the accumulator, the scaling column, the weights and the bias row. -/
theorem run2_C (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S2048x1 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x256 .f32) (harg8 : arg8.IsWhole)
    (hc0 : ¬cond2_0 i) (hc1 : cond2_1 i)
    (x0 : Vec F S2048x2048 .bf16) (x1 : Vec F S2048x256 .bf16) (x2 : Vec F S2048x1 .f32) (x3 : Vec F S256x256 .bf16) (x4 : Vec F S1x256 .f32)
    (xs : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k2_pay3 (k2_pay2 xs x0 x1) x2 x3 x4)
            ∗ owns (c : Thread nD τ) arg8 fullShare (k2_pay2 xs x0 x1)) -∗ K ⟨⟩))
      ⊢ wp frame (wpE (defs₀ (F := F)) Variants.none c none) E (cc2__gcn_kernel i arg2 harg2 arg3 harg3 arg4 harg4 arg5 harg5 arg6 harg6 arg7 harg7 arg8 harg8) K := by
  simp only [cc2__gcn_kernel_eq_skeleton]; unfold cc2__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_run_names
    rw [StoreReadback.read_store_whole2, StoreReadback.readCov_part2, StoreReadback.ld_whole2, StoreReadback.load_whole arg8 harg8 StoreReadback.zeros2, StoreReadback.load_whole arg2 harg2 StoreReadback.zeros2, StoreReadback.load_whole arg3 harg3 StoreReadback.zeros2,
      StoreReadback.load_whole arg4 harg4 StoreReadback.zeros2, StoreReadback.load_whole arg5 harg5 StoreReadback.zeros2, StoreReadback.load_whole arg6 harg6 StoreReadback.zeros2]
  iexists _; isplitr
  swap; · iexact HS
  ipureintro
  sl_unfold_run_names
  rw [StoreReadback.read_store_whole2, StoreReadback.load_whole arg8 harg8 StoreReadback.zeros2, StoreReadback.load_whole arg2 harg2 StoreReadback.zeros2, StoreReadback.load_whole arg3 harg3 StoreReadback.zeros2]

end Cert.Kernel.Gen

end
-- ==== Proof.BitsRegion2.lean ====
/-
  Region 2 of @main — the second graph-convolution layer: the frame data of its pipeline, at the buffer contents `V` the
  region is entered with. What the accumulator holds after each grid point (`acc2`, by recursion on the point); the
  region invariant (`PhiS2`: what the launch hands over before the first point, afterwards the accumulator owned at
  `acc2` of the point before beside the untouched scoped buffers and the generator register); the proof data (`dat2`:
  every input's buffer at its block, the output's at the finished row block computed from the accumulator); the body
  obligation at every point from the three case triples; and that the invariant starts from and ends in the launch's form.
-/
import proofs.«103720_j9775345566347_1_alg».proof.Proof.BitsRegion2Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator after each point -/

/-- THE ACCUMULATION. What the accumulator holds after the body at position `n`: where the reduction coordinate is 0 the
    product of this point's adjacency and feature blocks added to zero, elsewhere that product added to what the point
    before left. -/
def acc2 (c : Dev nD) : (n : ℕ) → n < cfg2.N → Vec F S2048x256 .f32
  | 0, hn => k2_pay2 k2_pay1 (iblk2 V c 0 ⟨0, hn⟩) (iblk2 V c 1 ⟨0, hn⟩)
  | n + 1, hn =>
    if (n + 1) % 8 = 0 then k2_pay2 k2_pay1 (iblk2 V c 0 ⟨n + 1, hn⟩) (iblk2 V c 1 ⟨n + 1, hn⟩)
    else k2_pay2 (acc2 c n (Nat.lt_of_succ_lt hn)) (iblk2 V c 0 ⟨n + 1, hn⟩) (iblk2 V c 1 ⟨n + 1, hn⟩)

/-- At the first point of a row block the accumulation starts afresh. -/
theorem acc2_first (c : Dev nD) (n : ℕ) (hn : n < cfg2.N) (h : n % 8 = 0) :
    acc2 V c n hn = k2_pay2 k2_pay1 (iblk2 V c 0 ⟨n, hn⟩) (iblk2 V c 1 ⟨n, hn⟩) := by
  cases n with
  | zero => rfl
  | succ n => exact if_pos h

/-- At any other point it continues from the point before. -/
theorem acc2_next (c : Dev nD) (n : ℕ) (hn : n < cfg2.N) (h : n % 8 ≠ 0) :
    acc2 V c n hn = k2_pay2 (acc2 V c (n - 1) (Nat.lt_of_le_of_lt (Nat.sub_le _ _) hn)) (iblk2 V c 0 ⟨n, hn⟩) (iblk2 V c 1 ⟨n, hn⟩) := by
  cases n with
  | zero => exact absurd (Nat.zero_mod _) h
  | succ n => exact if_neg h

/-! ## The region invariant -/

/-- Before position `n`: before the first point what the launch hands the region (every scoped buffer that is no staging
    buffer of this kernel at some contents, the generator register at some state); afterwards the same with the accumulator
    at what the point before left in it. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ others2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn) ∗ others2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega)) ∗ others2 c) ∗ (∃ r, prngReg c r)) := by
  cases n with
  | zero => exact absurd rfl hz
  | succ n => rfl

/-! ## The pipeline's proof data -/

/-- The proof data of pipeline 2 on core `c`: the arrays as the region finds them (`V`); after the body at point `t` each
    input's buffer at its block and the output's at the finished row block computed from the accumulator at `t` (consulted
    only where the window is written back: the last point of each row block); the invariant `PhiS2`; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay3 (acc2 V c t.val t.isLt) (iblk2 V c 2 t) (iblk2 V c 3 t) (iblk2 V c 4 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = k2_pay3 (acc2 V c t.val t.isLt) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The inputs' buffers hold their blocks; the reduction coordinate `t % 8` says which of the three
    cases the point is in; the invariant hands the body the accumulator at what the point before left (at anything before
    the first point) and takes it back at this point's contents; where the output window is idle its buffer goes back as
    found, and at the last point of a row block it goes back at the finished block; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  have hN : t.val < 64 := lt_of_lt_of_eq t.isLt (show cfg2.N = 64 from N_2)
  by_cases h0 : t.val % 8 = 0
  · -- the first point of a row block
    have h1 : ¬t.val % 8 = 7 := by omega
    have hc0 : cond2_0 (grid2.coords t) := (hcond2_0 t).mpr h0
    have hc1 : ¬cond2_1 (grid2.coords t) := fun h => h1 ((hcond2_1 t).mp h)
    rw [Dat.leavesExact_idle (dat2 V c) 5 t (idleAt2_5 t hc1) (noFlush2_5 t hc1)]
    rw [acc2_first V c t.val t.isLt h0]
    by_cases hz : t.val = 0
    · rw [PhiS2_castSucc V c t, PhiS2_zero V c _ _ hz, PhiA2_eq]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run2_A c (grid2.coords t) _ _ _ _ _ _ _ _ _ _ _ _ _ _ hc0 hc1 (iblk2 V c 0 t) (iblk2 V c 1 t) (iblk2 V c 2 t) (iblk2 V c 3 t) (iblk2 V c 4 t) ((dat2 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS2_castSucc V c t, PhiS2_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run2_A c (grid2.coords t) _ _ _ _ _ _ _ _ _ _ _ _ _ _ hc0 hc1 (iblk2 V c 0 t) (iblk2 V c 1 t) (iblk2 V c 2 t) (iblk2 V c 3 t) (iblk2 V c 4 t) ((dat2 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    have hc0 : ¬cond2_0 (grid2.coords t) := fun h => h0 ((hcond2_0 t).mp h)
    rw [acc2_next V c t.val t.isLt h0]
    rw [PhiS2_castSucc V c t, PhiS2_pos V c _ _ hz]
    by_cases h1 : t.val % 8 = 7
    · -- the last point of a row block
      have hc1 : cond2_1 (grid2.coords t) := (hcond2_1 t).mpr h1
      rw [show (dat2 V c).leavesExact 5 t = owns (c : Thread nD τ) (st2_5 t) fullShare ((dat2 V c).after 5 t) from by
        unfold Dat.leavesExact; rw [liveAt2_5 t hc1], after2_5, acc2_next V c t.val t.isLt h0]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run2_C c (grid2.coords t) _ _ _ _ _ _ _ _ _ _ _ _ _ _ hc0 hc1 (iblk2 V c 0 t) (iblk2 V c 1 t) (iblk2 V c 2 t) (iblk2 V c 3 t) (iblk2 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a point strictly inside a row block
      have hc1 : ¬cond2_1 (grid2.coords t) := fun h => h1 ((hcond2_1 t).mp h)
      rw [Dat.leavesExact_idle (dat2 V c) 5 t (idleAt2_5 t hc1) (noFlush2_5 t hc1)]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run2_B c (grid2.coords t) _ _ _ _ _ _ _ _ _ _ _ _ _ _ hc0 hc1 (iblk2 V c 0 t) (iblk2 V c 1 t) (iblk2 V c 2 t) (iblk2 V c 3 t) (iblk2 V c 4 t) ((dat2 V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's form back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, Hoth⟩, Hg⟩
  isplitl [HS Hoth]
  · isplitl [HS]; · iexists _; iexact HS
    iexact Hoth
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Cert.Kernel.Gen

end
-- ==== Proof.BitsHostStretches.lean ====
/-
  What the stretches of host operations between the kernel regions compute, as functions of the buffers they read,
  over ANY contents the stretch is entered with: the inverse square root of the clamped degrees and the scaled
  features before the first layer; the scaled hidden features before the second; the mean pool and the classifier
  after it. Each is the stretch's operations applied to one another, nothing else.
-/
import proofs.«103720_j9775345566347_1_alg».proof.Proof.Gen.Kernel.Regions
import Idealize.ShloMosaic.Lib.StableHlo.Run

noncomputable section

namespace Cert.Kernel.Gen

open Idealize.ShloMosaic Idealize.ShloMosaic.TcCoe Idealize.SL.Sem Idealize.ShloMosaic.StableHlo

variable {F : FTy → Type} [FloatOps F]

/-- deg ↦ max(1, deg)^(-1/2), entry by entry, on a column. -/
def disOf (deg : FVec F S16384x1 .f32) : FVec F S16384x1 .f32 :=
  Host.powf (maximumf (broadcastInDim S16384x1 ![] bcast_S_S16384x1 (constant S_ .f32 0x3F800000#32)) deg)
    (broadcastInDim S16384x1 ![] bcast_S_S16384x1 (constant S_ .f32 0xBF000000#32))

/-- The stretch between the degree region and the first layer, entered with contents Wb. -/
abbrev stretch1 (Wb : Valuation τ sig (Elt F)) : Valuation τ sig (Elt F) :=
  StableHlo.after hostOps1_2 (StableHlo.after hostOps1_1 (StableHlo.after hostOps1 Wb))

theorem stretch1_v39 (Wb : Valuation τ sig (Elt F)) :
    stretch1 Wb (Proc.devRef .tc main_v39) = disOf (Wb (Proc.devRef .tc main_v36)) := by
  dsimp only [stretch1, hostOps1_2, hostOps1_1, hostOps1]
  after_results
  all_goals rfl

theorem stretch1_v42 (Wb : Valuation τ sig (Elt F)) :
    stretch1 Wb (Proc.devRef .tc main_v42)
      = truncf .bf16 (mulf (Wb (Proc.devRef .tc main_arg0)) (broadcastInDim S16384x128 ![0, 1] bcast_S16384x1_S16384x128_0_1 (disOf (Wb (Proc.devRef .tc main_v36))))) bitsLt_bf16_f32 := by
  dsimp only [stretch1, hostOps1_2, hostOps1_1, hostOps1]
  after_results
  all_goals rfl

theorem stretch1_v43 (Wb : Valuation τ sig (Elt F)) :
    stretch1 Wb (Proc.devRef .tc main_v43) = truncf .bf16 (Wb (Proc.devRef .tc main_arg3)) bitsLt_bf16_f32 := by
  dsimp only [stretch1, hostOps1_2, hostOps1_1, hostOps1]
  after_results
  all_goals rfl

theorem stretch1_v44 (Wb : Valuation τ sig (Elt F)) :
    stretch1 Wb (Proc.devRef .tc main_v44) = shapeCast S1x256 (Wb (Proc.devRef .tc main_arg4)) shapeCasts_S256_S1x256 := by
  dsimp only [stretch1, hostOps1_2, hostOps1_1, hostOps1]
  after_results
  all_goals rfl

/-- A buffer the stretch does not write keeps its contents. -/
theorem stretch1_of (Wb : Valuation τ sig (Elt F)) (r : Ref sig .tc) (h1 : r ∉ hostOps1_W) (h2 : r ∉ hostOps1_1_W) (h3 : r ∉ hostOps1_2_W) :
    stretch1 Wb (Proc.devRef .tc r) = Wb (Proc.devRef .tc r) :=
  (StableHlo.after_of_writes_sub hostOps1_2 _ hostOps1_2_writes h3).trans
    ((StableHlo.after_of_writes_sub hostOps1_1 _ hostOps1_1_writes h2).trans (StableHlo.after_of_writes_sub hostOps1 _ hostOps1_writes h1))

/-- The stretch between the two layers. -/
theorem stretch2_v48 (Wb : Valuation τ sig (Elt F)) :
    StableHlo.after hostOps2 Wb (Proc.devRef .tc main_v48)
      = truncf .bf16 (mulf (Wb (Proc.devRef .tc main_v45)) (broadcastInDim S16384x256 ![0, 1] bcast_S16384x1_S16384x256_0_1 (Wb (Proc.devRef .tc main_v39)))) bitsLt_bf16_f32 := by
  dsimp only [hostOps2]
  after_results
  all_goals rfl

theorem stretch2_v49 (Wb : Valuation τ sig (Elt F)) :
    StableHlo.after hostOps2 Wb (Proc.devRef .tc main_v49) = truncf .bf16 (Wb (Proc.devRef .tc main_arg5)) bitsLt_bf16_f32 := by
  dsimp only [hostOps2]
  after_results
  all_goals rfl

theorem stretch2_v50 (Wb : Valuation τ sig (Elt F)) :
    StableHlo.after hostOps2 Wb (Proc.devRef .tc main_v50) = shapeCast S1x256 (Wb (Proc.devRef .tc main_arg6)) shapeCasts_S256_S1x256 := by
  dsimp only [hostOps2]
  after_results
  all_goals rfl

theorem stretch2_of (Wb : Valuation τ sig (Elt F)) (r : Ref sig .tc) (h : r ∉ hostOps2_W) :
    StableHlo.after hostOps2 Wb (Proc.devRef .tc r) = Wb (Proc.devRef .tc r) :=
  StableHlo.after_of_writes_sub hostOps2 _ hostOps2_writes h

/-- The mean pool over the graphs of the batch and the classifier, from the second layer's output. -/
def tailOf (h2 : FVec F S16384x256 .f32) (batch : IVec S16384 32) (Wc : FVec F S256x10 .f32) (bc : FVec F S10 .f32) : FVec F S64x10 .f32 :=
  addf
    (Host.dotGeneral dot_S64x256_S256x10_S64x10_1_0_0_1_n_n none
      (Host.divf
        (Host.scatterAdd scatter_S64x256_S16384x1_S16384x256_1_0_0_1
          (broadcastInDim S64x256 ![] bcast_S_S64x256 (constant S_ .f32 0x00000000#32))
          (broadcastInDim S16384x1 ![0] bcast_S16384_S16384x1_0 batch) h2)
        (broadcastInDim S64x256 ![0, 1] bcast_S64x1_S64x256_0_1
          (broadcastInDim S64x1 ![0] bcast_S64_S64x1_0
            (maximumf (broadcastInDim S64 ![] bcast_S_S64 (constant S_ .f32 0x3F800000#32))
              (Host.scatterAdd scatter_S64_S16384x1_S16384_n_0_0_1
                (broadcastInDim S64 ![] bcast_S_S64 (constant S_ .f32 0x00000000#32))
                (broadcastInDim S16384x1 ![0] bcast_S16384_S16384x1_0 batch)
                (broadcastInDim S16384 ![] bcast_S_S16384 (constant S_ .f32 0x3F800000#32)))))))
      Wc)
    (broadcastInDim S64x10 ![0, 1] bcast_S1x10_S64x10_0_1 (broadcastInDim S1x10 ![1] bcast_S10_S1x10_1 bc))

abbrev stretch3 (Wb : Valuation τ sig (Elt F)) : Valuation τ sig (Elt F) :=
  StableHlo.after hostOps3_2 (StableHlo.after hostOps3_1 (StableHlo.after hostOps3 Wb))

set_option maxHeartbeats 4000000 in
theorem stretch3_v66 (Wb : Valuation τ sig (Elt F)) :
    stretch3 Wb (Proc.devRef .tc main_v66)
      = tailOf (Wb (Proc.devRef .tc main_v51)) (Wb (Proc.devRef .tc main_arg2)) (Wb (Proc.devRef .tc main_arg7)) (Wb (Proc.devRef .tc main_arg8)) := by
  dsimp only [stretch3, hostOps3_2, hostOps3_1, hostOps3]
  after_results_simp
  unfold tailOf
  generalize Host.scatterAdd (F := F) scatter_S64_S16384x1_S16384_n_0_0_1 _ _ _ = cnt
  generalize Host.scatterAdd (F := F) scatter_S64x256_S16384x1_S16384x256_1_0_0_1 _ _ _ = pooled
  rfl

theorem stretch3_of (Wb : Valuation τ sig (Elt F)) (r : Ref sig .tc) (h1 : r ∉ hostOps3_W) (h2 : r ∉ hostOps3_1_W) (h3 : r ∉ hostOps3_2_W) :
    stretch3 Wb (Proc.devRef .tc r) = Wb (Proc.devRef .tc r) :=
  (StableHlo.after_of_writes_sub hostOps3_2 _ hostOps3_2_writes h3).trans
    ((StableHlo.after_of_writes_sub hostOps3_1 _ hostOps3_1_writes h2).trans (StableHlo.after_of_writes_sub hostOps3 _ hostOps3_writes h1))

theorem stretch0_of (Wb : Valuation τ sig (Elt F)) (r : Ref sig .tc) (h : r ∉ hostOps0_W) :
    StableHlo.after hostOps0 Wb (Proc.devRef .tc r) = Wb (Proc.devRef .tc r) :=
  StableHlo.after_of_writes_sub hostOps0 _ hostOps0_writes h

end Cert.Kernel.Gen

end
-- ==== Proof.BitsKernelRun.lean ====
/-
  The run of @main: eleven segments — eight stretches of host operations and the three kernel regions — from the
  launch to the return. The buffer contents at each segment boundary are a fold through @main (a stretch applies
  its operations; a region leaves its arrays at what its write-backs deposit and every other buffer as entered);
  each region is entered from "every unscoped buffer at the boundary's contents, the generator register at some
  state, nothing owed" and left at the next boundary's. The conclusion: every weakly fair execution terminates
  without fault and every unscoped buffer ends at the last boundary's contents.
-/
import proofs.«103720_j9775345566347_1_alg».proof.Proof.BitsRegion0
import proofs.«103720_j9775345566347_1_alg».proof.Proof.BitsRegion1
import proofs.«103720_j9775345566347_1_alg».proof.Proof.BitsRegion2
import proofs.«103720_j9775345566347_1_alg».proof.Proof.Gen.Kernel.Regions
import proofs.«103720_j9775345566347_1_alg».proof.Proof.BitsHostStretches
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => m (c, b)
abbrev W1 : Dev nD → Valuation τ sig (Elt F) := fun c => StableHlo.after hostOps0 (W0 m c)

/-- The same read at the TensorCore's references: what region 0 is entered with. -/
abbrev Vin0 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (Vin0 m) c).arrAt w cfg0.N
theorem W2_arr (c : Dev nD) (w : Fin cfg0.W) :
    W2 m c (Proc.devRef .tc (Pipeline.arrRef spec0 w)) = (dat0 (Vin0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vout0 : (c : Dev nD) → (b : Ref sig .tc) → Buf (Elt F) ((c : Thread nD τ).loc b) := fun c b => W2 m c b
theorem hF0 (c : Dev nD) (w : Fin cfg0.W) : (dat0 (Vin0 m) c).arrAt w cfg0.N = Vout0 m c (Pipeline.arrRef spec0 w) :=
  (W2_arr m c w).symm
theorem hrest0 (c : Dev nD) : ∀ b, b ∉ Finset.univ.image (Pipeline.arrRef spec0) → Vout0 m c b = Vin0 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)

/-- The same read at the TensorCore's references: what region 1 is entered with. -/
abbrev Vin1 : (c : Dev nD) → (b : Ref sig .tc) → Buf (Elt F) ((c : Thread nD τ).loc b) := fun c b => W5 m c b
/-- At region 1's exit: its arrays at what the pipeline leaves, every other buffer as entered. -/
def W6 (c : Dev nD) : Valuation τ sig (Elt F) :=
  Pipeline.withArrays spec1 c (W5 m c) fun w => (dat1 (Vin1 m) c).arrAt w cfg1.N
theorem W6_arr (c : Dev nD) (w : Fin cfg1.W) :
    W6 m c (Proc.devRef .tc (Pipeline.arrRef spec1 w)) = (dat1 (Vin1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev Vout1 : (c : Dev nD) → (b : Ref sig .tc) → Buf (Elt F) ((c : Thread nD τ).loc b) := fun c b => W6 m c b
theorem hF1 (c : Dev nD) (w : Fin cfg1.W) : (dat1 (Vin1 m) c).arrAt w cfg1.N = Vout1 m c (Pipeline.arrRef spec1 w) :=
  (W6_arr m c w).symm
theorem hrest1 (c : Dev nD) : ∀ b, b ∉ Finset.univ.image (Pipeline.arrRef spec1) → Vout1 m c b = Vin1 m c b :=
  fun b hb => W6_of_ne m c b fun w e => hb (Finset.mem_image.mpr ⟨w, Finset.mem_univ _, e⟩)

abbrev W7 : Dev nD → Valuation τ sig (Elt F) := fun c => StableHlo.after hostOps2 (W6 m c)

/-- The same read at the TensorCore's references: what region 2 is entered with. -/
abbrev Vin2 : (c : Dev nD) → (b : Ref sig .tc) → Buf (Elt F) ((c : Thread nD τ).loc b) := fun c b => W7 m c b
/-- At region 2's exit: its arrays at what the pipeline leaves, every other buffer as entered. -/
def W8 (c : Dev nD) : Valuation τ sig (Elt F) :=
  Pipeline.withArrays spec2 c (W7 m c) fun w => (dat2 (Vin2 m) c).arrAt w cfg2.N
theorem W8_arr (c : Dev nD) (w : Fin cfg2.W) :
    W8 m c (Proc.devRef .tc (Pipeline.arrRef spec2 w)) = (dat2 (Vin2 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev Vout2 : (c : Dev nD) → (b : Ref sig .tc) → Buf (Elt F) ((c : Thread nD τ).loc b) := fun c b => W8 m c b
theorem hF2 (c : Dev nD) (w : Fin cfg2.W) : (dat2 (Vin2 m) c).arrAt w cfg2.N = Vout2 m c (Pipeline.arrRef spec2 w) :=
  (W8_arr m c w).symm
theorem hrest2 (c : Dev nD) : ∀ b, b ∉ Finset.univ.image (Pipeline.arrRef spec2) → Vout2 m c b = Vin2 m c b :=
  fun b hb => W8_of_ne m c b fun w e => hb (Finset.mem_image.mpr ⟨w, Finset.mem_univ _, e⟩)

abbrev W9 : Dev nD → Valuation τ sig (Elt F) := fun c => StableHlo.after hostOps3 (W8 m c)
abbrev W10 : Dev nD → Valuation τ sig (Elt F) := fun c => StableHlo.after hostOps3_1 (W9 m c)
abbrev W11 : Dev nD → Valuation τ sig (Elt F) := fun c => StableHlo.after hostOps3_2 (W10 m c)

/-! ## A buffer nothing writes ends as launched -/

/-- A buffer that no host stretch writes and that is no array of any region holds at the end what it held at launch. -/
theorem W11_kept (c : Dev nD) (r : Ref sig .tc)
    (h0 : r ∉ hostOps0_W) (h1 : r ∉ hostOps1_W) (h11 : r ∉ hostOps1_1_W) (h12 : r ∉ hostOps1_2_W) (h2 : r ∉ hostOps2_W)
    (h3 : r ∉ hostOps3_W) (h31 : r ∉ hostOps3_1_W) (h32 : r ∉ hostOps3_2_W)
    (ha0 : ∀ w, Pipeline.arrRef spec0 w ≠ r) (ha1 : ∀ w, Pipeline.arrRef spec1 w ≠ r) (ha2 : ∀ w, Pipeline.arrRef spec2 w ≠ r) :
    W11 m c (Proc.devRef .tc r) = m ((c : Thread nD τ).loc r) :=
  (stretch3_of (W8 m c) r h3 h31 h32).trans <| (W8_of_ne m c r ha2).trans <| (stretch2_of (W6 m c) r h2).trans <|
    (W6_of_ne m c r ha1).trans <| (stretch1_of (W2 m c) r h1 h11 h12).trans <| (W2_of_ne m c r ha0).trans <|
    (stretch0_of (W0 m c) r h0).trans rfl

/-! ## The proof data family and the thread state -/

def pdatsR : (p : Fin 3) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
  | ⟨2, _⟩ => fun c => dat2 (Vin2 m) c
abbrev 𝒱R : Variants := Variants.none
/-- No core owes another anything: no level is assigned. -/
abbrev LR : GSem nD τ sig → Finset Unit := fun _ => ∅
abbrev lvR : GSem nD τ sig → Unit → ℕ := fun _ _ => 0
/-- What rides beside the buffers through every segment: the generator register at some state and the core's dues, at nothing. -/
abbrev RR (c : Dev nD) : sProp 𝕄 := iprop((∃ r, prngReg c r) ∗ ∃ W, owes (c : Thread nD τ) (0 : CellTallies nD τ sig Unit) W)
/-- A host stretch as a segment over the unscoped references from the contents W. -/
abbrev hsegR (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱R LR lvR :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

theorem mem_ucR (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues. -/
abbrev TnR (c : Dev nD) : sProp 𝕄 := iprop(StableHlo.held (c : Thread nD τ) (Pipeline.ucRefs τ sig) (W11 m c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    region's invariant and comes back; nothing is owed; the kernel has no semaphore of its own. -/
def regR0 : Pipeline.RegionSeg (pcfgs (F := F)) adm (pdatsR m) () defs₀ 𝒱R LR lvR 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ LR lvR 0 fun _ _ => rfl
  pre c := iprop(StableHlo.held (c : Thread nD τ) (Pipeline.ucRefs τ sig) (W1 m c) ∗ RR c)
  post c := iprop(StableHlo.held (c : Thread nD τ) (Pipeline.ucRefs τ sig) (W2 m c) ∗ RR c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdatsR m) launch0.win launch0.arr_whole c
      ((pdatsR m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ (Pipeline.ΦA spec0 c : sProp 𝕄) from by
      unfold Pipeline.ΦA
      iintro ⟨Hp, -, Hr⟩
      isplitl [Hr]; · iexact Hr
      iexact Hp).trans (hin0 (Vin0 m) c)
  hout c := (hout0 (Vin0 m) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdatsR m) ((pdatsR m 0 c).share_full fun _ => rfl)
      (Vin0 m c) (Vout0 m c) ((pdatsR m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are
    split out of the unscoped buffers and put back at the exit contents; the generator register goes into the
    region's invariant and comes back; nothing is owed; the kernel has no semaphore of its own. -/
def regR1 : Pipeline.RegionSeg (pcfgs (F := F)) adm (pdatsR m) () defs₀ 𝒱R LR lvR 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ LR lvR 1 fun _ _ => rfl
  pre c := iprop(StableHlo.held (c : Thread nD τ) (Pipeline.ucRefs τ sig) (W5 m c) ∗ RR c)
  post c := iprop(StableHlo.held (c : Thread nD τ) (Pipeline.ucRefs τ sig) (W6 m c) ∗ RR c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdatsR m) launch1.win launch1.arr_whole c
      ((pdatsR m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ (Pipeline.ΦA spec1 c : sProp 𝕄) from by
      unfold Pipeline.ΦA
      iintro ⟨Hp, -, Hr⟩
      isplitl [Hr]; · iexact Hr
      iexact Hp).trans (hin1 (Vin1 m) c)
  hout c := (hout1 (Vin1 m) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdatsR m) ((pdatsR m 1 c).share_full fun _ => rfl)
      (Vin1 m c) (Vout1 m c) ((pdatsR m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its arrays are
    split out of the unscoped buffers and put back at the exit contents; the generator register goes into the
    region's invariant and comes back; nothing is owed; the kernel has no semaphore of its own. -/
def regR2 : Pipeline.RegionSeg (pcfgs (F := F)) adm (pdatsR m) () defs₀ 𝒱R LR lvR 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ LR lvR 2 fun _ _ => rfl
  pre c := iprop(StableHlo.held (c : Thread nD τ) (Pipeline.ucRefs τ sig) (W7 m c) ∗ RR c)
  post c := iprop(StableHlo.held (c : Thread nD τ) (Pipeline.ucRefs τ sig) (W8 m c) ∗ RR c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit := Pipeline.arrays_of_unscopedBufs (p := 2) (pcfgs (F := F)) adm (pdatsR m) launch2.win launch2.arr_whole c
      ((pdatsR m 2 c).share_full fun _ => rfl) (Vin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ (Pipeline.ΦA spec2 c : sProp 𝕄) from by
      unfold Pipeline.ΦA
      iintro ⟨Hp, -, Hr⟩
      isplitl [Hr]; · iexact Hr
      iexact Hp).trans (hin2 (Vin2 m) c)
  hout c := (hout2 (Vin2 m) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdatsR m) ((pdatsR m 2 c).share_full fun _ => rfl)
      (Vin2 m c) (Vout2 m c) ((pdatsR m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsR : List (Pipeline.Seg (pcfgs (F := F)) adm (pdatsR m) () defs₀ 𝒱R LR lvR) :=
  [ .host (hsegR hostOps0 hostOps0_sub hostOps0_fresh (W0 m)),
    .region (regR0 m),
    .host (hsegR hostOps1 hostOps1_sub hostOps1_fresh (W2 m)),
    .host (hsegR hostOps1_1 hostOps1_1_sub hostOps1_1_fresh (W3 m)),
    .host (hsegR hostOps1_2 hostOps1_2_sub hostOps1_2_fresh (W4 m)),
    .region (regR1 m),
    .host (hsegR hostOps2 hostOps2_sub hostOps2_fresh (W6 m)),
    .region (regR2 m),
    .host (hsegR hostOps3 hostOps3_sub hostOps3_fresh (W8 m)),
    .host (hsegR hostOps3_1 hostOps3_1_sub hostOps3_1_fresh (W9 m)),
    .host (hsegR hostOps3_2 hostOps3_2_sub hostOps3_2_fresh (W10 m)) ]

set_option backward.isDefEq.respectTransparency.types false in
/-- THE RUN: from any memory with zero counters every weakly fair execution of @main on the TensorCores terminates,
    nothing faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdatsR m) () cellOf_inj emb₁ defs₀ 𝒱R LR lvR m ρ main (segsR m)
    (fun c Q => by
      rewrite [main_chain c, Pipeline.Seg.run_eq_chain,
        show (segsR m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          StableHlo.seq hostOps3_1,
          StableHlo.seq hostOps3_2 ] from rfl]
      exact .rfl)
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RR c)) (Tₙ := TnR m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c =>
        (show (iprop(StableHlo.held (c : Thread nD τ) (Pipeline.ucRefs τ sig) (W11 m c) ∗ RR c) : sProp 𝕄)
            ⊢ iprop(TnR m c ∗ ∃ W, owes (c : Thread nD τ) (0 : CellTallies nD τ sig Unit) W) from by
          iintro ⟨Hh, Hp, Ho⟩
          isplitl [Hh Hp]
          · isplitl [Hh]; · iexact Hh
            iexact Hp
          iexact Ho)⟩)
    (hinit := by
      refine Pipeline.initEach LR lvR fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

/-- THE RUN, read: the result buffer ends at the last boundary's contents and every argument array ends as launched. -/
theorem run_result : θ_run defs (onTc (τ := τ) (main (F := F))) ⟨m, fun _ => 0, ρ⟩ (fun r => ∀ c : Dev nD,
      r.2.mem ((c.tc : Thread nD τ).loc main_v66) = W11 m c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    h c _ (mem_ucR main_v66 (by decide)),
    (h c _ (mem_ucR main_arg0 (by decide))).trans (W11_kept m c main_arg0 (by decide) (by decide) (by decide) (by decide) (by decide) (by decide) (by decide) (by decide) (by decide) (by decide) (by decide)),
    (h c _ (mem_ucR main_arg1 (by decide))).trans (W11_kept m c main_arg1 (by decide) (by decide) (by decide) (by decide) (by decide) (by decide) (by decide) (by decide) (by decide) (by decide) (by decide)),
    (h c _ (mem_ucR main_arg2 (by decide))).trans (W11_kept m c main_arg2 (by decide) (by decide) (by decide) (by decide) (by decide) (by decide) (by decide) (by decide) (by decide) (by decide) (by decide)),
    (h c _ (mem_ucR main_arg3 (by decide))).trans (W11_kept m c main_arg3 (by decide) (by decide) (by decide) (by decide) (by decide) (by decide) (by decide) (by decide) (by decide) (by decide) (by decide)),
    (h c _ (mem_ucR main_arg4 (by decide))).trans (W11_kept m c main_arg4 (by decide) (by decide) (by decide) (by decide) (by decide) (by decide) (by decide) (by decide) (by decide) (by decide) (by decide)),
    (h c _ (mem_ucR main_arg5 (by decide))).trans (W11_kept m c main_arg5 (by decide) (by decide) (by decide) (by decide) (by decide) (by decide) (by decide) (by decide) (by decide) (by decide) (by decide)),
    (h c _ (mem_ucR main_arg6 (by decide))).trans (W11_kept m c main_arg6 (by decide) (by decide) (by decide) (by decide) (by decide) (by decide) (by decide) (by decide) (by decide) (by decide) (by decide)),
    (h c _ (mem_ucR main_arg7 (by decide))).trans (W11_kept m c main_arg7 (by decide) (by decide) (by decide) (by decide) (by decide) (by decide) (by decide) (by decide) (by decide) (by decide) (by decide)),
    (h c _ (mem_ucR main_arg8 (by decide))).trans (W11_kept m c main_arg8 (by decide) (by decide) (by decide) (by decide) (by decide) (by decide) (by decide) (by decide) (by decide) (by decide) (by decide))⟩)
    (run_all m ρ)

/-- THE FRAME, at any float instance: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_result m ρ)

end Cert.Kernel.Gen

end
-- ==== Proof.Region0Runs.lean ====
/-
  Region 0 — the row degrees. The grid is 8 × 8; at point (i, k) the body adds to a column accumulator kept in
  scratch the lane sums of block (i, k) of the adjacency matrix, clearing the accumulator first when k = 0 and
  copying it to the output block when k = 7. Three control cases: k = 0 (A), 0 < k < 7 (B), k = 7 (C).
  This module: the branch conditions in closed form, where the output window is idle, and the body's run in each
  case on whole staging buffers, with the stores each buffer ends with as the run finds them.
-/
import proofs.«103720_j9775345566347_1_alg».proof.Proof.Gen.KernelIdeal.Launch
import proofs.«103720_j9775345566347_1_alg».proof.Proof.Gen.KernelIdeal.Skeleton
import proofs.«103720_j9775345566347_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, from the grid coordinates -/

/-- "k = 0": the accumulator is cleared first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "k = 7": the accumulator is copied to the output block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The staging and scratch buffers at a point -/

abbrev VO0_1 : View sig .tc .vmem S2048x1 .f32 := (Memref.whole cc0_stg1_0 : Memref sig .tc .vmem S2048x1 .f32).view
abbrev ms0_0 (t : Fin cfg0.N) : Memref sig .tc .vmem S2048x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S2048x1 .f32 := Memref.whole cc0_scratch0
abbrev VS0_0 : View sig .tc .vmem S2048x1 .f32 := scM0_0.view

/-- The core's other scoped buffers (the other two regions' staging buffers and accumulators), each whole at some
    contents: they ride through region 0 untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f))

/-- The class invariant splits into the accumulator at some contents, the other scoped buffers, and the generator
    register at some state. -/
theorem PhiA0_split (c : Dev nD) :
    (Pipeline.ΦA spec0 c : sProp 𝕄) ⊢ iprop((∃ d, owns (c : Thread nD τ) scM0_0 fullShare d) ∗ rest0 c ∗ (∃ r, prngReg c r)) := by
  unfold Pipeline.ΦA rest0; rw [scopedRest0_eq]; simp only [scM0_0, owns_whole]
  iintro ⟨⟨HS, Hrest⟩, Hg⟩
  isplitl [HS]; · iexact HS
  isplitl [Hrest]; · iexact Hrest
  iexact Hg

theorem PhiA0_join (c : Dev nD) :
    iprop((∃ d, owns (c : Thread nD τ) scM0_0 fullShare d) ∗ rest0 c ∗ (∃ r, prngReg c r)) ⊢ (Pipeline.ΦA spec0 c : sProp 𝕄) := by
  unfold Pipeline.ΦA rest0; rw [scopedRest0_eq]; simp only [scM0_0, owns_whole]
  iintro ⟨HS, Hrest, Hg⟩
  isplitr [Hg]
  · isplitl [HS]; · iexact HS
    iexact Hrest
  iexact Hg

/-! ## The body's run, case by case -/

set_option maxHeartbeats 1000000 in
/-- Case A (k = 0): the accumulator, at anything, is cleared and then holds the block's lane sums added to zero; the
    output block's buffer is handed back untouched. -/
noncomputable def kernelRun0_A (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x2048 .bf16) :
    { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- Case B (0 < k < 7): the accumulator, at what the point before left, gains the block's lane sums; the output
    block's buffer is handed back untouched. -/
noncomputable def kernelRun0_B (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x2048 .bf16) (xs0 : Vec F S2048x1 .f32) :
    { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, fun xi1 E K => ?run⟩
  case run =>
    simp only [cc0__degree_kernel_eq_skeleton]; unfold cc0__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- Case C (k = 7): the accumulator gains the block's lane sums and is then copied to the output block's buffer. -/
noncomputable def kernelRun0_C (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .bf16) (xs0 : Vec F S2048x1 .f32) :
    Σ' (L1 : List (View.Piece (Elt F) S2048x1 .f32)), { LS0 : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Gen

end
-- ==== Proof.Region0.lean ====
/-
  Region 0 — the row degrees, continued. What the accumulator holds after each grid point (a recursion over the
  points: cleared and restarted at k = 0, extended otherwise), what the output block's buffer holds at the points
  k = 7, the region's invariant (before the first point the class's; afterwards the accumulator at the recursion's
  value, every other scoped buffer at some contents, the generator register at some state), the proof data over
  the contents V the region is entered with, and the body's obligation at every point.
-/
import proofs.«103720_j9775345566347_1_alg».proof.Proof.Gen.KernelIdeal.Launch
import proofs.«103720_j9775345566347_1_alg».proof.Proof.Gen.KernelIdeal.Skeleton
import proofs.«103720_j9775345566347_1_alg».proof.Proof.Gen.KernelIdeal.Points
import proofs.«103720_j9775345566347_1_alg».proof.Proof.Region0Runs
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's current buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

theorem scover0_A_0 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x2048 .bf16) (y : S2048x1.Idx) :
    ∃ pc ∈ (kernelRun0_A c i arg2 harg2 arg3 harg3 arg4 harg4 hc0 hc1 x0).1, y ∈ pc.1.set :=
  View.cover_of_tiledL (kernelRun0_A c i arg2 harg2 arg3 harg3 arg4 harg4 hc0 hc1 x0).1 S2048x1.size (by sl_kernel_rfl) y

/-- The accumulator after a point with k = 0. -/
def sout0_A_0 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x2048 .bf16) : Vec F S2048x1 .f32 :=
  VS0_0.read (Elt F) (VS0_0.writes (Elt F) VS0_0.junk (kernelRun0_A c i arg2 harg2 arg3 harg3 arg4 harg4 hc0 hc1 x0).1)

theorem scover0_B_0 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x2048 .bf16) (xs0 : Vec F S2048x1 .f32) (y : S2048x1.Idx) :
    ∃ pc ∈ (kernelRun0_B c i arg2 harg2 arg3 harg3 arg4 harg4 hc0 hc1 x0 xs0).1, y ∈ pc.1.set :=
  View.cover_of_tiledL (kernelRun0_B c i arg2 harg2 arg3 harg3 arg4 harg4 hc0 hc1 x0 xs0).1 S2048x1.size (by sl_kernel_rfl) y

/-- The accumulator after a point with 0 < k < 7. -/
def sout0_B_0 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x2048 .bf16) (xs0 : Vec F S2048x1 .f32) : Vec F S2048x1 .f32 :=
  VS0_0.read (Elt F) (VS0_0.writes (Elt F) VS0_0.junk (kernelRun0_B c i arg2 harg2 arg3 harg3 arg4 harg4 hc0 hc1 x0 xs0).1)

theorem cover0_C_1 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .bf16) (xs0 : Vec F S2048x1 .f32) (y : S2048x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S2048x1.size (by sl_kernel_rfl) y

/-- The output block's buffer after a point with k = 7. -/
def out0_C_1 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .bf16) (xs0 : Vec F S2048x1 .f32) : Vec F S2048x1 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .bf16) (xs0 : Vec F S2048x1 .f32) (y : S2048x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S2048x1.size (by sl_kernel_rfl) y

/-- The accumulator after a point with k = 7. -/
def sout0_C_0 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .bf16) (xs0 : Vec F S2048x1 .f32) : Vec F S2048x1 .f32 :=
  VS0_0.read (Elt F) (VS0_0.writes (Elt F) VS0_0.junk (kernelRun0_C c i arg2 harg2 arg3 harg3 arg4 harg4 hc0 hc1 x0 xs0).2.1)

/-! ## The accumulator after each point -/

/-- The accumulator after the body at position n: restarted from the block's lane sums where n ≡ 0 (mod 8),
    otherwise what the point before left plus this block's lane sums. -/
def acc0 (c : Dev nD) : (n : ℕ) → n < cfg0.N → Vec F S2048x1 .f32
  | 0, hn => sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩)
  | n + 1, hn =>
    if h0 : (n + 1) % 8 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩)
    else
      if h1 : (n + 1) % 8 = 7 then
        sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (acc0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (acc0 c n (Nat.lt_of_succ_lt hn))

theorem acc0_A (c : Dev nD) (t : Fin cfg0.N) (h0 : t.val % 8 = 0) (h1 : ¬t.val % 8 = 7) :
    acc0 V c t.val t.isLt = sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t) := by
  obtain ⟨n, hn⟩ := t
  cases n with
  | zero => exact rfl
  | succ n => exact (dif_pos h0).trans rfl

theorem acc0_B (c : Dev nD) (t : Fin cfg0.N) (h0 : ¬t.val % 8 = 0) (h1 : ¬t.val % 8 = 7) :
    acc0 V c t.val t.isLt = sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (acc0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem acc0_C (c : Dev nD) (t : Fin cfg0.N) (h0 : ¬t.val % 8 = 0) (h1 : t.val % 8 = 7) :
    acc0 V c t.val t.isLt = sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (acc0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block's buffer after the body at point t: at k = 7 what the copy leaves; elsewhere the window is idle
    and nothing consults this value. -/
def out0 (c : Dev nD) (t : Fin cfg0.N) : Vec F S2048x1 .f32 :=
  if h1 : t.val % 8 = 7 then
    out0_C_1 c (grid0.coords t) (ms0_0 t) (hs0_0 t) (ms0_1 t) (hs0_1 t) scM0_0 (Memref.isWhole_whole _) (fun h => (fun h => by omega) ((hcond0_0 t).mp h)) ((hcond0_1 t).mpr h1) (iblk0 V c 0 t) (acc0 V c (t.val - 1) (Nat.lt_of_le_of_lt (Nat.sub_le _ _) t.isLt))
  else VO0_1.read (Elt F) VO0_1.junk

theorem out0_C (c : Dev nD) (t : Fin cfg0.N) (h0 : ¬t.val % 8 = 0) (h1 : t.val % 8 = 7) :
    out0 V c t = out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (acc0 V c (t.val - 1) (Nat.lt_of_le_of_lt (Nat.sub_le _ _) t.isLt)) :=
  (dif_pos h1).trans rfl

/-! ## The region's invariant -/

def PhiS0 (c : Dev nD) : (n : ℕ) → n ≤ cfg0.N → sProp 𝕄
  | 0, _ => Pipeline.ΦA spec0 c
  | n + 1, hn => iprop(owns (c : Thread nD τ) scM0_0 fullShare (acc0 V c n hn) ∗ rest0 c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare (acc0 V c n hn) ∗ rest0 c ∗ (∃ r, prngReg c r)) := rfl

theorem PhiS0_pos (c : Dev nD) (n : ℕ) (h : n ≤ cfg0.N) (hz : n ≠ 0) :
    PhiS0 V c n h = iprop(owns (c : Thread nD τ) scM0_0 fullShare (acc0 V c (n - 1) (by omega)) ∗ rest0 c ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = out0 V c t := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the adjacency window's buffer holds its block; the closed forms say which case the point
    is in; the invariant hands the body the accumulator at what the point before left (at anything before the first
    point) and takes it back at this point's value; the other scoped buffers, the generator register and the
    core's dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  have hN : t.val < 64 := lt_of_lt_of_eq t.isLt (show cfg0.N = 64 from N_0)
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V c) 1 t (idleAt0_1 t hc1) (noFlush0_1 t hc1)]
    rw [acc0_A V c t h0 h1]
    unfold sout0_A_0; (try dsimp only)
    by_cases hz : t.val = 0
    · rw [PhiS0_castSucc V c t, PhiS0_zero V c _ _ hz]
      iintro ⟨HΦ, Ho, ⟨%d0, H0⟩, ⟨%d1, H1⟩⟩
      ihave HΦ' := (PhiA0_split c) $$ HΦ
      icases HΦ' with ⟨HS0, Hr, Hg⟩
      iapply ((kernelRun0_A c (grid0.coords t) _ _ _ _ _ _ hc0 hc1 (iblk0 V c 0 t)).2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0]
        · unfold owns; iexists _; isplitr
          swap; · iexact HS0
          ipureintro; exact View.read_writes_of_cover _ _ _ _ _ (scover0_A_0 c _ _ _ _ _ _ _ _ _ _)
        isplitl [Hr]; · iexact Hr
        iexact Hg
      isplitl [Ho]; · iexact Ho
      isplitl [H0]; · iexact H0
      iexists _; iexact H1
    · rw [PhiS0_castSucc V c t, PhiS0_pos V c _ _ hz]
      iintro ⟨⟨HS0, Hr, Hg⟩, Ho, ⟨%d0, H0⟩, ⟨%d1, H1⟩⟩
      iapply ((kernelRun0_A c (grid0.coords t) _ _ _ _ _ _ hc0 hc1 (iblk0 V c 0 t)).2 _ Set.univ _)
      isplitl [H0]; · iexact H0
      isplitl [H1]; · iexact H1
      isplitl [HS0]; · iexists _; iexact HS0
      iintro ⟨H0, H1, ⟨%es0, HS0⟩⟩
      isplitl [HS0 Hr Hg]
      · isplitl [HS0]
        · unfold owns; iexists _; isplitr
          swap; · iexact HS0
          ipureintro; exact View.read_writes_of_cover _ _ _ _ _ (scover0_A_0 c _ _ _ _ _ _ _ _ _ _)
        isplitl [Hr]; · iexact Hr
        iexact Hg
      isplitl [Ho]; · iexact Ho
      isplitl [H0]; · iexact H0
      iexists _; iexact H1
  · have hz : t.val ≠ 0 := fun e => h0 (by rw [e])
    have hc0 : ¬cond0_0 (grid0.coords t) := fun h => h0 ((hcond0_0 t).mp h)
    by_cases h1 : t.val % 8 = 7
    · have hc1 : cond0_1 (grid0.coords t) := (hcond0_1 t).mpr h1
      rw [show (dat0 V c).leavesExact 1 t = owns (c : Thread nD τ) (ms0_1 t) fullShare ((dat0 V c).after 1 t) from by
        unfold Dat.leavesExact; rw [liveAt0_1 t hc1], after0_1]
      rw [out0_C V c t h0 h1, acc0_C V c t h0 h1]
      unfold out0_C_1 sout0_C_0; (try dsimp only)
      rw [PhiS0_castSucc V c t, PhiS0_pos V c _ _ hz]
      iintro ⟨⟨HS0, Hr, Hg⟩, Ho, ⟨%d0, H0⟩, ⟨%d1, H1⟩⟩
      iapply ((kernelRun0_C c (grid0.coords t) _ _ _ _ _ _ hc0 hc1 (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hr Hg]
      · isplitl [HS0]
        · unfold owns; iexists _; isplitr
          swap; · iexact HS0
          ipureintro; exact View.read_writes_of_cover _ _ _ _ _ (scover0_C_0 c _ _ _ _ _ _ _ _ _ _ _)
        isplitl [Hr]; · iexact Hr
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · have hc1 : ¬cond0_1 (grid0.coords t) := fun h => h1 ((hcond0_1 t).mp h)
      rw [Dat.leavesExact_idle (dat0 V c) 1 t (idleAt0_1 t hc1) (noFlush0_1 t hc1)]
      rw [acc0_B V c t h0 h1]
      unfold sout0_B_0; (try dsimp only)
      rw [PhiS0_castSucc V c t, PhiS0_pos V c _ _ hz]
      iintro ⟨⟨HS0, Hr, Hg⟩, Ho, ⟨%d0, H0⟩, ⟨%d1, H1⟩⟩
      iapply ((kernelRun0_B c (grid0.coords t) _ _ _ _ _ _ hc0 hc1 (iblk0 V c 0 t) _).2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0]
        · unfold owns; iexists _; isplitr
          swap; · iexact HS0
          ipureintro; exact View.read_writes_of_cover _ _ _ _ _ (scover0_B_0 c _ _ _ _ _ _ _ _ _ _ _)
        isplitl [Hr]; · iexact Hr
        iexact Hg
      isplitl [Ho]; · iexact Ho
      isplitl [H0]; · iexact H0
      iexists _; iexact H1

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the accumulator's value is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  exact (show _ ⊢ (iprop((∃ d, owns (c : Thread nD τ) scM0_0 fullShare d) ∗ rest0 c ∗ (∃ r, prngReg c r)) : sProp 𝕄) from by
    iintro ⟨HS0, Hr, Hg⟩
    isplitl [HS0]
    · iexists _; iexact HS0
    isplitl [Hr]; · iexact Hr
    iexact Hg).trans (PhiA0_join c)

theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Gen

end
-- ==== Proof.Region1Runs.lean ====
/-
  Region 1 of @main — the first graph-convolution layer. The grid is 8 × 8; at point (i, k) the body adds to an
  accumulator kept in the kernel's own scoped buffer the product of block (i, k) of the adjacency matrix with block k of
  the features, clearing the accumulator first when k = 0; when k = 7 it scales the accumulated rows by the degree
  column, multiplies by the weights, adds the bias row, clamps below at zero and stores the result to the output block.
  Three control cases: k = 0 (A), 0 < k < 7 (B), k = 7 (C).
  This module: each window's block at a point and that an input's buffer holds it; the two branch conditions in closed
  form over the grid; where the output window is idle; the class invariant with the accumulator split off from the
  scoped buffers the kernel never touches; and the body's triple in each case on whole memrefs, with the contents every
  buffer ends with stated through the skeleton's payloads.
-/
import proofs.«103720_j9775345566347_1_alg».proof.Proof.Gen.KernelIdeal.Launch
import proofs.«103720_j9775345566347_1_alg».proof.Proof.Gen.KernelIdeal.Skeleton
import proofs.«103720_j9775345566347_1_alg».proof.Proof.Gen.KernelIdeal.Points
import Idealize.ShloMosaic.Lib.Pipeline.FrameBody
import Idealize.ShloMosaic.Lib.Ring
import Idealize.ShloMosaic.Lib.Tactic
import proofs.«103720_j9775345566347_1_alg».proof.Proof.LibStoreReadback

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is not
    fetched its block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (where it is not
    fetched its block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (where it is not
    fetched its block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (where it is not
    fetched its block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (where it is not
    fetched its block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- The first conditional (clear the accumulator) is taken when the reduction coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional (finish the row block and store it) is taken when the reduction coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the second conditional is not taken the output window is idle and is not written back; where it is taken the
    window is live. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The accumulator and the other scoped buffers -/

/-- The accumulator: the kernel's own scoped buffer, carried from one grid point to the next. -/
abbrev scM1 : Memref sig .tc .vmem S2048x128 .f32 := Memref.whole cc1_scratch0

/-- The core's scoped buffers that this kernel never touches (the other kernels' staging buffers and accumulators), each
    whole at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg5_1), ((c : Thread nD τ).loc cc2_stg5_1) ↦{fullShare} f)
    ∗ (∃ f : Buf (Elt F) ((c : Thread nD τ).loc cc2_scratch0), ((c : Thread nD τ).loc cc2_scratch0) ↦{fullShare} f))

/-- What the region holds beside its windows splits into the accumulator at some contents, the untouched scoped buffers,
    and the generator register at some state; -/
theorem PhiA1_split (c : Dev nD) :
    (Pipeline.ΦA spec1 c : sProp 𝕄) ⊢ iprop(iprop((∃ d, owns (c : Thread nD τ) scM1 fullShare d) ∗ others1 c) ∗ (∃ r, prngReg c r)) := by
  unfold Pipeline.ΦA others1; rw [scopedRest1_eq]; simp only [scM1, owns_whole]
  iintro ⟨⟨B_cc0_stg0_0, B_cc0_stg0_1, B_cc0_stg1_0, B_cc0_stg1_1, B_cc0_scratch0, HS, B_cc2_stg0_0, B_cc2_stg0_1, B_cc2_stg1_0, B_cc2_stg1_1, B_cc2_stg2_0, B_cc2_stg2_1, B_cc2_stg3_0, B_cc2_stg4_0, B_cc2_stg5_0, B_cc2_stg5_1, B_cc2_scratch0⟩, Hg⟩
  isplitr [Hg]
  · isplitl [HS]; · iexact HS
    isplitl [B_cc0_stg0_0]; · iexact B_cc0_stg0_0
    isplitl [B_cc0_stg0_1]; · iexact B_cc0_stg0_1
    isplitl [B_cc0_stg1_0]; · iexact B_cc0_stg1_0
    isplitl [B_cc0_stg1_1]; · iexact B_cc0_stg1_1
    isplitl [B_cc0_scratch0]; · iexact B_cc0_scratch0
    isplitl [B_cc2_stg0_0]; · iexact B_cc2_stg0_0
    isplitl [B_cc2_stg0_1]; · iexact B_cc2_stg0_1
    isplitl [B_cc2_stg1_0]; · iexact B_cc2_stg1_0
    isplitl [B_cc2_stg1_1]; · iexact B_cc2_stg1_1
    isplitl [B_cc2_stg2_0]; · iexact B_cc2_stg2_0
    isplitl [B_cc2_stg2_1]; · iexact B_cc2_stg2_1
    isplitl [B_cc2_stg3_0]; · iexact B_cc2_stg3_0
    isplitl [B_cc2_stg4_0]; · iexact B_cc2_stg4_0
    isplitl [B_cc2_stg5_0]; · iexact B_cc2_stg5_0
    isplitl [B_cc2_stg5_1]; · iexact B_cc2_stg5_1
    iexact B_cc2_scratch0
  iexact Hg

/-- and is put together from them again. -/
theorem PhiA1_join (c : Dev nD) :
    iprop(iprop((∃ d, owns (c : Thread nD τ) scM1 fullShare d) ∗ others1 c) ∗ (∃ r, prngReg c r)) ⊢ (Pipeline.ΦA spec1 c : sProp 𝕄) := by
  unfold Pipeline.ΦA others1; rw [scopedRest1_eq]; simp only [scM1, owns_whole]
  iintro ⟨⟨HS, B_cc0_stg0_0, B_cc0_stg0_1, B_cc0_stg1_0, B_cc0_stg1_1, B_cc0_scratch0, B_cc2_stg0_0, B_cc2_stg0_1, B_cc2_stg1_0, B_cc2_stg1_1, B_cc2_stg2_0, B_cc2_stg2_1, B_cc2_stg3_0, B_cc2_stg4_0, B_cc2_stg5_0, B_cc2_stg5_1, B_cc2_scratch0⟩, Hg⟩
  isplitr [Hg]
  ·
    isplitl [B_cc0_stg0_0]; · iexact B_cc0_stg0_0
    isplitl [B_cc0_stg0_1]; · iexact B_cc0_stg0_1
    isplitl [B_cc0_stg1_0]; · iexact B_cc0_stg1_0
    isplitl [B_cc0_stg1_1]; · iexact B_cc0_stg1_1
    isplitl [B_cc0_scratch0]; · iexact B_cc0_scratch0
    isplitl [HS]; · iexact HS
    isplitl [B_cc2_stg0_0]; · iexact B_cc2_stg0_0
    isplitl [B_cc2_stg0_1]; · iexact B_cc2_stg0_1
    isplitl [B_cc2_stg1_0]; · iexact B_cc2_stg1_0
    isplitl [B_cc2_stg1_1]; · iexact B_cc2_stg1_1
    isplitl [B_cc2_stg2_0]; · iexact B_cc2_stg2_0
    isplitl [B_cc2_stg2_1]; · iexact B_cc2_stg2_1
    isplitl [B_cc2_stg3_0]; · iexact B_cc2_stg3_0
    isplitl [B_cc2_stg4_0]; · iexact B_cc2_stg4_0
    isplitl [B_cc2_stg5_0]; · iexact B_cc2_stg5_0
    isplitl [B_cc2_stg5_1]; · iexact B_cc2_stg5_1
    iexact B_cc2_scratch0
  iexact Hg

theorem PhiA1_eq (c : Dev nD) :
    (Pipeline.ΦA spec1 c : sProp 𝕄) = iprop(iprop((∃ d, owns (c : Thread nD τ) scM1 fullShare d) ∗ others1 c) ∗ (∃ r, prngReg c r)) :=
  BI.equiv_iff.mp ⟨PhiA1_split c, PhiA1_join c⟩

/-! ## The body's triple, case by case -/

set_option maxHeartbeats 1000000 in
/-- The body where the reduction coordinate is 0 (the first conditional taken, the second not), on whole memrefs: the
    accumulator, found at anything, is cleared and then holds the first product; the inputs and the output's buffer are
    handed back as found. -/
theorem run1_A (c : Dev nD) (i : grid1.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x128 .f32) (harg8 : arg8.IsWhole)
    (hc0 : cond1_0 i) (hc1 : ¬cond1_1 i)
    (x0 : Vec F S2048x2048 .bf16) (x1 : Vec F S2048x128 .bf16) (x2 : Vec F S2048x1 .f32) (x3 : Vec F S128x256 .bf16) (x4 : Vec F S1x256 .f32)
    (xi5 : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (k1_pay2 k1_pay1 x0 x1)) -∗ K ⟨⟩))
      ⊢ wp frame (wpE (defs₀ (F := F)) Variants.none c none) E (cc1__gcn_kernel i arg2 harg2 arg3 harg3 arg4 harg4 arg5 harg5 arg6 harg6 arg7 harg7 arg8 harg8) K := by
  simp only [cc1__gcn_kernel_eq_skeleton]; unfold cc1__gcn_kernel_skel
  unfold owns
  iintro ⟨⟨%f0, %hf0, H0⟩, ⟨%f1, %hf1, H1⟩, H2, H3, H4, H5, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]; · iexact H2
  isplitl [H3]; · iexact H3
  isplitl [H4]; · iexact H4
  isplitl [H5]; · iexact H5
  iexists _; isplitr
  swap; · iexact HS
  ipureintro
  rw [StoreReadback.read_store_whole2]
  sl_unfold_run_names
  rw [StoreReadback.readCov_part2, StoreReadback.ld_whole2, StoreReadback.load_whole arg2 harg2 StoreReadback.zeros2, StoreReadback.load_whole arg3 harg3 StoreReadback.zeros2]

set_option maxHeartbeats 1000000 in
/-- The body where the reduction coordinate is strictly between 0 and 7 (neither conditional taken): the accumulator,
    found at `xs`, gains this point's product; everything else is handed back as found. -/
theorem run1_B (c : Dev nD) (i : grid1.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x128 .f32) (harg8 : arg8.IsWhole)
    (hc0 : ¬cond1_0 i) (hc1 : ¬cond1_1 i)
    (x0 : Vec F S2048x2048 .bf16) (x1 : Vec F S2048x128 .bf16) (x2 : Vec F S2048x1 .f32) (x3 : Vec F S128x256 .bf16) (x4 : Vec F S1x256 .f32)
    (xi5 : Vec F S2048x256 .f32) (xs : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
        ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (k1_pay2 xs x0 x1)) -∗ K ⟨⟩))
      ⊢ wp frame (wpE (defs₀ (F := F)) Variants.none c none) E (cc1__gcn_kernel i arg2 harg2 arg3 harg3 arg4 harg4 arg5 harg5 arg6 harg6 arg7 harg7 arg8 harg8) K := by
  simp only [cc1__gcn_kernel_eq_skeleton]; unfold cc1__gcn_kernel_skel
  unfold owns
  iintro ⟨⟨%f0, %hf0, H0⟩, ⟨%f1, %hf1, H1⟩, H2, H3, H4, H5, ⟨%fs, %hfs, HS⟩, Hk⟩
  obtain rfl := harg2.eq_unread hf0; obtain rfl := harg3.eq_unread hf1; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]; · iexact H2
  isplitl [H3]; · iexact H3
  isplitl [H4]; · iexact H4
  isplitl [H5]; · iexact H5
  iexists _; isplitr
  swap; · iexact HS
  ipureintro
  rw [StoreReadback.read_store_whole2, StoreReadback.load_whole arg8 harg8 StoreReadback.zeros2, StoreReadback.load_whole arg2 harg2 StoreReadback.zeros2, StoreReadback.load_whole arg3 harg3 StoreReadback.zeros2]

set_option maxHeartbeats 1000000 in
/-- The body where the reduction coordinate is 7 (the second conditional taken, the first not): the accumulator, found at
    `xs`, gains this point's product, and the output's buffer, found at anything, is stored whole with the finished
    row block computed from the accumulator, the scaling column, the weights and the bias row. -/
theorem run1_C (c : Dev nD) (i : grid1.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x128 .f32) (harg8 : arg8.IsWhole)
    (hc0 : ¬cond1_0 i) (hc1 : cond1_1 i)
    (x0 : Vec F S2048x2048 .bf16) (x1 : Vec F S2048x128 .bf16) (x2 : Vec F S2048x1 .f32) (x3 : Vec F S128x256 .bf16) (x4 : Vec F S1x256 .f32)
    (xs : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay3 (k1_pay2 xs x0 x1) x2 x3 x4)
            ∗ owns (c : Thread nD τ) arg8 fullShare (k1_pay2 xs x0 x1)) -∗ K ⟨⟩))
      ⊢ wp frame (wpE (defs₀ (F := F)) Variants.none c none) E (cc1__gcn_kernel i arg2 harg2 arg3 harg3 arg4 harg4 arg5 harg5 arg6 harg6 arg7 harg7 arg8 harg8) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_run_names
    rw [StoreReadback.read_store_whole2, StoreReadback.readCov_part2, StoreReadback.ld_whole2, StoreReadback.load_whole arg8 harg8 StoreReadback.zeros2, StoreReadback.load_whole arg2 harg2 StoreReadback.zeros2, StoreReadback.load_whole arg3 harg3 StoreReadback.zeros2,
      StoreReadback.load_whole arg4 harg4 StoreReadback.zeros2, StoreReadback.load_whole arg5 harg5 StoreReadback.zeros2, StoreReadback.load_whole arg6 harg6 StoreReadback.zeros2]
  iexists _; isplitr
  swap; · iexact HS
  ipureintro
  sl_unfold_run_names
  rw [StoreReadback.read_store_whole2, StoreReadback.load_whole arg8 harg8 StoreReadback.zeros2, StoreReadback.load_whole arg2 harg2 StoreReadback.zeros2, StoreReadback.load_whole arg3 harg3 StoreReadback.zeros2]

end Cert.KernelIdeal.Gen

end
-- ==== Proof.Region1.lean ====
/-
  Region 1 of @main — the first graph-convolution layer: the frame data of its pipeline, at the buffer contents `V` the
  region is entered with. What the accumulator holds after each grid point (`acc1`, by recursion on the point); the
  region invariant (`PhiS1`: what the launch hands over before the first point, afterwards the accumulator owned at
  `acc1` of the point before beside the untouched scoped buffers and the generator register); the proof data (`dat1`:
  every input's buffer at its block, the output's at the finished row block computed from the accumulator); the body
  obligation at every point from the three case triples; and that the invariant starts from and ends in the launch's form.
-/
import proofs.«103720_j9775345566347_1_alg».proof.Proof.Region1Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator after each point -/

/-- THE ACCUMULATION. What the accumulator holds after the body at position `n`: where the reduction coordinate is 0 the
    product of this point's adjacency and feature blocks added to zero, elsewhere that product added to what the point
    before left. -/
def acc1 (c : Dev nD) : (n : ℕ) → n < cfg1.N → Vec F S2048x128 .f32
  | 0, hn => k1_pay2 k1_pay1 (iblk1 V c 0 ⟨0, hn⟩) (iblk1 V c 1 ⟨0, hn⟩)
  | n + 1, hn =>
    if (n + 1) % 8 = 0 then k1_pay2 k1_pay1 (iblk1 V c 0 ⟨n + 1, hn⟩) (iblk1 V c 1 ⟨n + 1, hn⟩)
    else k1_pay2 (acc1 c n (Nat.lt_of_succ_lt hn)) (iblk1 V c 0 ⟨n + 1, hn⟩) (iblk1 V c 1 ⟨n + 1, hn⟩)

/-- At the first point of a row block the accumulation starts afresh. -/
theorem acc1_first (c : Dev nD) (n : ℕ) (hn : n < cfg1.N) (h : n % 8 = 0) :
    acc1 V c n hn = k1_pay2 k1_pay1 (iblk1 V c 0 ⟨n, hn⟩) (iblk1 V c 1 ⟨n, hn⟩) := by
  cases n with
  | zero => rfl
  | succ n => exact if_pos h

/-- At any other point it continues from the point before. -/
theorem acc1_next (c : Dev nD) (n : ℕ) (hn : n < cfg1.N) (h : n % 8 ≠ 0) :
    acc1 V c n hn = k1_pay2 (acc1 V c (n - 1) (Nat.lt_of_le_of_lt (Nat.sub_le _ _) hn)) (iblk1 V c 0 ⟨n, hn⟩) (iblk1 V c 1 ⟨n, hn⟩) := by
  cases n with
  | zero => exact absurd (Nat.zero_mod _) h
  | succ n => exact if_neg h

/-! ## The region invariant -/

/-- Before position `n`: before the first point what the launch hands the region (every scoped buffer that is no staging
    buffer of this kernel at some contents, the generator register at some state); afterwards the same with the accumulator
    at what the point before left in it. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ others1 c) ∗ (∃ r, prngReg c r)) := by
  cases n with
  | zero => exact absurd rfl hz
  | succ n => rfl

/-! ## The pipeline's proof data -/

/-- The proof data of pipeline 1 on core `c`: the arrays as the region finds them (`V`); after the body at point `t` each
    input's buffer at its block and the output's at the finished row block computed from the accumulator at `t` (consulted
    only where the window is written back: the last point of each row block); the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay3 (acc1 V c t.val t.isLt) (iblk1 V c 2 t) (iblk1 V c 3 t) (iblk1 V c 4 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = k1_pay3 (acc1 V c t.val t.isLt) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the reduction coordinate `t % 8` says which of the three
    cases the point is in; the invariant hands the body the accumulator at what the point before left (at anything before
    the first point) and takes it back at this point's contents; where the output window is idle its buffer goes back as
    found, and at the last point of a row block it goes back at the finished block; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  have hN : t.val < 64 := lt_of_lt_of_eq t.isLt (show cfg1.N = 64 from N_1)
  by_cases h0 : t.val % 8 = 0
  · -- the first point of a row block
    have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 t hc1) (noFlush1_5 t hc1)]
    rw [acc1_first V c t.val t.isLt h0]
    by_cases hz : t.val = 0
    · rw [PhiS1_castSucc V c t, PhiS1_zero V c _ _ hz, PhiA1_eq]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run1_A c (grid1.coords t) _ _ _ _ _ _ _ _ _ _ _ _ _ _ hc0 hc1 (iblk1 V c 0 t) (iblk1 V c 1 t) (iblk1 V c 2 t) (iblk1 V c 3 t) (iblk1 V c 4 t) ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run1_A c (grid1.coords t) _ _ _ _ _ _ _ _ _ _ _ _ _ _ hc0 hc1 (iblk1 V c 0 t) (iblk1 V c 1 t) (iblk1 V c 2 t) (iblk1 V c 3 t) (iblk1 V c 4 t) ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    have hc0 : ¬cond1_0 (grid1.coords t) := fun h => h0 ((hcond1_0 t).mp h)
    rw [acc1_next V c t.val t.isLt h0]
    rw [PhiS1_castSucc V c t, PhiS1_pos V c _ _ hz]
    by_cases h1 : t.val % 8 = 7
    · -- the last point of a row block
      have hc1 : cond1_1 (grid1.coords t) := (hcond1_1 t).mpr h1
      rw [show (dat1 V c).leavesExact 5 t = owns (c : Thread nD τ) (st1_5 t) fullShare ((dat1 V c).after 5 t) from by
        unfold Dat.leavesExact; rw [liveAt1_5 t hc1], after1_5, acc1_next V c t.val t.isLt h0]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run1_C c (grid1.coords t) _ _ _ _ _ _ _ _ _ _ _ _ _ _ hc0 hc1 (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a point strictly inside a row block
      have hc1 : ¬cond1_1 (grid1.coords t) := fun h => h1 ((hcond1_1 t).mp h)
      rw [Dat.leavesExact_idle (dat1 V c) 5 t (idleAt1_5 t hc1) (noFlush1_5 t hc1)]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run1_B c (grid1.coords t) _ _ _ _ _ _ _ _ _ _ _ _ _ _ hc0 hc1 (iblk1 V c 0 t) (iblk1 V c 1 t) (iblk1 V c 2 t) (iblk1 V c 3 t) (iblk1 V c 4 t) ((dat1 V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hoth⟩, Hg⟩
  isplitl [HS Hoth]
  · isplitl [HS]; · iexists _; iexact HS
    iexact Hoth
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Gen

end
-- ==== Proof.Region2Runs.lean ====
/-
  Region 2 of @main — the second graph-convolution layer. The grid is 8 × 8; at point (i, k) the body adds to an
  accumulator kept in the kernel's own scoped buffer the product of block (i, k) of the adjacency matrix with block k of
  the features, clearing the accumulator first when k = 0; when k = 7 it scales the accumulated rows by the degree
  column, multiplies by the weights, adds the bias row, clamps below at zero and stores the result to the output block.
  Three control cases: k = 0 (A), 0 < k < 7 (B), k = 7 (C).
  This module: each window's block at a point and that an input's buffer holds it; the two branch conditions in closed
  form over the grid; where the output window is idle; the class invariant with the accumulator split off from the
  scoped buffers the kernel never touches; and the body's triple in each case on whole memrefs, with the contents every
  buffer ends with stated through the skeleton's payloads.
-/
import proofs.«103720_j9775345566347_1_alg».proof.Proof.Gen.KernelIdeal.Launch
import proofs.«103720_j9775345566347_1_alg».proof.Proof.Gen.KernelIdeal.Skeleton
import proofs.«103720_j9775345566347_1_alg».proof.Proof.Gen.KernelIdeal.Points
import Idealize.ShloMosaic.Lib.Pipeline.FrameBody
import Idealize.ShloMosaic.Lib.Ring
import Idealize.ShloMosaic.Lib.Tactic
import proofs.«103720_j9775345566347_1_alg».proof.Proof.LibStoreReadback

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (where it is not
    fetched its block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (where it is not
    fetched its block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (where it is not
    fetched its block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (where it is not
    fetched its block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (where it is not
    fetched its block index has not moved), for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, in closed form over the grid -/

/-- The first conditional (clear the accumulator) is taken when the reduction coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional (finish the row block and store it) is taken when the reduction coordinate is 7. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Where the second conditional is not taken the output window is idle and is not written back; where it is taken the
    window is live. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

/-! ## The accumulator and the other scoped buffers -/

/-- The accumulator: the kernel's own scoped buffer, carried from one grid point to the next. -/
abbrev scM2 : Memref sig .tc .vmem S2048x256 .f32 := Memref.whole cc2_scratch0

/-- The core's scoped buffers that this kernel never touches (the other kernels' staging buffers and accumulators), each
    whole at some contents. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_scratch0), ((c : Thread nD τ).loc cc1_scratch0) ↦{fullShare} f))

/-- What the region holds beside its windows splits into the accumulator at some contents, the untouched scoped buffers,
    and the generator register at some state; -/
theorem PhiA2_split (c : Dev nD) :
    (Pipeline.ΦA spec2 c : sProp 𝕄) ⊢ iprop(iprop((∃ d, owns (c : Thread nD τ) scM2 fullShare d) ∗ others2 c) ∗ (∃ r, prngReg c r)) := by
  unfold Pipeline.ΦA others2; rw [scopedRest2_eq]; simp only [scM2, owns_whole]
  iintro ⟨⟨B_cc0_stg0_0, B_cc0_stg0_1, B_cc0_stg1_0, B_cc0_stg1_1, B_cc0_scratch0, B_cc1_stg0_0, B_cc1_stg0_1, B_cc1_stg1_0, B_cc1_stg1_1, B_cc1_stg2_0, B_cc1_stg2_1, B_cc1_stg3_0, B_cc1_stg4_0, B_cc1_stg5_0, B_cc1_stg5_1, B_cc1_scratch0, HS⟩, Hg⟩
  isplitr [Hg]
  · isplitl [HS]; · iexact HS
    isplitl [B_cc0_stg0_0]; · iexact B_cc0_stg0_0
    isplitl [B_cc0_stg0_1]; · iexact B_cc0_stg0_1
    isplitl [B_cc0_stg1_0]; · iexact B_cc0_stg1_0
    isplitl [B_cc0_stg1_1]; · iexact B_cc0_stg1_1
    isplitl [B_cc0_scratch0]; · iexact B_cc0_scratch0
    isplitl [B_cc1_stg0_0]; · iexact B_cc1_stg0_0
    isplitl [B_cc1_stg0_1]; · iexact B_cc1_stg0_1
    isplitl [B_cc1_stg1_0]; · iexact B_cc1_stg1_0
    isplitl [B_cc1_stg1_1]; · iexact B_cc1_stg1_1
    isplitl [B_cc1_stg2_0]; · iexact B_cc1_stg2_0
    isplitl [B_cc1_stg2_1]; · iexact B_cc1_stg2_1
    isplitl [B_cc1_stg3_0]; · iexact B_cc1_stg3_0
    isplitl [B_cc1_stg4_0]; · iexact B_cc1_stg4_0
    isplitl [B_cc1_stg5_0]; · iexact B_cc1_stg5_0
    isplitl [B_cc1_stg5_1]; · iexact B_cc1_stg5_1
    iexact B_cc1_scratch0
  iexact Hg

/-- and is put together from them again. -/
theorem PhiA2_join (c : Dev nD) :
    iprop(iprop((∃ d, owns (c : Thread nD τ) scM2 fullShare d) ∗ others2 c) ∗ (∃ r, prngReg c r)) ⊢ (Pipeline.ΦA spec2 c : sProp 𝕄) := by
  unfold Pipeline.ΦA others2; rw [scopedRest2_eq]; simp only [scM2, owns_whole]
  iintro ⟨⟨HS, B_cc0_stg0_0, B_cc0_stg0_1, B_cc0_stg1_0, B_cc0_stg1_1, B_cc0_scratch0, B_cc1_stg0_0, B_cc1_stg0_1, B_cc1_stg1_0, B_cc1_stg1_1, B_cc1_stg2_0, B_cc1_stg2_1, B_cc1_stg3_0, B_cc1_stg4_0, B_cc1_stg5_0, B_cc1_stg5_1, B_cc1_scratch0⟩, Hg⟩
  isplitr [Hg]
  ·
    isplitl [B_cc0_stg0_0]; · iexact B_cc0_stg0_0
    isplitl [B_cc0_stg0_1]; · iexact B_cc0_stg0_1
    isplitl [B_cc0_stg1_0]; · iexact B_cc0_stg1_0
    isplitl [B_cc0_stg1_1]; · iexact B_cc0_stg1_1
    isplitl [B_cc0_scratch0]; · iexact B_cc0_scratch0
    isplitl [B_cc1_stg0_0]; · iexact B_cc1_stg0_0
    isplitl [B_cc1_stg0_1]; · iexact B_cc1_stg0_1
    isplitl [B_cc1_stg1_0]; · iexact B_cc1_stg1_0
    isplitl [B_cc1_stg1_1]; · iexact B_cc1_stg1_1
    isplitl [B_cc1_stg2_0]; · iexact B_cc1_stg2_0
    isplitl [B_cc1_stg2_1]; · iexact B_cc1_stg2_1
    isplitl [B_cc1_stg3_0]; · iexact B_cc1_stg3_0
    isplitl [B_cc1_stg4_0]; · iexact B_cc1_stg4_0
    isplitl [B_cc1_stg5_0]; · iexact B_cc1_stg5_0
    isplitl [B_cc1_stg5_1]; · iexact B_cc1_stg5_1
    isplitl [B_cc1_scratch0]; · iexact B_cc1_scratch0
    iexact HS
  iexact Hg

theorem PhiA2_eq (c : Dev nD) :
    (Pipeline.ΦA spec2 c : sProp 𝕄) = iprop(iprop((∃ d, owns (c : Thread nD τ) scM2 fullShare d) ∗ others2 c) ∗ (∃ r, prngReg c r)) :=
  BI.equiv_iff.mp ⟨PhiA2_split c, PhiA2_join c⟩

/-! ## The body's triple, case by case -/

set_option maxHeartbeats 1000000 in
/-- The body where the reduction coordinate is 0 (the first conditional taken, the second not), on whole memrefs: the
    accumulator, found at anything, is cleared and then holds the first product; the inputs and the output's buffer are
    handed back as found. -/
theorem run2_A (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S2048x1 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x256 .f32) (harg8 : arg8.IsWhole)
    (hc0 : cond2_0 i) (hc1 : ¬cond2_1 i)
    (x0 : Vec F S2048x2048 .bf16) (x1 : Vec F S2048x256 .bf16) (x2 : Vec F S2048x1 .f32) (x3 : Vec F S256x256 .bf16) (x4 : Vec F S1x256 .f32)
    (xi5 : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (k2_pay2 k2_pay1 x0 x1)) -∗ K ⟨⟩))
      ⊢ wp frame (wpE (defs₀ (F := F)) Variants.none c none) E (cc2__gcn_kernel i arg2 harg2 arg3 harg3 arg4 harg4 arg5 harg5 arg6 harg6 arg7 harg7 arg8 harg8) K := by
  simp only [cc2__gcn_kernel_eq_skeleton]; unfold cc2__gcn_kernel_skel
  unfold owns
  iintro ⟨⟨%f0, %hf0, H0⟩, ⟨%f1, %hf1, H1⟩, H2, H3, H4, H5, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]; · iexact H2
  isplitl [H3]; · iexact H3
  isplitl [H4]; · iexact H4
  isplitl [H5]; · iexact H5
  iexists _; isplitr
  swap; · iexact HS
  ipureintro
  rw [StoreReadback.read_store_whole2]
  sl_unfold_run_names
  rw [StoreReadback.readCov_part2, StoreReadback.ld_whole2, StoreReadback.load_whole arg2 harg2 StoreReadback.zeros2, StoreReadback.load_whole arg3 harg3 StoreReadback.zeros2]

set_option maxHeartbeats 1000000 in
/-- The body where the reduction coordinate is strictly between 0 and 7 (neither conditional taken): the accumulator,
    found at `xs`, gains this point's product; everything else is handed back as found. -/
theorem run2_B (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S2048x1 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x256 .f32) (harg8 : arg8.IsWhole)
    (hc0 : ¬cond2_0 i) (hc1 : ¬cond2_1 i)
    (x0 : Vec F S2048x2048 .bf16) (x1 : Vec F S2048x256 .bf16) (x2 : Vec F S2048x1 .f32) (x3 : Vec F S256x256 .bf16) (x4 : Vec F S1x256 .f32)
    (xi5 : Vec F S2048x256 .f32) (xs : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
        ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (k2_pay2 xs x0 x1)) -∗ K ⟨⟩))
      ⊢ wp frame (wpE (defs₀ (F := F)) Variants.none c none) E (cc2__gcn_kernel i arg2 harg2 arg3 harg3 arg4 harg4 arg5 harg5 arg6 harg6 arg7 harg7 arg8 harg8) K := by
  simp only [cc2__gcn_kernel_eq_skeleton]; unfold cc2__gcn_kernel_skel
  unfold owns
  iintro ⟨⟨%f0, %hf0, H0⟩, ⟨%f1, %hf1, H1⟩, H2, H3, H4, H5, ⟨%fs, %hfs, HS⟩, Hk⟩
  obtain rfl := harg2.eq_unread hf0; obtain rfl := harg3.eq_unread hf1; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]; · iexact H2
  isplitl [H3]; · iexact H3
  isplitl [H4]; · iexact H4
  isplitl [H5]; · iexact H5
  iexists _; isplitr
  swap; · iexact HS
  ipureintro
  rw [StoreReadback.read_store_whole2, StoreReadback.load_whole arg8 harg8 StoreReadback.zeros2, StoreReadback.load_whole arg2 harg2 StoreReadback.zeros2, StoreReadback.load_whole arg3 harg3 StoreReadback.zeros2]

set_option maxHeartbeats 1000000 in
/-- The body where the reduction coordinate is 7 (the second conditional taken, the first not): the accumulator, found at
    `xs`, gains this point's product, and the output's buffer, found at anything, is stored whole with the finished
    row block computed from the accumulator, the scaling column, the weights and the bias row. -/
theorem run2_C (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S2048x1 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x256 .f32) (harg8 : arg8.IsWhole)
    (hc0 : ¬cond2_0 i) (hc1 : cond2_1 i)
    (x0 : Vec F S2048x2048 .bf16) (x1 : Vec F S2048x256 .bf16) (x2 : Vec F S2048x1 .f32) (x3 : Vec F S256x256 .bf16) (x4 : Vec F S1x256 .f32)
    (xs : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k2_pay3 (k2_pay2 xs x0 x1) x2 x3 x4)
            ∗ owns (c : Thread nD τ) arg8 fullShare (k2_pay2 xs x0 x1)) -∗ K ⟨⟩))
      ⊢ wp frame (wpE (defs₀ (F := F)) Variants.none c none) E (cc2__gcn_kernel i arg2 harg2 arg3 harg3 arg4 harg4 arg5 harg5 arg6 harg6 arg7 harg7 arg8 harg8) K := by
  simp only [cc2__gcn_kernel_eq_skeleton]; unfold cc2__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_run_names
    rw [StoreReadback.read_store_whole2, StoreReadback.readCov_part2, StoreReadback.ld_whole2, StoreReadback.load_whole arg8 harg8 StoreReadback.zeros2, StoreReadback.load_whole arg2 harg2 StoreReadback.zeros2, StoreReadback.load_whole arg3 harg3 StoreReadback.zeros2,
      StoreReadback.load_whole arg4 harg4 StoreReadback.zeros2, StoreReadback.load_whole arg5 harg5 StoreReadback.zeros2, StoreReadback.load_whole arg6 harg6 StoreReadback.zeros2]
  iexists _; isplitr
  swap; · iexact HS
  ipureintro
  sl_unfold_run_names
  rw [StoreReadback.read_store_whole2, StoreReadback.load_whole arg8 harg8 StoreReadback.zeros2, StoreReadback.load_whole arg2 harg2 StoreReadback.zeros2, StoreReadback.load_whole arg3 harg3 StoreReadback.zeros2]

end Cert.KernelIdeal.Gen

end
-- ==== Proof.Region2.lean ====
/-
  Region 2 of @main — the second graph-convolution layer: the frame data of its pipeline, at the buffer contents `V` the
  region is entered with. What the accumulator holds after each grid point (`acc2`, by recursion on the point); the
  region invariant (`PhiS2`: what the launch hands over before the first point, afterwards the accumulator owned at
  `acc2` of the point before beside the untouched scoped buffers and the generator register); the proof data (`dat2`:
  every input's buffer at its block, the output's at the finished row block computed from the accumulator); the body
  obligation at every point from the three case triples; and that the invariant starts from and ends in the launch's form.
-/
import proofs.«103720_j9775345566347_1_alg».proof.Proof.Region2Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator after each point -/

/-- THE ACCUMULATION. What the accumulator holds after the body at position `n`: where the reduction coordinate is 0 the
    product of this point's adjacency and feature blocks added to zero, elsewhere that product added to what the point
    before left. -/
def acc2 (c : Dev nD) : (n : ℕ) → n < cfg2.N → Vec F S2048x256 .f32
  | 0, hn => k2_pay2 k2_pay1 (iblk2 V c 0 ⟨0, hn⟩) (iblk2 V c 1 ⟨0, hn⟩)
  | n + 1, hn =>
    if (n + 1) % 8 = 0 then k2_pay2 k2_pay1 (iblk2 V c 0 ⟨n + 1, hn⟩) (iblk2 V c 1 ⟨n + 1, hn⟩)
    else k2_pay2 (acc2 c n (Nat.lt_of_succ_lt hn)) (iblk2 V c 0 ⟨n + 1, hn⟩) (iblk2 V c 1 ⟨n + 1, hn⟩)

/-- At the first point of a row block the accumulation starts afresh. -/
theorem acc2_first (c : Dev nD) (n : ℕ) (hn : n < cfg2.N) (h : n % 8 = 0) :
    acc2 V c n hn = k2_pay2 k2_pay1 (iblk2 V c 0 ⟨n, hn⟩) (iblk2 V c 1 ⟨n, hn⟩) := by
  cases n with
  | zero => rfl
  | succ n => exact if_pos h

/-- At any other point it continues from the point before. -/
theorem acc2_next (c : Dev nD) (n : ℕ) (hn : n < cfg2.N) (h : n % 8 ≠ 0) :
    acc2 V c n hn = k2_pay2 (acc2 V c (n - 1) (Nat.lt_of_le_of_lt (Nat.sub_le _ _) hn)) (iblk2 V c 0 ⟨n, hn⟩) (iblk2 V c 1 ⟨n, hn⟩) := by
  cases n with
  | zero => exact absurd (Nat.zero_mod _) h
  | succ n => exact if_neg h

/-! ## The region invariant -/

/-- Before position `n`: before the first point what the launch hands the region (every scoped buffer that is no staging
    buffer of this kernel at some contents, the generator register at some state); afterwards the same with the accumulator
    at what the point before left in it. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ others2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn) ∗ others2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega)) ∗ others2 c) ∗ (∃ r, prngReg c r)) := by
  cases n with
  | zero => exact absurd rfl hz
  | succ n => rfl

/-! ## The pipeline's proof data -/

/-- The proof data of pipeline 2 on core `c`: the arrays as the region finds them (`V`); after the body at point `t` each
    input's buffer at its block and the output's at the finished row block computed from the accumulator at `t` (consulted
    only where the window is written back: the last point of each row block); the invariant `PhiS2`; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay3 (acc2 V c t.val t.isLt) (iblk2 V c 2 t) (iblk2 V c 3 t) (iblk2 V c 4 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = k2_pay3 (acc2 V c t.val t.isLt) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The inputs' buffers hold their blocks; the reduction coordinate `t % 8` says which of the three
    cases the point is in; the invariant hands the body the accumulator at what the point before left (at anything before
    the first point) and takes it back at this point's contents; where the output window is idle its buffer goes back as
    found, and at the last point of a row block it goes back at the finished block; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  have hN : t.val < 64 := lt_of_lt_of_eq t.isLt (show cfg2.N = 64 from N_2)
  by_cases h0 : t.val % 8 = 0
  · -- the first point of a row block
    have h1 : ¬t.val % 8 = 7 := by omega
    have hc0 : cond2_0 (grid2.coords t) := (hcond2_0 t).mpr h0
    have hc1 : ¬cond2_1 (grid2.coords t) := fun h => h1 ((hcond2_1 t).mp h)
    rw [Dat.leavesExact_idle (dat2 V c) 5 t (idleAt2_5 t hc1) (noFlush2_5 t hc1)]
    rw [acc2_first V c t.val t.isLt h0]
    by_cases hz : t.val = 0
    · rw [PhiS2_castSucc V c t, PhiS2_zero V c _ _ hz, PhiA2_eq]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run2_A c (grid2.coords t) _ _ _ _ _ _ _ _ _ _ _ _ _ _ hc0 hc1 (iblk2 V c 0 t) (iblk2 V c 1 t) (iblk2 V c 2 t) (iblk2 V c 3 t) (iblk2 V c 4 t) ((dat2 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS2_castSucc V c t, PhiS2_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run2_A c (grid2.coords t) _ _ _ _ _ _ _ _ _ _ _ _ _ _ hc0 hc1 (iblk2 V c 0 t) (iblk2 V c 1 t) (iblk2 V c 2 t) (iblk2 V c 3 t) (iblk2 V c 4 t) ((dat2 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    have hc0 : ¬cond2_0 (grid2.coords t) := fun h => h0 ((hcond2_0 t).mp h)
    rw [acc2_next V c t.val t.isLt h0]
    rw [PhiS2_castSucc V c t, PhiS2_pos V c _ _ hz]
    by_cases h1 : t.val % 8 = 7
    · -- the last point of a row block
      have hc1 : cond2_1 (grid2.coords t) := (hcond2_1 t).mpr h1
      rw [show (dat2 V c).leavesExact 5 t = owns (c : Thread nD τ) (st2_5 t) fullShare ((dat2 V c).after 5 t) from by
        unfold Dat.leavesExact; rw [liveAt2_5 t hc1], after2_5, acc2_next V c t.val t.isLt h0]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run2_C c (grid2.coords t) _ _ _ _ _ _ _ _ _ _ _ _ _ _ hc0 hc1 (iblk2 V c 0 t) (iblk2 V c 1 t) (iblk2 V c 2 t) (iblk2 V c 3 t) (iblk2 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a point strictly inside a row block
      have hc1 : ¬cond2_1 (grid2.coords t) := fun h => h1 ((hcond2_1 t).mp h)
      rw [Dat.leavesExact_idle (dat2 V c) 5 t (idleAt2_5 t hc1) (noFlush2_5 t hc1)]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run2_B c (grid2.coords t) _ _ _ _ _ _ _ _ _ _ _ _ _ _ hc0 hc1 (iblk2 V c 0 t) (iblk2 V c 1 t) (iblk2 V c 2 t) (iblk2 V c 3 t) (iblk2 V c 4 t) ((dat2 V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's form back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, Hoth⟩, Hg⟩
  isplitl [HS Hoth]
  · isplitl [HS]; · iexists _; iexact HS
    iexact Hoth
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Cert.KernelIdeal.Gen

end
-- ==== Proof.HostStretches.lean ====
/-
  What the stretches of host operations between the kernel regions compute, as functions of the buffers they read,
  over ANY contents the stretch is entered with: the inverse square root of the clamped degrees and the scaled
  features before the first layer; the scaled hidden features before the second; the mean pool and the classifier
  after it. Each is the stretch's operations applied to one another, nothing else.
-/
import proofs.«103720_j9775345566347_1_alg».proof.Proof.Gen.KernelIdeal.Regions
import Idealize.ShloMosaic.Lib.StableHlo.Run

noncomputable section

namespace Cert.KernelIdeal.Gen

open Idealize.ShloMosaic Idealize.ShloMosaic.TcCoe Idealize.SL.Sem Idealize.ShloMosaic.StableHlo

variable {F : FTy → Type} [FloatOps F]

/-- deg ↦ max(1, deg)^(-1/2), entry by entry, on a column. -/
def disOf (deg : FVec F S16384x1 .f32) : FVec F S16384x1 .f32 :=
  Host.powf (maximumf (broadcastInDim S16384x1 ![] bcast_S_S16384x1 (constant S_ .f32 0x3F800000#32)) deg)
    (broadcastInDim S16384x1 ![] bcast_S_S16384x1 (constant S_ .f32 0xBF000000#32))

/-- The stretch between the degree region and the first layer, entered with contents Wb. -/
abbrev stretch1 (Wb : Valuation τ sig (Elt F)) : Valuation τ sig (Elt F) :=
  StableHlo.after hostOps1_2 (StableHlo.after hostOps1_1 (StableHlo.after hostOps1 Wb))

theorem stretch1_v39 (Wb : Valuation τ sig (Elt F)) :
    stretch1 Wb (Proc.devRef .tc main_v39) = disOf (Wb (Proc.devRef .tc main_v36)) := by
  dsimp only [stretch1, hostOps1_2, hostOps1_1, hostOps1]
  after_results
  all_goals rfl

theorem stretch1_v42 (Wb : Valuation τ sig (Elt F)) :
    stretch1 Wb (Proc.devRef .tc main_v42)
      = truncf .bf16 (mulf (Wb (Proc.devRef .tc main_arg0)) (broadcastInDim S16384x128 ![0, 1] bcast_S16384x1_S16384x128_0_1 (disOf (Wb (Proc.devRef .tc main_v36))))) bitsLt_bf16_f32 := by
  dsimp only [stretch1, hostOps1_2, hostOps1_1, hostOps1]
  after_results
  all_goals rfl

theorem stretch1_v43 (Wb : Valuation τ sig (Elt F)) :
    stretch1 Wb (Proc.devRef .tc main_v43) = truncf .bf16 (Wb (Proc.devRef .tc main_arg3)) bitsLt_bf16_f32 := by
  dsimp only [stretch1, hostOps1_2, hostOps1_1, hostOps1]
  after_results
  all_goals rfl

theorem stretch1_v44 (Wb : Valuation τ sig (Elt F)) :
    stretch1 Wb (Proc.devRef .tc main_v44) = shapeCast S1x256 (Wb (Proc.devRef .tc main_arg4)) shapeCasts_S256_S1x256 := by
  dsimp only [stretch1, hostOps1_2, hostOps1_1, hostOps1]
  after_results
  all_goals rfl

/-- A buffer the stretch does not write keeps its contents. -/
theorem stretch1_of (Wb : Valuation τ sig (Elt F)) (r : Ref sig .tc) (h1 : r ∉ hostOps1_W) (h2 : r ∉ hostOps1_1_W) (h3 : r ∉ hostOps1_2_W) :
    stretch1 Wb (Proc.devRef .tc r) = Wb (Proc.devRef .tc r) :=
  (StableHlo.after_of_writes_sub hostOps1_2 _ hostOps1_2_writes h3).trans
    ((StableHlo.after_of_writes_sub hostOps1_1 _ hostOps1_1_writes h2).trans (StableHlo.after_of_writes_sub hostOps1 _ hostOps1_writes h1))

/-- The stretch between the two layers. -/
theorem stretch2_v48 (Wb : Valuation τ sig (Elt F)) :
    StableHlo.after hostOps2 Wb (Proc.devRef .tc main_v48)
      = truncf .bf16 (mulf (Wb (Proc.devRef .tc main_v45)) (broadcastInDim S16384x256 ![0, 1] bcast_S16384x1_S16384x256_0_1 (Wb (Proc.devRef .tc main_v39)))) bitsLt_bf16_f32 := by
  dsimp only [hostOps2]
  after_results
  all_goals rfl

theorem stretch2_v49 (Wb : Valuation τ sig (Elt F)) :
    StableHlo.after hostOps2 Wb (Proc.devRef .tc main_v49) = truncf .bf16 (Wb (Proc.devRef .tc main_arg5)) bitsLt_bf16_f32 := by
  dsimp only [hostOps2]
  after_results
  all_goals rfl

theorem stretch2_v50 (Wb : Valuation τ sig (Elt F)) :
    StableHlo.after hostOps2 Wb (Proc.devRef .tc main_v50) = shapeCast S1x256 (Wb (Proc.devRef .tc main_arg6)) shapeCasts_S256_S1x256 := by
  dsimp only [hostOps2]
  after_results
  all_goals rfl

theorem stretch2_of (Wb : Valuation τ sig (Elt F)) (r : Ref sig .tc) (h : r ∉ hostOps2_W) :
    StableHlo.after hostOps2 Wb (Proc.devRef .tc r) = Wb (Proc.devRef .tc r) :=
  StableHlo.after_of_writes_sub hostOps2 _ hostOps2_writes h

/-- The mean pool over the graphs of the batch and the classifier, from the second layer's output. -/
def tailOf (h2 : FVec F S16384x256 .f32) (batch : IVec S16384 32) (Wc : FVec F S256x10 .f32) (bc : FVec F S10 .f32) : FVec F S64x10 .f32 :=
  addf
    (Host.dotGeneral dot_S64x256_S256x10_S64x10_1_0_0_1_n_n none
      (Host.divf
        (Host.scatterAdd scatter_S64x256_S16384x1_S16384x256_1_0_0_1
          (broadcastInDim S64x256 ![] bcast_S_S64x256 (constant S_ .f32 0x00000000#32))
          (broadcastInDim S16384x1 ![0] bcast_S16384_S16384x1_0 batch) h2)
        (broadcastInDim S64x256 ![0, 1] bcast_S64x1_S64x256_0_1
          (broadcastInDim S64x1 ![0] bcast_S64_S64x1_0
            (maximumf (broadcastInDim S64 ![] bcast_S_S64 (constant S_ .f32 0x3F800000#32))
              (Host.scatterAdd scatter_S64_S16384x1_S16384_n_0_0_1
                (broadcastInDim S64 ![] bcast_S_S64 (constant S_ .f32 0x00000000#32))
                (broadcastInDim S16384x1 ![0] bcast_S16384_S16384x1_0 batch)
                (broadcastInDim S16384 ![] bcast_S_S16384 (constant S_ .f32 0x3F800000#32)))))))
      Wc)
    (broadcastInDim S64x10 ![0, 1] bcast_S1x10_S64x10_0_1 (broadcastInDim S1x10 ![1] bcast_S10_S1x10_1 bc))

abbrev stretch3 (Wb : Valuation τ sig (Elt F)) : Valuation τ sig (Elt F) :=
  StableHlo.after hostOps3_2 (StableHlo.after hostOps3_1 (StableHlo.after hostOps3 Wb))

set_option maxHeartbeats 4000000 in
theorem stretch3_v66 (Wb : Valuation τ sig (Elt F)) :
    stretch3 Wb (Proc.devRef .tc main_v66)
      = tailOf (Wb (Proc.devRef .tc main_v51)) (Wb (Proc.devRef .tc main_arg2)) (Wb (Proc.devRef .tc main_arg7)) (Wb (Proc.devRef .tc main_arg8)) := by
  dsimp only [stretch3, hostOps3_2, hostOps3_1, hostOps3]
  after_results_simp
  unfold tailOf
  generalize Host.scatterAdd (F := F) scatter_S64_S16384x1_S16384_n_0_0_1 _ _ _ = cnt
  generalize Host.scatterAdd (F := F) scatter_S64x256_S16384x1_S16384x256_1_0_0_1 _ _ _ = pooled
  rfl

theorem stretch3_of (Wb : Valuation τ sig (Elt F)) (r : Ref sig .tc) (h1 : r ∉ hostOps3_W) (h2 : r ∉ hostOps3_1_W) (h3 : r ∉ hostOps3_2_W) :
    stretch3 Wb (Proc.devRef .tc r) = Wb (Proc.devRef .tc r) :=
  (StableHlo.after_of_writes_sub hostOps3_2 _ hostOps3_2_writes h3).trans
    ((StableHlo.after_of_writes_sub hostOps3_1 _ hostOps3_1_writes h2).trans (StableHlo.after_of_writes_sub hostOps3 _ hostOps3_writes h1))

theorem stretch0_of (Wb : Valuation τ sig (Elt F)) (r : Ref sig .tc) (h : r ∉ hostOps0_W) :
    StableHlo.after hostOps0 Wb (Proc.devRef .tc r) = Wb (Proc.devRef .tc r) :=
  StableHlo.after_of_writes_sub hostOps0 _ hostOps0_writes h

end Cert.KernelIdeal.Gen

end
-- ==== Proof.KernelRun.lean ====
/-
  The run of @main: eleven segments — eight stretches of host operations and the three kernel regions — from the
  launch to the return. The buffer contents at each segment boundary are a fold through @main (a stretch applies
  its operations; a region leaves its arrays at what its write-backs deposit and every other buffer as entered);
  each region is entered from "every unscoped buffer at the boundary's contents, the generator register at some
  state, nothing owed" and left at the next boundary's. The conclusion: every weakly fair execution terminates
  without fault and every unscoped buffer ends at the last boundary's contents.
-/
import proofs.«103720_j9775345566347_1_alg».proof.Proof.Region0
import proofs.«103720_j9775345566347_1_alg».proof.Proof.Region1
import proofs.«103720_j9775345566347_1_alg».proof.Proof.Region2
import proofs.«103720_j9775345566347_1_alg».proof.Proof.Gen.KernelIdeal.Regions
import proofs.«103720_j9775345566347_1_alg».proof.Proof.HostStretches
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => m (c, b)
abbrev W1 : Dev nD → Valuation τ sig (Elt F) := fun c => StableHlo.after hostOps0 (W0 m c)

/-- The same read at the TensorCore's references: what region 0 is entered with. -/
abbrev Vin0 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (Vin0 m) c).arrAt w cfg0.N
theorem W2_arr (c : Dev nD) (w : Fin cfg0.W) :
    W2 m c (Proc.devRef .tc (Pipeline.arrRef spec0 w)) = (dat0 (Vin0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vout0 : (c : Dev nD) → (b : Ref sig .tc) → Buf (Elt F) ((c : Thread nD τ).loc b) := fun c b => W2 m c b
theorem hF0 (c : Dev nD) (w : Fin cfg0.W) : (dat0 (Vin0 m) c).arrAt w cfg0.N = Vout0 m c (Pipeline.arrRef spec0 w) :=
  (W2_arr m c w).symm
theorem hrest0 (c : Dev nD) : ∀ b, b ∉ Finset.univ.image (Pipeline.arrRef spec0) → Vout0 m c b = Vin0 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)

/-- The same read at the TensorCore's references: what region 1 is entered with. -/
abbrev Vin1 : (c : Dev nD) → (b : Ref sig .tc) → Buf (Elt F) ((c : Thread nD τ).loc b) := fun c b => W5 m c b
/-- At region 1's exit: its arrays at what the pipeline leaves, every other buffer as entered. -/
def W6 (c : Dev nD) : Valuation τ sig (Elt F) :=
  Pipeline.withArrays spec1 c (W5 m c) fun w => (dat1 (Vin1 m) c).arrAt w cfg1.N
theorem W6_arr (c : Dev nD) (w : Fin cfg1.W) :
    W6 m c (Proc.devRef .tc (Pipeline.arrRef spec1 w)) = (dat1 (Vin1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev Vout1 : (c : Dev nD) → (b : Ref sig .tc) → Buf (Elt F) ((c : Thread nD τ).loc b) := fun c b => W6 m c b
theorem hF1 (c : Dev nD) (w : Fin cfg1.W) : (dat1 (Vin1 m) c).arrAt w cfg1.N = Vout1 m c (Pipeline.arrRef spec1 w) :=
  (W6_arr m c w).symm
theorem hrest1 (c : Dev nD) : ∀ b, b ∉ Finset.univ.image (Pipeline.arrRef spec1) → Vout1 m c b = Vin1 m c b :=
  fun b hb => W6_of_ne m c b fun w e => hb (Finset.mem_image.mpr ⟨w, Finset.mem_univ _, e⟩)

abbrev W7 : Dev nD → Valuation τ sig (Elt F) := fun c => StableHlo.after hostOps2 (W6 m c)

/-- The same read at the TensorCore's references: what region 2 is entered with. -/
abbrev Vin2 : (c : Dev nD) → (b : Ref sig .tc) → Buf (Elt F) ((c : Thread nD τ).loc b) := fun c b => W7 m c b
/-- At region 2's exit: its arrays at what the pipeline leaves, every other buffer as entered. -/
def W8 (c : Dev nD) : Valuation τ sig (Elt F) :=
  Pipeline.withArrays spec2 c (W7 m c) fun w => (dat2 (Vin2 m) c).arrAt w cfg2.N
theorem W8_arr (c : Dev nD) (w : Fin cfg2.W) :
    W8 m c (Proc.devRef .tc (Pipeline.arrRef spec2 w)) = (dat2 (Vin2 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev Vout2 : (c : Dev nD) → (b : Ref sig .tc) → Buf (Elt F) ((c : Thread nD τ).loc b) := fun c b => W8 m c b
theorem hF2 (c : Dev nD) (w : Fin cfg2.W) : (dat2 (Vin2 m) c).arrAt w cfg2.N = Vout2 m c (Pipeline.arrRef spec2 w) :=
  (W8_arr m c w).symm
theorem hrest2 (c : Dev nD) : ∀ b, b ∉ Finset.univ.image (Pipeline.arrRef spec2) → Vout2 m c b = Vin2 m c b :=
  fun b hb => W8_of_ne m c b fun w e => hb (Finset.mem_image.mpr ⟨w, Finset.mem_univ _, e⟩)

abbrev W9 : Dev nD → Valuation τ sig (Elt F) := fun c => StableHlo.after hostOps3 (W8 m c)
abbrev W10 : Dev nD → Valuation τ sig (Elt F) := fun c => StableHlo.after hostOps3_1 (W9 m c)
abbrev W11 : Dev nD → Valuation τ sig (Elt F) := fun c => StableHlo.after hostOps3_2 (W10 m c)

/-! ## A buffer nothing writes ends as launched -/

/-- A buffer that no host stretch writes and that is no array of any region holds at the end what it held at launch. -/
theorem W11_kept (c : Dev nD) (r : Ref sig .tc)
    (h0 : r ∉ hostOps0_W) (h1 : r ∉ hostOps1_W) (h11 : r ∉ hostOps1_1_W) (h12 : r ∉ hostOps1_2_W) (h2 : r ∉ hostOps2_W)
    (h3 : r ∉ hostOps3_W) (h31 : r ∉ hostOps3_1_W) (h32 : r ∉ hostOps3_2_W)
    (ha0 : ∀ w, Pipeline.arrRef spec0 w ≠ r) (ha1 : ∀ w, Pipeline.arrRef spec1 w ≠ r) (ha2 : ∀ w, Pipeline.arrRef spec2 w ≠ r) :
    W11 m c (Proc.devRef .tc r) = m ((c : Thread nD τ).loc r) :=
  (stretch3_of (W8 m c) r h3 h31 h32).trans <| (W8_of_ne m c r ha2).trans <| (stretch2_of (W6 m c) r h2).trans <|
    (W6_of_ne m c r ha1).trans <| (stretch1_of (W2 m c) r h1 h11 h12).trans <| (W2_of_ne m c r ha0).trans <|
    (stretch0_of (W0 m c) r h0).trans rfl

/-! ## The proof data family and the thread state -/

def pdatsR : (p : Fin 3) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
  | ⟨2, _⟩ => fun c => dat2 (Vin2 m) c
abbrev 𝒱R : Variants := Variants.none
/-- No core owes another anything: no level is assigned. -/
abbrev LR : GSem nD τ sig → Finset Unit := fun _ => ∅
abbrev lvR : GSem nD τ sig → Unit → ℕ := fun _ _ => 0
/-- What rides beside the buffers through every segment: the generator register at some state and the core's dues, at nothing. -/
abbrev RR (c : Dev nD) : sProp 𝕄 := iprop((∃ r, prngReg c r) ∗ ∃ W, owes (c : Thread nD τ) (0 : CellTallies nD τ sig Unit) W)
/-- A host stretch as a segment over the unscoped references from the contents W. -/
abbrev hsegR (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱R LR lvR :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

theorem mem_ucR (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues. -/
abbrev TnR (c : Dev nD) : sProp 𝕄 := iprop(StableHlo.held (c : Thread nD τ) (Pipeline.ucRefs τ sig) (W11 m c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    region's invariant and comes back; nothing is owed; the kernel has no semaphore of its own. -/
def regR0 : Pipeline.RegionSeg (pcfgs (F := F)) adm (pdatsR m) () defs₀ 𝒱R LR lvR 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ LR lvR 0 fun _ _ => rfl
  pre c := iprop(StableHlo.held (c : Thread nD τ) (Pipeline.ucRefs τ sig) (W1 m c) ∗ RR c)
  post c := iprop(StableHlo.held (c : Thread nD τ) (Pipeline.ucRefs τ sig) (W2 m c) ∗ RR c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdatsR m) launch0.win launch0.arr_whole c
      ((pdatsR m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ (Pipeline.ΦA spec0 c : sProp 𝕄) from by
      unfold Pipeline.ΦA
      iintro ⟨Hp, -, Hr⟩
      isplitl [Hr]; · iexact Hr
      iexact Hp).trans (hin0 (Vin0 m) c)
  hout c := (hout0 (Vin0 m) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdatsR m) ((pdatsR m 0 c).share_full fun _ => rfl)
      (Vin0 m c) (Vout0 m c) ((pdatsR m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are
    split out of the unscoped buffers and put back at the exit contents; the generator register goes into the
    region's invariant and comes back; nothing is owed; the kernel has no semaphore of its own. -/
def regR1 : Pipeline.RegionSeg (pcfgs (F := F)) adm (pdatsR m) () defs₀ 𝒱R LR lvR 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ LR lvR 1 fun _ _ => rfl
  pre c := iprop(StableHlo.held (c : Thread nD τ) (Pipeline.ucRefs τ sig) (W5 m c) ∗ RR c)
  post c := iprop(StableHlo.held (c : Thread nD τ) (Pipeline.ucRefs τ sig) (W6 m c) ∗ RR c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdatsR m) launch1.win launch1.arr_whole c
      ((pdatsR m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ (Pipeline.ΦA spec1 c : sProp 𝕄) from by
      unfold Pipeline.ΦA
      iintro ⟨Hp, -, Hr⟩
      isplitl [Hr]; · iexact Hr
      iexact Hp).trans (hin1 (Vin1 m) c)
  hout c := (hout1 (Vin1 m) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdatsR m) ((pdatsR m 1 c).share_full fun _ => rfl)
      (Vin1 m c) (Vout1 m c) ((pdatsR m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its arrays are
    split out of the unscoped buffers and put back at the exit contents; the generator register goes into the
    region's invariant and comes back; nothing is owed; the kernel has no semaphore of its own. -/
def regR2 : Pipeline.RegionSeg (pcfgs (F := F)) adm (pdatsR m) () defs₀ 𝒱R LR lvR 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ LR lvR 2 fun _ _ => rfl
  pre c := iprop(StableHlo.held (c : Thread nD τ) (Pipeline.ucRefs τ sig) (W7 m c) ∗ RR c)
  post c := iprop(StableHlo.held (c : Thread nD τ) (Pipeline.ucRefs τ sig) (W8 m c) ∗ RR c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit := Pipeline.arrays_of_unscopedBufs (p := 2) (pcfgs (F := F)) adm (pdatsR m) launch2.win launch2.arr_whole c
      ((pdatsR m 2 c).share_full fun _ => rfl) (Vin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ (Pipeline.ΦA spec2 c : sProp 𝕄) from by
      unfold Pipeline.ΦA
      iintro ⟨Hp, -, Hr⟩
      isplitl [Hr]; · iexact Hr
      iexact Hp).trans (hin2 (Vin2 m) c)
  hout c := (hout2 (Vin2 m) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdatsR m) ((pdatsR m 2 c).share_full fun _ => rfl)
      (Vin2 m c) (Vout2 m c) ((pdatsR m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsR : List (Pipeline.Seg (pcfgs (F := F)) adm (pdatsR m) () defs₀ 𝒱R LR lvR) :=
  [ .host (hsegR hostOps0 hostOps0_sub hostOps0_fresh (W0 m)),
    .region (regR0 m),
    .host (hsegR hostOps1 hostOps1_sub hostOps1_fresh (W2 m)),
    .host (hsegR hostOps1_1 hostOps1_1_sub hostOps1_1_fresh (W3 m)),
    .host (hsegR hostOps1_2 hostOps1_2_sub hostOps1_2_fresh (W4 m)),
    .region (regR1 m),
    .host (hsegR hostOps2 hostOps2_sub hostOps2_fresh (W6 m)),
    .region (regR2 m),
    .host (hsegR hostOps3 hostOps3_sub hostOps3_fresh (W8 m)),
    .host (hsegR hostOps3_1 hostOps3_1_sub hostOps3_1_fresh (W9 m)),
    .host (hsegR hostOps3_2 hostOps3_2_sub hostOps3_2_fresh (W10 m)) ]

set_option backward.isDefEq.respectTransparency.types false in
/-- THE RUN: from any memory with zero counters every weakly fair execution of @main on the TensorCores terminates,
    nothing faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdatsR m) () cellOf_inj emb₁ defs₀ 𝒱R LR lvR m ρ main (segsR m)
    (fun c Q => by
      rewrite [main_chain c, Pipeline.Seg.run_eq_chain,
        show (segsR m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          StableHlo.seq hostOps3_1,
          StableHlo.seq hostOps3_2 ] from rfl]
      exact .rfl)
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RR c)) (Tₙ := TnR m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c =>
        (show (iprop(StableHlo.held (c : Thread nD τ) (Pipeline.ucRefs τ sig) (W11 m c) ∗ RR c) : sProp 𝕄)
            ⊢ iprop(TnR m c ∗ ∃ W, owes (c : Thread nD τ) (0 : CellTallies nD τ sig Unit) W) from by
          iintro ⟨Hh, Hp, Ho⟩
          isplitl [Hh Hp]
          · isplitl [Hh]; · iexact Hh
            iexact Hp
          iexact Ho)⟩)
    (hinit := by
      refine Pipeline.initEach LR lvR fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

/-- THE RUN, read: the result buffer ends at the last boundary's contents and every argument array ends as launched. -/
theorem run_result : θ_run defs (onTc (τ := τ) (main (F := F))) ⟨m, fun _ => 0, ρ⟩ (fun r => ∀ c : Dev nD,
      r.2.mem ((c.tc : Thread nD τ).loc main_v66) = W11 m c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    h c _ (mem_ucR main_v66 (by decide)),
    (h c _ (mem_ucR main_arg0 (by decide))).trans (W11_kept m c main_arg0 (by decide) (by decide) (by decide) (by decide) (by decide) (by decide) (by decide) (by decide) (by decide) (by decide) (by decide)),
    (h c _ (mem_ucR main_arg1 (by decide))).trans (W11_kept m c main_arg1 (by decide) (by decide) (by decide) (by decide) (by decide) (by decide) (by decide) (by decide) (by decide) (by decide) (by decide)),
    (h c _ (mem_ucR main_arg2 (by decide))).trans (W11_kept m c main_arg2 (by decide) (by decide) (by decide) (by decide) (by decide) (by decide) (by decide) (by decide) (by decide) (by decide) (by decide)),
    (h c _ (mem_ucR main_arg3 (by decide))).trans (W11_kept m c main_arg3 (by decide) (by decide) (by decide) (by decide) (by decide) (by decide) (by decide) (by decide) (by decide) (by decide) (by decide)),
    (h c _ (mem_ucR main_arg4 (by decide))).trans (W11_kept m c main_arg4 (by decide) (by decide) (by decide) (by decide) (by decide) (by decide) (by decide) (by decide) (by decide) (by decide) (by decide)),
    (h c _ (mem_ucR main_arg5 (by decide))).trans (W11_kept m c main_arg5 (by decide) (by decide) (by decide) (by decide) (by decide) (by decide) (by decide) (by decide) (by decide) (by decide) (by decide)),
    (h c _ (mem_ucR main_arg6 (by decide))).trans (W11_kept m c main_arg6 (by decide) (by decide) (by decide) (by decide) (by decide) (by decide) (by decide) (by decide) (by decide) (by decide) (by decide)),
    (h c _ (mem_ucR main_arg7 (by decide))).trans (W11_kept m c main_arg7 (by decide) (by decide) (by decide) (by decide) (by decide) (by decide) (by decide) (by decide) (by decide) (by decide) (by decide)),
    (h c _ (mem_ucR main_arg8 (by decide))).trans (W11_kept m c main_arg8 (by decide) (by decide) (by decide) (by decide) (by decide) (by decide) (by decide) (by decide) (by decide) (by decide) (by decide))⟩)
    (run_all m ρ)

/-- THE FRAME, at any float instance: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_result m ρ)

end Cert.KernelIdeal.Gen

end
-- ==== Proof.HostAtIndex.lean ====
/-
  The host stretches' results read at an index, at exact arithmetic: the normaliser max(1, deg)^(-1/2) entry by
  entry; a feature matrix scaled row by row by a column; a bias vector laid out as one row. Changes of float format
  are the identity here.
-/
import proofs.«103720_j9775345566347_1_alg».proof.Proof.HostStretches
import Idealize.ShloMosaic.Lib.ValueIdx
import Idealize.ShloMosaic.Lib.Pipeline.Value
import Idealize.ShloMosaic.Lib.IdealHost

noncomputable section

namespace Cert.KernelIdeal.Gen

open Idealize.ShloMosaic Idealize.ShloMosaic.ValueIdx

/-- A constant spread over a column is that constant at every entry. -/
theorem scalarColumn_apply (w : BitVec 32) (j : S16384x1.Idx) :
    broadcastInDim S16384x1 ![] bcast_S_S16384x1 (constant (F := Ideal) S_ .f32 w) j = Ideal.ofBits .f32 w :=
  broadcastInDim_apply _ bcast_S_S16384x1 _ j (fun a => a.elim0) (fun a => a.elim0)

/-- The normaliser of a row: its degree clamped below at 1, to the power −1/2. -/
theorem disOf_apply (deg : FVec Ideal S16384x1 .f32) (j : S16384x1.Idx) :
    disOf (F := Ideal) deg j = Ideal.pow (max 1 (deg j)) (Ideal.ofBits .f32 0xBF000000#32) := by
  unfold disOf Host.powf
  simp only [Ideal.hostPowf_def, maximumf_apply]
  rw [scalarColumn_apply, scalarColumn_apply, Ideal.ofBits_one_f32]

/-- A column repeated across 128 columns, read at (J, d). -/
theorem column128_apply (col : FVec Ideal S16384x1 .f32) (J : Fin 16384) (d : Fin 128) :
    broadcastInDim S16384x128 ![0, 1] bcast_S16384x1_S16384x128_0_1 col (ix2 J d) = col (ix2 J (0 : Fin 1)) :=
  broadcastInDim_apply _ bcast_S16384x1_S16384x128_0_1 col (ix2 J d) (ix2 J (0 : Fin 1))
    (fun a => by match a with | ⟨0, _⟩ => rfl | ⟨1, _⟩ => rfl)

/-- A column repeated across 256 columns, read at (J, d). -/
theorem column256_apply (col : FVec Ideal S16384x1 .f32) (J : Fin 16384) (d : Fin 256) :
    broadcastInDim S16384x256 ![0, 1] bcast_S16384x1_S16384x256_0_1 col (ix2 J d) = col (ix2 J (0 : Fin 1)) :=
  broadcastInDim_apply _ bcast_S16384x1_S16384x256_0_1 col (ix2 J d) (ix2 J (0 : Fin 1))
    (fun a => by match a with | ⟨0, _⟩ => rfl | ⟨1, _⟩ => rfl)

/-- Features of width 128 scaled row by row. -/
theorem scaled128_apply (x : FVec Ideal S16384x128 .f32) (col : FVec Ideal S16384x1 .f32) (J : Fin 16384) (d : Fin 128) :
    (truncf .bf16 (mulf x (broadcastInDim S16384x128 ![0, 1] bcast_S16384x1_S16384x128_0_1 col)) bitsLt_bf16_f32 : FVec Ideal S16384x128 .bf16) (ix2 J d)
      = x (ix2 J d) * col (ix2 J (0 : Fin 1)) := by
  rw [truncf_apply, mulf_apply, column128_apply]

/-- Features of width 256 scaled row by row. -/
theorem scaled256_apply (x : FVec Ideal S16384x256 .f32) (col : FVec Ideal S16384x1 .f32) (J : Fin 16384) (d : Fin 256) :
    (truncf .bf16 (mulf x (broadcastInDim S16384x256 ![0, 1] bcast_S16384x1_S16384x256_0_1 col)) bitsLt_bf16_f32 : FVec Ideal S16384x256 .bf16) (ix2 J d)
      = x (ix2 J d) * col (ix2 J (0 : Fin 1)) := by
  rw [truncf_apply, mulf_apply, column256_apply]

/-- A bias vector laid out as one row, read at (0, q). -/
theorem biasRow_apply (b : FVec Ideal S256 .f32) (q : Fin 256) :
    shapeCast S1x256 b shapeCasts_S256_S1x256 (ix2 (0 : Fin 1) q) = b (ix1 q) :=
  shapeCast_apply b shapeCasts_S256_S1x256 (ix2 (0 : Fin 1) q) (ix1 q) (by
    rw [Shape.rowMajor_val_one, Shape.rowMajor_val_two]
    show q.val = (0 : Fin 1).val * _ + q.val
    simp)

end Cert.KernelIdeal.Gen

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.PayloadAtIndex.lean ====
/-
  The three kernel bodies' arithmetic read at an index, at the exact instance.

  At the exact instance every float is an extended real, a change of format is the identity, a lane sum is a finite sum
  and a matrix product into a zero accumulator is the sum over the contraction index. Each stored value of the three
  bodies — the row-degree kernel (the accumulator gains the row sums of a 2048×2048 adjacency block) and the two layer
  kernels (the accumulator gains adjacency block · feature block; at the end the accumulated row is scaled by the row's
  factor, multiplied by the weights, shifted by the bias row and cut off below at zero), at feature widths 128 and 256 —
  is read here at an index written by coordinates.
-/
import proofs.«103720_j9775345566347_1_alg».proof.Proof.Gen.KernelIdeal.Skeleton
import proofs.«103720_j9775345566347_1_alg».proof.Proof.LibMatmul2d
import proofs.«103720_j9775345566347_1_alg».proof.Proof.LibRowwise
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen
open scoped BigOperators

/-! ## The zero fills -/

/-- The row-degree accumulator's initial fill is zero everywhere. -/
theorem k0_pay1_apply (j : S2048x1.Idx) : k0_pay1 (F := Ideal) j = 0 := by
  unfold k0_pay1
  simp only [shapeCast_self]
  exact Ideal.ofBits_zero_f32

/-- The width-128 layer's accumulator's initial fill is zero everywhere. -/
theorem k1_pay1_apply (j : S2048x128.Idx) : k1_pay1 (F := Ideal) j = 0 := by
  unfold k1_pay1
  simp only [shapeCast_self]
  exact Ideal.ofBits_zero_f32

/-- The width-256 layer's accumulator's initial fill is zero everywhere. -/
theorem k2_pay1_apply (j : S2048x256.Idx) : k2_pay1 (F := Ideal) j = 0 := by
  unfold k2_pay1
  simp only [shapeCast_self]
  exact Ideal.ofBits_zero_f32

/-! ## The accumulation steps -/

/-- One step of the row-degree kernel: the accumulator at row `r` gains the sum of row `r` of the adjacency block. -/
theorem k0_pay2_apply (s : FVec Ideal S2048x1 .f32) (a : FVec Ideal S2048x2048 .bf16) (r : Fin 2048) :
    k0_pay2 (F := Ideal) s a (ix2 r (0 : Fin 1)) = s (ix2 r (0 : Fin 1)) + ∑ j : Fin 2048, a (ix2 r j) := by
  unfold k0_pay2
  simp only [shapeCast_self]
  rw [addf_apply, Cert.LibRowwise.shapeCast_a_a1_apply]
  exact congrArg (s (ix2 r (0 : Fin 1)) + ·)
    (Cert.LibRowwise.rowSum_apply (extf .f32 a bitsLt_bf16_f32) 0x00000000#32 reduces_S2048x2048_S2048 (.inl rfl) rfl r)

/-- One step of the width-128 layer: the accumulator at `(r, d)` gains row `r` of the adjacency block against
    column `d` of the feature block. -/
theorem k1_pay2_apply (s : FVec Ideal S2048x128 .f32) (a : FVec Ideal S2048x2048 .bf16) (f : FVec Ideal S2048x128 .bf16)
    (r : Fin 2048) (d : Fin 128) :
    k1_pay2 (F := Ideal) s a f (ix2 r d) = s (ix2 r d) + ∑ j : Fin 2048, a (ix2 r j) * f (ix2 j d) := by
  unfold k1_pay2
  simp only [shapeCast_self]
  rw [addf_apply]
  exact congrArg (s (ix2 r d) + ·) (Cert.LibMatmul2d.matmul_plain_apply a f r d)

/-- One step of the width-256 layer: the accumulator at `(r, d)` gains row `r` of the adjacency block against
    column `d` of the feature block. -/
theorem k2_pay2_apply (s : FVec Ideal S2048x256 .f32) (a : FVec Ideal S2048x2048 .bf16) (f : FVec Ideal S2048x256 .bf16)
    (r : Fin 2048) (d : Fin 256) :
    k2_pay2 (F := Ideal) s a f (ix2 r d) = s (ix2 r d) + ∑ j : Fin 2048, a (ix2 r j) * f (ix2 j d) := by
  unfold k2_pay2
  simp only [shapeCast_self]
  rw [addf_apply]
  exact congrArg (s (ix2 r d) + ·) (Cert.LibMatmul2d.matmul_plain_apply a f r d)

/-! ## The closing steps -/

/-- The width-128 layer's output at `(r, c)`: the accumulated row scaled by the row's factor, against column `c` of
    the weights, plus the bias of column `c`, cut off below at zero. -/
theorem k1_pay3_apply (acc : FVec Ideal S2048x128 .f32) (dis : FVec Ideal S2048x1 .f32) (W : FVec Ideal S128x256 .bf16)
    (b : FVec Ideal S1x256 .f32) (r : Fin 2048) (c : Fin 256) :
    k1_pay3 (F := Ideal) acc dis W b (ix2 r c)
      = max (∑ d : Fin 128, (acc (ix2 r d) * dis (ix2 r (0 : Fin 1))) * W (ix2 d c) + b (ix2 (0 : Fin 1) c)) 0 := by
  unfold k1_pay3
  simp only [shapeCast_self]
  rw [maximumf_apply, addf_apply, broadcast_apply, broadcastTo_1b_ab_apply]
  refine (congrArg (fun x => max (x + b (ix2 (0 : Fin 1) c)) _) (Cert.LibMatmul2d.matmul_plain_apply _ W r c)).trans ?_
  refine congrArg₂ max (congrArg (· + b (ix2 (0 : Fin 1) c)) (Finset.sum_congr rfl fun d _ => ?_)) Ideal.ofBits_zero_f32
  rw [truncf_apply, mulf_apply, Cert.LibRowwise.broadcastTo_a1_ab_apply]

/-- The width-256 layer's output at `(r, c)`: the accumulated row scaled by the row's factor, against column `c` of
    the weights, plus the bias of column `c`, cut off below at zero. -/
theorem k2_pay3_apply (acc : FVec Ideal S2048x256 .f32) (dis : FVec Ideal S2048x1 .f32) (W : FVec Ideal S256x256 .bf16)
    (b : FVec Ideal S1x256 .f32) (r : Fin 2048) (c : Fin 256) :
    k2_pay3 (F := Ideal) acc dis W b (ix2 r c)
      = max (∑ d : Fin 256, (acc (ix2 r d) * dis (ix2 r (0 : Fin 1))) * W (ix2 d c) + b (ix2 (0 : Fin 1) c)) 0 := by
  unfold k2_pay3
  simp only [shapeCast_self]
  rw [maximumf_apply, addf_apply, broadcast_apply, broadcastTo_1b_ab_apply]
  refine (congrArg (fun x => max (x + b (ix2 (0 : Fin 1) c)) _) (Cert.LibMatmul2d.matmul_plain_apply _ W r c)).trans ?_
  refine congrArg₂ max (congrArg (· + b (ix2 (0 : Fin 1) c)) (Finset.sum_congr rfl fun d _ => ?_)) Ideal.ofBits_zero_f32
  rw [truncf_apply, mulf_apply, Cert.LibRowwise.broadcastTo_a1_ab_apply]

end Cert.KernelIdeal.Payload

end
-- ==== Proof.LibBlockSum.lean ====
/-
  A finite sum over n·B consecutive indices, taken block by block.

  A contraction over a long axis is often computed in pieces: the axis is cut into n blocks of B entries, each block
  is summed by itself, and the partial sums are added up one after another. In a commutative monoid the order and
  the grouping of a finite sum do not matter, so the partial sums add up to the whole sum. Nothing is asked of the
  entries (no finiteness, no ring laws): the statement holds in any additive commutative monoid, the extended reals
  included.
-/
import Mathlib.Algebra.BigOperators.Fin
import Mathlib.Algebra.BigOperators.Ring.Finset
import Mathlib.Logic.Equiv.Fin.Basic

namespace Cert.LibBlockSum

open scoped BigOperators

variable {β : Type*} [AddCommMonoid β]

/-- The position, among n·B consecutive indices, of entry `r` of block `s`: `s·B + r`. -/
def blockIdx {n B : ℕ} (s : Fin n) (r : Fin B) : Fin (n * B) := finProdFinEquiv (s, r)

theorem blockIdx_val {n B : ℕ} (s : Fin n) (r : Fin B) : (blockIdx s r).val = r.val + B * s.val := rfl

/-- A sum over n·B indices is the sum, over the n blocks, of each block's B entries. -/
theorem sum_eq_sum_blocks (n B : ℕ) (g : Fin (n * B) → β) :
    ∑ k : Fin (n * B), g k = ∑ s : Fin n, ∑ r : Fin B, g (blockIdx s r) := by
  rw [← Equiv.sum_comp finProdFinEquiv g, Fintype.sum_prod_type]
  rfl

/-- The same with the blocks counted by the naturals below n (the form a fold over consecutive steps leaves):
    if `f s` is block `s`'s partial sum for every `s < n`, the partial sums add up to the whole sum. -/
theorem sum_range_blocks (n B : ℕ) (g : Fin (n * B) → β) (f : ℕ → β)
    (hf : ∀ s : Fin n, f s.val = ∑ r : Fin B, g (blockIdx s r)) :
    ∑ s ∈ Finset.range n, f s = ∑ k : Fin (n * B), g k := by
  rw [Finset.sum_range, sum_eq_sum_blocks]
  exact Finset.sum_congr rfl fun s _ => hf s

end Cert.LibBlockSum
-- ==== Proof.Region0Value.lean ====
/-
  Region 0 — the row degrees: the value of the result array, over the contents V the region is entered with.

  Each control case of the body leaves in the accumulator (and, at a block row's last point, in the output block's
  buffer) the body's arithmetic of what it held and of the adjacency window's block; that block is a 2048 × 2048
  window of the adjacency matrix at block row t / 8 and block column t % 8. At the exact instance the accumulator after
  point t therefore holds, at row r, row 2048·(t / 8) + r of the matrix summed over the block columns 0 … t % 8; the
  block written back at a block row's last point holds the full row sums, the written blocks cover the result array,
  and the eight partial sums of a row regroup into the row's sum.
-/
import proofs.«103720_j9775345566347_1_alg».proof.Proof.Region0
import proofs.«103720_j9775345566347_1_alg».proof.Proof.PayloadAtIndex
import proofs.«103720_j9775345566347_1_alg».proof.Proof.LibBlockSum
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable {F : FTy → Type} [FloatOps F]

/-! ## What each case leaves, as the body's arithmetic -/

/-- The offsets of a load or store of a whole two-dimensional buffer are zero. -/
theorem zeroOffsets2 : (![0, 0] : Fin 2 → Nat) = fun _ => 0 := funext fun a => by fin_cases a <;> rfl

/-- A point with k = 0 leaves in the accumulator the block's lane sums added to the zero fill. -/
theorem sout0_A_0_eq (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x2048 .bf16) :
    sout0_A_0 c i arg2 harg2 arg3 harg3 arg4 harg4 hc0 hc1 x0 = k0_pay2 k0_pay1 x0 := by
  unfold sout0_A_0
  rw [View.read_writes_eq_canon _ _ _ (scover0_A_0 c i arg2 harg2 arg3 harg3 arg4 harg4 hc0 hc1 x0)]
  unfold kernelRun0_A
  dsimp only
  try sl_unfold_words
  refine (View.canon_cons_unit_zero (S := S2048x1) zeroOffsets2 _ _ _).trans ?_
  refine congrArg₂ k0_pay2 ?_ ?_
  · exact View.readCov_unit_zero (S := S2048x1) arg4.view zeroOffsets2 _ _
  · rw [View.readAt_eq_ld, harg2.read_unread]
    exact View.ld_unit_zero (S := S2048x2048) zeroOffsets2 _ x0

/-- A point with 0 < k < 7 leaves in the accumulator what it held plus the block's lane sums. -/
theorem sout0_B_0_eq (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x2048 .bf16) (xs0 : Vec F S2048x1 .f32) :
    sout0_B_0 c i arg2 harg2 arg3 harg3 arg4 harg4 hc0 hc1 x0 xs0 = k0_pay2 xs0 x0 := by
  unfold sout0_B_0
  rw [View.read_writes_eq_canon _ _ _ (scover0_B_0 c i arg2 harg2 arg3 harg3 arg4 harg4 hc0 hc1 x0 xs0)]
  unfold kernelRun0_B
  dsimp only
  try sl_unfold_words
  refine (View.canon_cons_unit_zero (S := S2048x1) zeroOffsets2 _ _ _).trans ?_
  refine congrArg₂ k0_pay2 ?_ ?_
  · rw [View.readAt_eq_ld, harg4.read_unread]
    exact View.ld_unit_zero (S := S2048x1) zeroOffsets2 _ xs0
  · rw [View.readAt_eq_ld, harg2.read_unread]
    exact View.ld_unit_zero (S := S2048x2048) zeroOffsets2 _ x0

/-- A point with k = 7 leaves in the accumulator what it held plus the block's lane sums. -/
theorem sout0_C_0_eq (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .bf16) (xs0 : Vec F S2048x1 .f32) :
    sout0_C_0 c i arg2 harg2 arg3 harg3 arg4 harg4 hc0 hc1 x0 xs0 = k0_pay2 xs0 x0 := by
  unfold sout0_C_0
  rw [View.read_writes_eq_canon _ _ _ (scover0_C_0 c i arg2 harg2 arg3 harg3 arg4 harg4 hc0 hc1 x0 xs0)]
  unfold kernelRun0_C
  dsimp only
  try sl_unfold_words
  refine (View.canon_cons_unit_zero (S := S2048x1) zeroOffsets2 _ _ _).trans ?_
  refine congrArg₂ k0_pay2 ?_ ?_
  · rw [View.readAt_eq_ld, harg4.read_unread]
    exact View.ld_unit_zero (S := S2048x1) zeroOffsets2 _ xs0
  · rw [View.readAt_eq_ld, harg2.read_unread]
    exact View.ld_unit_zero (S := S2048x2048) zeroOffsets2 _ x0

/-- A point with k = 7 copies the updated accumulator to the output block's buffer. -/
theorem out0_C_1_eq (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .bf16) (xs0 : Vec F S2048x1 .f32) :
    out0_C_1 c i arg2 harg2 arg3 harg3 arg4 harg4 hc0 hc1 x0 xs0 = k0_pay2 xs0 x0 := by
  unfold out0_C_1
  rw [View.read_writes_eq_canon _ _ _ (cover0_C_1 c i arg2 harg2 arg3 harg3 arg4 harg4 hc0 hc1 x0 xs0)]
  unfold kernelRun0_C
  dsimp only
  try sl_unfold_words
  refine (View.canon_cons_unit_zero (S := S2048x1) zeroOffsets2 _ _ _).trans ?_
  refine (View.readCov_unit_zero (S := S2048x1) arg4.view zeroOffsets2 _ _).trans ?_
  refine congrArg₂ k0_pay2 ?_ ?_
  · rw [View.readAt_eq_ld, harg4.read_unread]
    exact View.ld_unit_zero (S := S2048x1) zeroOffsets2 _ xs0
  · rw [View.readAt_eq_ld, harg2.read_unread]
    exact View.ld_unit_zero (S := S2048x2048) zeroOffsets2 _ x0

/-! ## The adjacency window's block, as entries of the array -/

variable (V : (c : Dev nD) → (b : Ref sig .tc) → Buf (Elt F) ((c : Thread nD τ).loc b))

/-- The printed index maps over the 8 × 8 grid: point t sits at block row t / 8 and block column t % 8 of the
    adjacency matrix, and writes block row t / 8 of the result. -/
theorem index0_facts : ∀ t : Fin cfg0.N, win0_0.index t (0 : Fin 2) = t.val / 8 ∧ win0_0.index t (1 : Fin 2) = t.val % 8
    ∧ win0_1.index t (0 : Fin 2) = t.val / 8 ∧ win0_1.index t (1 : Fin 2) = 0 :=
  (by decide +kernel : ∀ t : Fin grid0.N, _)

/-- Entry (r, j) of the adjacency window's block at point t is entry (2048·(t / 8) + r, 2048·(t % 8) + j) of the
    adjacency matrix as the region finds it. -/
theorem iblk0_0_apply (c : Dev nD) (t : Fin cfg0.N) (r j : Fin 2048) (I J : Fin 16384)
    (hI : I.val = 2048 * (t.val / 8) + r.val) (hJ : J.val = 2048 * (t.val % 8) + j.val) :
    (iblk0 V c 0 t : Vec F S2048x2048 .bf16) (ix2 r j) = (V c main_v35 : S16384x16384.Idx → Elt F .bf16) (ix2 I J) := by
  obtain ⟨e0, e1, -, -⟩ := index0_facts t
  unfold iblk0
  rw [View.read_apply]
  show V c main_v35 _ = V c main_v35 _
  congr 1
  funext a
  apply Fin.ext
  match a with
  | ⟨0, _⟩ => show win0_0.index t 0 * 2048 + 1 * r.val = I.val; rw [e0, hI]; omega
  | ⟨1, _⟩ => show win0_0.index t 1 * 2048 + 1 * j.val = J.val; rw [e1, hJ]; omega

/-! ## The accumulator along a block row, at the exact instance -/

section Exact

variable (V : (c : Dev nD) → (b : Ref sig .tc) → Buf (Elt Ideal) ((c : Thread nD τ).loc b))

/-- The adjacency matrix as the region finds it, as a 16384 × 16384 array of extended reals. -/
abbrev adj0 (c : Dev nD) : S16384x16384.Idx → EReal := V c main_v35

/-- The adjacency window's block at point t, as a 2048 × 2048 array of extended reals. -/
abbrev adjBlock0 (c : Dev nD) (t : Fin cfg0.N) : FVec Ideal S2048x2048 .bf16 := iblk0 V c 0 t

/-- Row I of a 16384 × 16384 matrix over its block column s (columns 2048·s … 2048·s + 2047), summed; zero from the
    ninth block column on. -/
def blockRowSum (A : S16384x16384.Idx → EReal) (I : Fin 16384) (s : ℕ) : EReal :=
  if h : s < 8 then ∑ j : Fin 2048, A (ix2 I (⟨2048 * s + j.val, by have := j.isLt; omega⟩ : Fin 16384)) else 0

/-- The lane sums of the adjacency window's block at point t, at row r: row 2048·(t / 8) + r of the matrix over block
    column t % 8. -/
theorem laneSums0 (c : Dev nD) (t : Fin cfg0.N) (r : Fin 2048) (I : Fin 16384) (hI : I.val = 2048 * (t.val / 8) + r.val) :
    ∑ j : Fin 2048, adjBlock0 V c t (ix2 r j) = blockRowSum (adj0 V c) I (t.val % 8) := by
  have hk : t.val % 8 < 8 := Nat.mod_lt _ (by decide)
  unfold blockRowSum
  rw [dif_pos hk]
  exact Finset.sum_congr rfl fun j _ =>
    iblk0_0_apply V c t r j I ⟨2048 * (t.val % 8) + j.val, by have := j.isLt; omega⟩ hI rfl

/-- A block row's first point restarts the accumulator from the block's lane sums. -/
theorem acc0_first (c : Dev nD) (n : ℕ) (hn : n < cfg0.N) (h0 : n % 8 = 0) :
    acc0 V c n hn = k0_pay2 (F := Ideal) (k0_pay1 (F := Ideal)) (adjBlock0 V c ⟨n, hn⟩) := by
  refine (acc0_A V c ⟨n, hn⟩ h0 (by show ¬ n % 8 = 7; omega)).trans ?_
  exact sout0_A_0_eq (F := Ideal) _ _ _ _ _ _ _ _ _ _ _

/-- Every other point adds the block's lane sums to what the point before left. -/
theorem acc0_next (c : Dev nD) (n : ℕ) (hn : n < cfg0.N) (h0 : ¬ n % 8 = 0) :
    acc0 V c n hn = k0_pay2 (F := Ideal) (acc0 V c (n - 1) (Nat.lt_of_le_of_lt (Nat.sub_le _ _) hn)) (adjBlock0 V c ⟨n, hn⟩) := by
  by_cases h1 : n % 8 = 7
  · refine (acc0_C V c ⟨n, hn⟩ h0 h1).trans ?_
    exact sout0_C_0_eq (F := Ideal) _ _ _ _ _ _ _ _ _ _ _ _
  · refine (acc0_B V c ⟨n, hn⟩ h0 h1).trans ?_
    exact sout0_B_0_eq (F := Ideal) _ _ _ _ _ _ _ _ _ _ _ _

/-- After point n the accumulator holds, at row r, row 2048·(n / 8) + r of the matrix summed over the block columns
    0 … n % 8: the sum restarts at each block row's first point and grows by one block column per point. -/
theorem acc0_apply (c : Dev nD) (n : ℕ) (hn : n < cfg0.N) (r : Fin 2048) (I : Fin 16384) (hI : I.val = 2048 * (n / 8) + r.val) :
    acc0 V c n hn (ix2 r (0 : Fin 1)) = ∑ s ∈ Finset.range (n % 8 + 1), blockRowSum (adj0 V c) I s := by
  induction n using Nat.strong_induction_on generalizing I with
  | _ n ih =>
    have hN : n < 64 := lt_of_lt_of_eq hn N_0
    by_cases h0 : n % 8 = 0
    · rw [acc0_first V c n hn h0]
      refine (Cert.KernelIdeal.Payload.k0_pay2_apply _ _ r).trans ?_
      rw [Cert.KernelIdeal.Payload.k0_pay1_apply, zero_add, laneSums0 V c ⟨n, hn⟩ r I hI]
      show blockRowSum (adj0 V c) I (n % 8) = _
      rw [h0, Finset.sum_range_one]
    · rw [acc0_next V c n hn h0]
      refine (Cert.KernelIdeal.Payload.k0_pay2_apply _ _ r).trans ?_
      rw [ih (n - 1) (by omega) _ I (by omega), laneSums0 V c ⟨n, hn⟩ r I hI]
      show _ + blockRowSum (adj0 V c) I (n % 8) = _
      rw [show (n - 1) % 8 + 1 = n % 8 from by omega, Finset.sum_range_succ]

/-! ## The result array -/

/-- The eight block columns' partial sums of a row add up to the row's sum. -/
theorem sum_blockRowSum (A : S16384x16384.Idx → EReal) (I : Fin 16384) :
    ∑ s ∈ Finset.range 8, blockRowSum A I s = ∑ J : Fin 16384, A (ix2 I J) := by
  refine Cert.LibBlockSum.sum_range_blocks 8 2048 (fun k : Fin (8 * 2048) => A (ix2 I (k : Fin 16384))) (blockRowSum A I) fun s => ?_
  unfold blockRowSum
  rw [dif_pos s.isLt]
  refine Finset.sum_congr rfl fun j _ => congrArg (fun J : Fin 16384 => A (ix2 I J)) (Fin.ext ?_)
  show 2048 * s.val + j.val = (Cert.LibBlockSum.blockIdx s j).val
  rw [Cert.LibBlockSum.blockIdx_val]; omega

/-- Every row of the adjacency matrix summed, as a column: what the result array ends holding. -/
def rowSums0 (c : Dev nD) : S16384x1.Idx → EReal :=
  fun i => ∑ J : Fin 16384, adj0 V c (ix2 (i 0 : Fin 16384) J)

theorem rowSums0_apply (c : Dev nD) (i : S16384x1.Idx) :
    rowSums0 V c i = ∑ J : Fin 16384, adj0 V c (ix2 (i 0 : Fin 16384) J) := rfl

/-- At a block row's last point the output block's buffer holds what the accumulator holds. -/
theorem out0_eq_acc0 (c : Dev nD) (t : Fin cfg0.N) (h1 : t.val % 8 = 7) : out0 V c t = acc0 V c t.val t.isLt := by
  have h0 : ¬ t.val % 8 = 0 := by omega
  rw [out0_C V c t h0 h1, acc0_C V c t h0 h1, out0_C_1_eq, sout0_C_0_eq]

/-- What a block row's last point writes back is that block row of the row sums. -/
theorem flushed0_1_eq (c : Dev nD) (t : Fin cfg0.N) (hf : (cfg0.win 1).flush t = true) :
    (dat0 V c).flushed 1 t = ((cfg0.win 1).blk t).view.read (Elt Ideal) (rowSums0 V c) := by
  have h1 : t.val % 8 = 7 := (flush0_1 t).mp hf
  have hN : t.val < 64 := lt_of_lt_of_eq t.isLt N_0
  obtain ⟨-, -, e2, -⟩ := index0_facts t
  funext y
  have hy : (cfg0.win 1).xinj (grid0.coords t) y = ix2 (⟨(y 0).val, (y 0).isLt⟩ : Fin 2048) (0 : Fin 1) := by
    funext a
    apply Fin.ext
    match a with
    | ⟨0, _⟩ => rfl
    | ⟨1, _⟩ => show (y 1).val = 0; have : (y 1).val < 1 := (y 1).isLt; omega
  have hI : ((((cfg0.win 1).blk t).view.emb y) 0 : Fin 16384).val = 2048 * (t.val / 8) + (y 0).val := by
    show win0_1.index t 0 * 2048 + 1 * (y 0).val = _
    rw [e2]; omega
  show (cfg0.win 1).cut (grid0.coords t) ((dat0 V c).after 1 t) y = _
  rw [after0_1, out0_eq_acc0 V c t h1, View.read_apply]
  refine Eq.trans (congrArg (acc0 V c t.val t.isLt) hy) ?_
  refine (acc0_apply V c t.val t.isLt _ ((((cfg0.win 1).blk t).view.emb y) 0) hI).trans ?_
  have h8 : t.val % 8 + 1 = 8 := by omega
  rw [h8]
  generalize hz : rowSums0 V c (((cfg0.win 1).blk t).view.emb y) = z
  show _ = z
  rw [← hz, rowSums0_apply]
  exact sum_blockRowSum (adj0 V c) _

/-- Every row of the result lies in the block some block row's last point writes back. -/
theorem cover0_1 (i : S16384x1.Idx) : ∃ t : Fin cfg0.N, (cfg0.win 1).flush t = true ∧ i ∈ ((cfg0.win 1).blk t).view.set := by
  have hi0 : (i 0).val < 16384 := (i 0).isLt
  have hi1 : (i 1).val < 1 := (i 1).isLt
  have ht : 8 * ((i 0).val / 2048) + 7 < cfg0.N := by rw [show cfg0.N = 64 from N_0]; omega
  obtain ⟨-, -, e2, e3⟩ := index0_facts ⟨8 * ((i 0).val / 2048) + 7, ht⟩
  refine ⟨⟨8 * ((i 0).val / 2048) + 7, ht⟩, (flush0_1 _).mpr (by show (8 * ((i 0).val / 2048) + 7) % 8 = 7; omega), ?_⟩
  show i ∈ ((View.whole main_v36).slice (win0_1.rect ⟨8 * ((i 0).val / 2048) + 7, ht⟩)).set
  rw [View.set_slice_whole, Rect.mem_set_unit]
  intro a
  match a with
  | ⟨0, _⟩ =>
    show win0_1.index ⟨8 * ((i 0).val / 2048) + 7, ht⟩ 0 * 2048 ≤ (i 0).val ∧ (i 0).val < win0_1.index ⟨8 * ((i 0).val / 2048) + 7, ht⟩ 0 * 2048 + 2048
    rw [e2]
    show (8 * ((i 0).val / 2048) + 7) / 8 * 2048 ≤ (i 0).val ∧ (i 0).val < (8 * ((i 0).val / 2048) + 7) / 8 * 2048 + 2048
    omega
  | ⟨1, _⟩ =>
    show win0_1.index ⟨8 * ((i 0).val / 2048) + 7, ht⟩ 1 * 1 ≤ (i 1).val ∧ (i 1).val < win0_1.index ⟨8 * ((i 0).val / 2048) + 7, ht⟩ 1 * 1 + 1
    rw [e3]
    omega

/-- The result array ends holding the row sums of the adjacency matrix. -/
theorem final0_1 (c : Dev nD) : (dat0 V c).arrAt 1 cfg0.N = rowSums0 V c :=
  (dat0 V c).arrAt_eq_of_cover 1 (rowSums0 V c) (flushed0_1_eq V c) fun i => cover0_1 i

/-- THE RESULT of region 0: entry I of the result array is row I of the adjacency matrix, as the region finds it, summed. -/
theorem region0_value (c : Dev nD) (I : Fin 16384) :
    (dat0 V c).arrAt 1 cfg0.N (ix2 I (0 : Fin 1)) = ∑ J : Fin 16384, adj0 V c (ix2 I J) := by
  rw [final0_1]
  rfl

end Exact

end Cert.KernelIdeal.Gen

end
-- ==== Proof.Region1Value.lean ====
/-
  Region 1 — the first graph-convolution layer: the value of the result array, over the contents V the region is
  entered with.

  The region's grid is 8 × 8; point t sits at block row t / 8 and block column t % 8. Its windows are blocks of the
  arrays the region finds: a 2048 × 2048 block of the adjacency matrix, the 2048 rows of the scaled features of the
  block column, the 2048 row factors of the block row, the whole weights and the whole bias row. The accumulator after
  point t holds, at (r, d), row 2048·(t / 8) + r of the adjacency matrix against column d of the features, summed
  over the block columns 0 … t % 8. At a block row's last point the body scales the accumulated rows by the row
  factors, applies the weights, adds the bias and cuts off below at zero, and that block is written back; the written
  blocks cover the result array, and the eight partial sums of an entry regroup into the sum over all 16384 columns.
-/
import proofs.«103720_j9775345566347_1_alg».proof.Proof.Region1
import proofs.«103720_j9775345566347_1_alg».proof.Proof.PayloadAtIndex
import proofs.«103720_j9775345566347_1_alg».proof.Proof.LibBlockSum
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable {F : FTy → Type} [FloatOps F]

/-! ## The windows' blocks, as entries of the arrays -/

variable (V : (c : Dev nD) → (b : Ref sig .tc) → Buf (Elt F) ((c : Thread nD τ).loc b))

/-- The printed index maps over the 8 × 8 grid: the adjacency window sits at block (t / 8, t % 8), the feature window
    at block row t % 8, the row-factor window and the output window at block row t / 8, the weights and the bias row
    at their one block. -/
theorem index1_0_facts : ∀ t : Fin cfg1.N, win1_0.index t (0 : Fin 2) = t.val / 8 ∧ win1_0.index t (1 : Fin 2) = t.val % 8 :=
  (by decide +kernel : ∀ t : Fin grid1.N, _)
theorem index1_1_facts : ∀ t : Fin cfg1.N, win1_1.index t (0 : Fin 2) = t.val % 8 ∧ win1_1.index t (1 : Fin 2) = 0 :=
  (by decide +kernel : ∀ t : Fin grid1.N, _)
theorem index1_2_facts : ∀ t : Fin cfg1.N, win1_2.index t (0 : Fin 2) = t.val / 8 ∧ win1_2.index t (1 : Fin 2) = 0 :=
  (by decide +kernel : ∀ t : Fin grid1.N, _)
theorem index1_3_facts : ∀ t : Fin cfg1.N, win1_3.index t (0 : Fin 2) = 0 ∧ win1_3.index t (1 : Fin 2) = 0 :=
  (by decide +kernel : ∀ t : Fin grid1.N, _)
theorem index1_4_facts : ∀ t : Fin cfg1.N, win1_4.index t (0 : Fin 2) = 0 ∧ win1_4.index t (1 : Fin 2) = 0 :=
  (by decide +kernel : ∀ t : Fin grid1.N, _)
theorem index1_5_facts : ∀ t : Fin cfg1.N, win1_5.index t (0 : Fin 2) = t.val / 8 ∧ win1_5.index t (1 : Fin 2) = 0 :=
  (by decide +kernel : ∀ t : Fin grid1.N, _)

/-- Entry (r, j) of the adjacency window's block at point t is entry (2048·(t / 8) + r, 2048·(t % 8) + j) of the
    adjacency matrix as the region finds it. -/
theorem iblk1_0_apply (c : Dev nD) (t : Fin cfg1.N) (r j : Fin 2048) (I J : Fin 16384)
    (hI : I.val = 2048 * (t.val / 8) + r.val) (hJ : J.val = 2048 * (t.val % 8) + j.val) :
    (iblk1 V c 0 t : Vec F S2048x2048 .bf16) (ix2 r j) = (V c main_v35 : S16384x16384.Idx → Elt F .bf16) (ix2 I J) := by
  obtain ⟨e0, e1⟩ := index1_0_facts t
  unfold iblk1
  rw [View.read_apply]
  show V c main_v35 _ = V c main_v35 _
  congr 1
  funext a
  apply Fin.ext
  match a with
  | ⟨0, _⟩ => show win1_0.index t 0 * 2048 + 1 * r.val = I.val; rw [e0, hI]; omega
  | ⟨1, _⟩ => show win1_0.index t 1 * 2048 + 1 * j.val = J.val; rw [e1, hJ]; omega

/-- Entry (j, d) of the feature window's block at point t is entry (2048·(t % 8) + j, d) of the scaled features. -/
theorem iblk1_1_apply (c : Dev nD) (t : Fin cfg1.N) (j : Fin 2048) (d : Fin 128) (J : Fin 16384)
    (hJ : J.val = 2048 * (t.val % 8) + j.val) :
    (iblk1 V c 1 t : Vec F S2048x128 .bf16) (ix2 j d) = (V c main_v42 : S16384x128.Idx → Elt F .bf16) (ix2 J d) := by
  obtain ⟨e0, e1⟩ := index1_1_facts t
  unfold iblk1
  rw [View.read_apply]
  show V c main_v42 _ = V c main_v42 _
  congr 1
  funext a
  apply Fin.ext
  match a with
  | ⟨0, _⟩ => show win1_1.index t 0 * 2048 + 1 * j.val = J.val; rw [e0, hJ]; omega
  | ⟨1, _⟩ => show win1_1.index t 1 * 128 + 1 * d.val = d.val; rw [e1]; omega

/-- Entry (r, 0) of the row-factor window's block at point t is entry (2048·(t / 8) + r, 0) of the row factors. -/
theorem iblk1_2_apply (c : Dev nD) (t : Fin cfg1.N) (r : Fin 2048) (I : Fin 16384)
    (hI : I.val = 2048 * (t.val / 8) + r.val) :
    (iblk1 V c 2 t : Vec F S2048x1 .f32) (ix2 r (0 : Fin 1)) = (V c main_v39 : S16384x1.Idx → Elt F .f32) (ix2 I (0 : Fin 1)) := by
  obtain ⟨e0, e1⟩ := index1_2_facts t
  unfold iblk1
  rw [View.read_apply]
  show V c main_v39 _ = V c main_v39 _
  congr 1
  funext a
  apply Fin.ext
  match a with
  | ⟨0, _⟩ => show win1_2.index t 0 * 2048 + 1 * r.val = I.val; rw [e0, hI]; omega
  | ⟨1, _⟩ => show win1_2.index t 1 * 1 + 1 * 0 = 0; rw [e1]

/-- The weights window's block is the whole weights at every point. -/
theorem iblk1_3_apply (c : Dev nD) (t : Fin cfg1.N) (d : Fin 128) (q : Fin 256) :
    (iblk1 V c 3 t : Vec F S128x256 .bf16) (ix2 d q) = (V c main_v43 : S128x256.Idx → Elt F .bf16) (ix2 d q) := by
  obtain ⟨e0, e1⟩ := index1_3_facts t
  unfold iblk1
  rw [View.read_apply]
  show V c main_v43 _ = V c main_v43 _
  congr 1
  funext a
  apply Fin.ext
  match a with
  | ⟨0, _⟩ => show win1_3.index t 0 * 128 + 1 * d.val = d.val; rw [e0]; omega
  | ⟨1, _⟩ => show win1_3.index t 1 * 256 + 1 * q.val = q.val; rw [e1]; omega

/-- The bias window's block is the whole bias row at every point. -/
theorem iblk1_4_apply (c : Dev nD) (t : Fin cfg1.N) (q : Fin 256) :
    (iblk1 V c 4 t : Vec F S1x256 .f32) (ix2 (0 : Fin 1) q) = (V c main_v44 : S1x256.Idx → Elt F .f32) (ix2 (0 : Fin 1) q) := by
  obtain ⟨e0, e1⟩ := index1_4_facts t
  unfold iblk1
  rw [View.read_apply]
  show V c main_v44 _ = V c main_v44 _
  congr 1
  funext a
  apply Fin.ext
  match a with
  | ⟨0, _⟩ => show win1_4.index t 0 * 1 + 1 * 0 = 0; rw [e0]
  | ⟨1, _⟩ => show win1_4.index t 1 * 256 + 1 * q.val = q.val; rw [e1]; omega

/-! ## The accumulator along a block row, at the exact instance -/

/-- Row I of a 16384 × 16384 matrix against column d of a 16384 × K matrix, over block column s of the first (columns
    2048·s … 2048·s + 2047); zero from the ninth block column on. -/
def blockDot {K : ℕ} (A : S16384x16384.Idx → EReal) (X : (⟨2, ![16384, K]⟩ : Shape).Idx → EReal) (I : Fin 16384)
    (d : Fin K) (s : ℕ) : EReal :=
  if h : s < 8 then
    ∑ j : Fin 2048, A (ix2 I (⟨2048 * s + j.val, by have := j.isLt; omega⟩ : Fin 16384))
      * X (ix2 (⟨2048 * s + j.val, by have := j.isLt; omega⟩ : Fin 16384) d)
  else 0

/-- The eight block columns' partial sums of an entry add up to the sum over all 16384 columns. -/
theorem sum_blockDot {K : ℕ} (A : S16384x16384.Idx → EReal) (X : (⟨2, ![16384, K]⟩ : Shape).Idx → EReal)
    (I : Fin 16384) (d : Fin K) :
    ∑ s ∈ Finset.range 8, blockDot A X I d s = ∑ J : Fin 16384, A (ix2 I J) * X (ix2 J d) := by
  refine Cert.LibBlockSum.sum_range_blocks 8 2048
    (fun k : Fin (8 * 2048) => A (ix2 I (k : Fin 16384)) * X (ix2 (k : Fin 16384) d)) (blockDot A X I d) fun s => ?_
  unfold blockDot
  rw [dif_pos s.isLt]
  refine Finset.sum_congr rfl fun j _ => ?_
  have e : (⟨2048 * s.val + j.val, by have := j.isLt; have := s.isLt; omega⟩ : Fin 16384)
      = (Cert.LibBlockSum.blockIdx s j : Fin 16384) :=
    Fin.ext (by show 2048 * s.val + j.val = (Cert.LibBlockSum.blockIdx s j).val
                rw [Cert.LibBlockSum.blockIdx_val]; omega)
  rw [e]

section Exact

variable (V : (c : Dev nD) → (b : Ref sig .tc) → Buf (Elt Ideal) ((c : Thread nD τ).loc b))

/-- The arrays the region finds, as arrays of extended reals: the adjacency matrix, the scaled features, the row
    factors, the weights and the bias row. -/
abbrev adj1 (c : Dev nD) : S16384x16384.Idx → EReal := V c main_v35
abbrev feat1 (c : Dev nD) : S16384x128.Idx → EReal := V c main_v42
abbrev dis1 (c : Dev nD) : S16384x1.Idx → EReal := V c main_v39
abbrev w1 (c : Dev nD) : S128x256.Idx → EReal := V c main_v43
abbrev bias1 (c : Dev nD) : S1x256.Idx → EReal := V c main_v44

/-- The adjacency window's block and the feature window's block at point t, as arrays of extended reals. -/
abbrev adjBlock1 (c : Dev nD) (t : Fin cfg1.N) : FVec Ideal S2048x2048 .bf16 := iblk1 V c 0 t
abbrev featBlock1 (c : Dev nD) (t : Fin cfg1.N) : FVec Ideal S2048x128 .bf16 := iblk1 V c 1 t

/-- The product of the adjacency window's block and the feature window's block at point t, at (r, d): row
    2048·(t / 8) + r of the matrix against column d of the features over block column t % 8. -/
theorem laneDot1 (c : Dev nD) (t : Fin cfg1.N) (r : Fin 2048) (d : Fin 128) (I : Fin 16384)
    (hI : I.val = 2048 * (t.val / 8) + r.val) :
    ∑ j : Fin 2048, adjBlock1 V c t (ix2 r j) * featBlock1 V c t (ix2 j d)
      = blockDot (adj1 V c) (feat1 V c) I d (t.val % 8) := by
  have hk : t.val % 8 < 8 := Nat.mod_lt _ (by decide)
  unfold blockDot
  rw [dif_pos hk]
  exact Finset.sum_congr rfl fun j _ => congrArg₂ (· * ·)
    (iblk1_0_apply V c t r j I ⟨2048 * (t.val % 8) + j.val, by have := j.isLt; omega⟩ hI rfl)
    (iblk1_1_apply V c t j d ⟨2048 * (t.val % 8) + j.val, by have := j.isLt; omega⟩ rfl)

/-- After point n the accumulator holds, at (r, d), row 2048·(n / 8) + r of the matrix against column d of the
    features, summed over the block columns 0 … n % 8: the sum restarts at each block row's first point and grows by
    one block column per point. -/
theorem acc1_apply (c : Dev nD) (n : ℕ) (hn : n < cfg1.N) (r : Fin 2048) (d : Fin 128) (I : Fin 16384)
    (hI : I.val = 2048 * (n / 8) + r.val) :
    acc1 V c n hn (ix2 r d) = ∑ s ∈ Finset.range (n % 8 + 1), blockDot (adj1 V c) (feat1 V c) I d s := by
  induction n using Nat.strong_induction_on generalizing I with
  | _ n ih =>
    have hN : n < 64 := lt_of_lt_of_eq hn N_1
    by_cases h0 : n % 8 = 0
    · rw [acc1_first V c n hn h0]
      refine (Cert.KernelIdeal.Payload.k1_pay2_apply _ _ _ r d).trans ?_
      rw [Cert.KernelIdeal.Payload.k1_pay1_apply, zero_add, laneDot1 V c ⟨n, hn⟩ r d I hI]
      show blockDot (adj1 V c) (feat1 V c) I d (n % 8) = _
      rw [h0, Finset.sum_range_one]
    · rw [acc1_next V c n hn h0]
      refine (Cert.KernelIdeal.Payload.k1_pay2_apply _ _ _ r d).trans ?_
      rw [ih (n - 1) (by omega) _ I (by omega), laneDot1 V c ⟨n, hn⟩ r d I hI]
      show _ + blockDot (adj1 V c) (feat1 V c) I d (n % 8) = _
      rw [show (n - 1) % 8 + 1 = n % 8 from by omega, Finset.sum_range_succ]

/-! ## The result array -/

/-- Entry (I, q) of the layer's output: row I of the adjacency matrix against the scaled features, scaled by row I's
    factor, against column q of the weights, plus the bias of column q, cut off below at zero. -/
def layerEntry1 (c : Dev nD) (I : Fin 16384) (q : Fin 256) : EReal :=
  max ((∑ d : Fin 128, ((∑ J : Fin 16384, adj1 V c (ix2 I J) * feat1 V c (ix2 J d)) * dis1 V c (ix2 I (0 : Fin 1)))
      * w1 V c (ix2 d q)) + bias1 V c (ix2 (0 : Fin 1) q)) 0

/-- The layer's output as an array: what the result array ends holding. -/
def layerOut1 (c : Dev nD) : S16384x256.Idx → EReal :=
  fun i => layerEntry1 V c (i 0 : Fin 16384) (i 1 : Fin 256)

/-- What a block row's last point leaves in the output block's buffer, at (r, q), is entry (2048·(t / 8) + r, q) of the
    layer's output. -/
theorem out1_entry (c : Dev nD) (t : Fin cfg1.N) (h7 : t.val % 8 = 7) (r : Fin 2048) (q : Fin 256) (I : Fin 16384)
    (hI : I.val = 2048 * (t.val / 8) + r.val) :
    k1_pay3 (F := Ideal) (acc1 V c t.val t.isLt) (iblk1 V c 2 t) (iblk1 V c 3 t) (iblk1 V c 4 t) (ix2 r q)
      = layerEntry1 V c I q := by
  refine (Cert.KernelIdeal.Payload.k1_pay3_apply _ _ _ _ r q).trans ?_
  unfold layerEntry1
  have h8 : t.val % 8 + 1 = 8 := by omega
  refine congrArg₂ max (congrArg₂ (· + ·) (Finset.sum_congr rfl fun d _ => ?_) (iblk1_4_apply V c t q)) rfl
  rw [acc1_apply V c t.val t.isLt r d I hI, h8, sum_blockDot]
  exact congrArg₂ (· * ·) (congrArg₂ (· * ·) rfl (iblk1_2_apply V c t r I hI)) (iblk1_3_apply V c t d q)

/-- What a block row's last point writes back is that block row of the layer's output. -/
theorem flushed1_5_eq (c : Dev nD) (t : Fin cfg1.N) (hf : (cfg1.win 5).flush t = true) :
    (dat1 V c).flushed 5 t = ((cfg1.win 5).blk t).view.read (Elt Ideal) (layerOut1 V c) := by
  have h7 : t.val % 8 = 7 := (flush1_5 t).mp hf
  obtain ⟨e0, e1⟩ := index1_5_facts t
  funext y
  have hy : (cfg1.win 5).xinj (grid1.coords t) y
      = ix2 (⟨(y 0).val, (y 0).isLt⟩ : Fin 2048) (⟨(y 1).val, (y 1).isLt⟩ : Fin 256) := by
    funext a
    apply Fin.ext
    match a with
    | ⟨0, _⟩ => rfl
    | ⟨1, _⟩ => rfl
  have hI : ((((cfg1.win 5).blk t).view.emb y) 0 : Fin 16384).val = 2048 * (t.val / 8) + (y 0).val := by
    show win1_5.index t 0 * 2048 + 1 * (y 0).val = _
    rw [e0]; omega
  have hQ : ((((cfg1.win 5).blk t).view.emb y) 1 : Fin 256).val = (y 1).val := by
    show win1_5.index t 1 * 256 + 1 * (y 1).val = _
    rw [e1]; omega
  show (cfg1.win 5).cut (grid1.coords t) ((dat1 V c).after 5 t) y = _
  rw [after1_5, View.read_apply]
  show k1_pay3 (F := Ideal) (acc1 V c t.val t.isLt) (iblk1 V c 2 t) (iblk1 V c 3 t) (iblk1 V c 4 t)
      ((cfg1.win 5).xinj (grid1.coords t) y)
    = layerEntry1 V c ((((cfg1.win 5).blk t).view.emb y) 0 : Fin 16384) ((((cfg1.win 5).blk t).view.emb y) 1 : Fin 256)
  rw [hy]
  refine (out1_entry V c t h7 _ _ _ hI).trans ?_
  exact congrArg (layerEntry1 V c _) (Fin.ext hQ.symm)

/-- Every entry of the result lies in the block some block row's last point writes back. -/
theorem cover1_5 (i : S16384x256.Idx) : ∃ t : Fin cfg1.N, (cfg1.win 5).flush t = true ∧ i ∈ ((cfg1.win 5).blk t).view.set := by
  have hi0 : (i 0).val < 16384 := (i 0).isLt
  have hi1 : (i 1).val < 256 := (i 1).isLt
  have ht : 8 * ((i 0).val / 2048) + 7 < cfg1.N := by rw [show cfg1.N = 64 from N_1]; omega
  obtain ⟨e0, e1⟩ := index1_5_facts ⟨8 * ((i 0).val / 2048) + 7, ht⟩
  refine ⟨⟨8 * ((i 0).val / 2048) + 7, ht⟩, (flush1_5 _).mpr (by show (8 * ((i 0).val / 2048) + 7) % 8 = 7; omega), ?_⟩
  show i ∈ ((View.whole main_v45).slice (win1_5.rect ⟨8 * ((i 0).val / 2048) + 7, ht⟩)).set
  rw [View.set_slice_whole, Rect.mem_set_unit]
  intro a
  match a with
  | ⟨0, _⟩ =>
    show win1_5.index ⟨8 * ((i 0).val / 2048) + 7, ht⟩ 0 * 2048 ≤ (i 0).val ∧ (i 0).val < win1_5.index ⟨8 * ((i 0).val / 2048) + 7, ht⟩ 0 * 2048 + 2048
    rw [e0]
    show (8 * ((i 0).val / 2048) + 7) / 8 * 2048 ≤ (i 0).val ∧ (i 0).val < (8 * ((i 0).val / 2048) + 7) / 8 * 2048 + 2048
    omega
  | ⟨1, _⟩ =>
    show win1_5.index ⟨8 * ((i 0).val / 2048) + 7, ht⟩ 1 * 256 ≤ (i 1).val ∧ (i 1).val < win1_5.index ⟨8 * ((i 0).val / 2048) + 7, ht⟩ 1 * 256 + 256
    rw [e1]
    omega

/-- The result array ends holding the layer's output. -/
theorem final1_5 (c : Dev nD) : (dat1 V c).arrAt 5 cfg1.N = layerOut1 V c :=
  (dat1 V c).arrAt_eq_of_cover 5 (layerOut1 V c) (flushed1_5_eq V c) fun i => cover1_5 i

/-- THE RESULT of region 1: entry (I, q) of the result array, over the arrays as the region finds them. -/
theorem region1_value (c : Dev nD) (I : Fin 16384) (q : Fin 256) :
    (dat1 V c).arrAt 5 cfg1.N (ix2 I q)
      = max ((∑ d : Fin 128, ((∑ J : Fin 16384, adj1 V c (ix2 I J) * feat1 V c (ix2 J d)) * dis1 V c (ix2 I (0 : Fin 1)))
            * w1 V c (ix2 d q)) + bias1 V c (ix2 (0 : Fin 1) q)) 0 := by
  rw [final1_5]
  rfl

end Exact

end Cert.KernelIdeal.Gen

end
-- ==== Proof.Region2Value.lean ====
/-
  Region 2 — the second graph-convolution layer (feature width 256): the value of the result array, over the contents
  V the region is entered with.

  Each window's block at a grid point is a window of its array at the block indices the printed index maps give. At the
  exact instance the accumulator after point t holds, at (r, d), row 2048·(t / 8) + r of the adjacency matrix against
  column d of the feature matrix over the blocks 0 … t % 8 of the contraction index; at a block row's last point the
  block written back is the accumulated product scaled by the row factors, multiplied by the weights, shifted by the
  bias row and cut off below at zero; the written blocks cover the result array, and the eight partial products
  regroup into the whole product.
-/
import proofs.«103720_j9775345566347_1_alg».proof.Proof.Region2
import proofs.«103720_j9775345566347_1_alg».proof.Proof.PayloadAtIndex
import proofs.«103720_j9775345566347_1_alg».proof.Proof.LibBlockSum
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable {F : FTy → Type} [FloatOps F]

/-! ## The windows' blocks, as entries of their arrays -/

variable (V : (c : Dev nD) → (b : Ref sig .tc) → Buf (Elt F) ((c : Thread nD τ).loc b))

/-- The printed index maps over the 8 × 8 grid: point t reads the adjacency block at block row t / 8 and block column
    t % 8, the feature block at block row t % 8, the row factors' block at block row t / 8, the whole weights and bias,
    and writes block row t / 8 of the result. -/
theorem index2_facts : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val / 8 ∧ win2_5.index t (1 : Fin 2) = 0 :=
  (by decide +kernel : ∀ t : Fin grid2.N, _)

/-- Entry (r, j) of the adjacency window's block at point t is entry (2048·(t / 8) + r, 2048·(t % 8) + j) of the
    adjacency matrix as the region finds it. -/
theorem iblk2_0_apply (c : Dev nD) (t : Fin cfg2.N) (r j : Fin 2048) (I J : Fin 16384)
    (hI : I.val = 2048 * (t.val / 8) + r.val) (hJ : J.val = 2048 * (t.val % 8) + j.val) :
    (iblk2 V c 0 t : Vec F S2048x2048 .bf16) (ix2 r j) = (V c main_v35 : S16384x16384.Idx → Elt F .bf16) (ix2 I J) := by
  obtain ⟨e0, e1, -⟩ := index2_facts t
  unfold iblk2
  rw [View.read_apply]
  show V c main_v35 _ = V c main_v35 _
  congr 1
  funext a
  apply Fin.ext
  match a with
  | ⟨0, _⟩ => show win2_0.index t 0 * 2048 + 1 * r.val = I.val; rw [e0, hI]; omega
  | ⟨1, _⟩ => show win2_0.index t 1 * 2048 + 1 * j.val = J.val; rw [e1, hJ]; omega

/-- Entry (j, d) of the feature window's block at point t is entry (2048·(t % 8) + j, d) of the feature matrix. -/
theorem iblk2_1_apply (c : Dev nD) (t : Fin cfg2.N) (j : Fin 2048) (d : Fin 256) (J : Fin 16384)
    (hJ : J.val = 2048 * (t.val % 8) + j.val) :
    (iblk2 V c 1 t : Vec F S2048x256 .bf16) (ix2 j d) = (V c main_v48 : S16384x256.Idx → Elt F .bf16) (ix2 J d) := by
  obtain ⟨-, -, e0, e1, -⟩ := index2_facts t
  unfold iblk2
  rw [View.read_apply]
  show V c main_v48 _ = V c main_v48 _
  congr 1
  funext a
  apply Fin.ext
  match a with
  | ⟨0, _⟩ => show win2_1.index t 0 * 2048 + 1 * j.val = J.val; rw [e0, hJ]; omega
  | ⟨1, _⟩ => show win2_1.index t 1 * 256 + 1 * d.val = d.val; rw [e1]; omega

/-- Entry (r, 0) of the row factors' block at point t is entry (2048·(t / 8) + r, 0) of the row factors. -/
theorem iblk2_2_apply (c : Dev nD) (t : Fin cfg2.N) (r : Fin 2048) (I : Fin 16384)
    (hI : I.val = 2048 * (t.val / 8) + r.val) :
    (iblk2 V c 2 t : Vec F S2048x1 .f32) (ix2 r (0 : Fin 1)) = (V c main_v39 : S16384x1.Idx → Elt F .f32) (ix2 I (0 : Fin 1)) := by
  obtain ⟨-, -, -, -, e0, e1, -⟩ := index2_facts t
  unfold iblk2
  rw [View.read_apply]
  show V c main_v39 _ = V c main_v39 _
  congr 1
  funext a
  apply Fin.ext
  match a with
  | ⟨0, _⟩ => show win2_2.index t 0 * 2048 + 1 * r.val = I.val; rw [e0, hI]; omega
  | ⟨1, _⟩ => show win2_2.index t 1 * 1 + 1 * 0 = 0; rw [e1]

/-- The weights' window is the whole weight matrix at every point. -/
theorem iblk2_3_apply (c : Dev nD) (t : Fin cfg2.N) (d q : Fin 256) :
    (iblk2 V c 3 t : Vec F S256x256 .bf16) (ix2 d q) = (V c main_v49 : S256x256.Idx → Elt F .bf16) (ix2 d q) := by
  obtain ⟨-, -, -, -, -, -, e0, e1, -⟩ := index2_facts t
  unfold iblk2
  rw [View.read_apply]
  show V c main_v49 _ = V c main_v49 _
  congr 1
  funext a
  apply Fin.ext
  match a with
  | ⟨0, _⟩ => show win2_3.index t 0 * 256 + 1 * d.val = d.val; rw [e0]; omega
  | ⟨1, _⟩ => show win2_3.index t 1 * 256 + 1 * q.val = q.val; rw [e1]; omega

/-- The bias window is the whole bias row at every point. -/
theorem iblk2_4_apply (c : Dev nD) (t : Fin cfg2.N) (q : Fin 256) :
    (iblk2 V c 4 t : Vec F S1x256 .f32) (ix2 (0 : Fin 1) q) = (V c main_v50 : S1x256.Idx → Elt F .f32) (ix2 (0 : Fin 1) q) := by
  obtain ⟨-, -, -, -, -, -, -, -, e0, e1, -⟩ := index2_facts t
  unfold iblk2
  rw [View.read_apply]
  show V c main_v50 _ = V c main_v50 _
  congr 1
  funext a
  apply Fin.ext
  match a with
  | ⟨0, _⟩ => show win2_4.index t 0 * 1 + 1 * 0 = 0; rw [e0]
  | ⟨1, _⟩ => show win2_4.index t 1 * 256 + 1 * q.val = q.val; rw [e1]; omega

/-! ## The accumulator along a block row, at the exact instance -/

section Exact

variable (V : (c : Dev nD) → (b : Ref sig .tc) → Buf (Elt Ideal) ((c : Thread nD τ).loc b))

/-- The arrays as the region finds them, as arrays of extended reals: the adjacency matrix, -/
abbrev adj2 (c : Dev nD) : S16384x16384.Idx → EReal := V c main_v35
/-- the feature matrix, -/
abbrev feat2 (c : Dev nD) : S16384x256.Idx → EReal := V c main_v48
/-- the row factors, -/
abbrev dis2 (c : Dev nD) : S16384x1.Idx → EReal := V c main_v39
/-- the weights, -/
abbrev w2 (c : Dev nD) : S256x256.Idx → EReal := V c main_v49
/-- the bias row. -/
abbrev bias2 (c : Dev nD) : S1x256.Idx → EReal := V c main_v50

/-- The windows' blocks at point t, as arrays of extended reals. -/
abbrev adjBlock2 (c : Dev nD) (t : Fin cfg2.N) : FVec Ideal S2048x2048 .bf16 := iblk2 V c 0 t
abbrev featBlock2 (c : Dev nD) (t : Fin cfg2.N) : FVec Ideal S2048x256 .bf16 := iblk2 V c 1 t
abbrev disBlock2 (c : Dev nD) (t : Fin cfg2.N) : FVec Ideal S2048x1 .f32 := iblk2 V c 2 t
abbrev wBlock2 (c : Dev nD) (t : Fin cfg2.N) : FVec Ideal S256x256 .bf16 := iblk2 V c 3 t
abbrev biasBlock2 (c : Dev nD) (t : Fin cfg2.N) : FVec Ideal S1x256 .f32 := iblk2 V c 4 t

/-- Row I of A against column d of X over block s of the contraction index (2048·s … 2048·s + 2047); zero from the
    ninth block on. -/
def blockDot2 (A : S16384x16384.Idx → EReal) (X : S16384x256.Idx → EReal) (I : Fin 16384) (d : Fin 256) (s : ℕ) : EReal :=
  if h : s < 8 then
    ∑ j : Fin 2048, A (ix2 I (⟨2048 * s + j.val, by have := j.isLt; omega⟩ : Fin 16384))
      * X (ix2 (⟨2048 * s + j.val, by have := j.isLt; omega⟩ : Fin 16384) d)
  else 0

/-- The eight blocks' partial products add up to the whole product. -/
theorem sum_blockDot2 (A : S16384x16384.Idx → EReal) (X : S16384x256.Idx → EReal) (I : Fin 16384) (d : Fin 256) :
    ∑ s ∈ Finset.range 8, blockDot2 A X I d s = ∑ J : Fin 16384, A (ix2 I J) * X (ix2 J d) := by
  refine Cert.LibBlockSum.sum_range_blocks 8 2048
    (fun k : Fin (8 * 2048) => A (ix2 I (k : Fin 16384)) * X (ix2 (k : Fin 16384) d)) (blockDot2 A X I d) fun s => ?_
  unfold blockDot2
  rw [dif_pos s.isLt]
  refine Finset.sum_congr rfl fun j _ => congrArg (fun J : Fin 16384 => A (ix2 I J) * X (ix2 J d)) (Fin.ext ?_)
  show 2048 * s.val + j.val = (Cert.LibBlockSum.blockIdx s j).val
  rw [Cert.LibBlockSum.blockIdx_val]; omega

/-- The product of point t's adjacency and feature blocks at (r, d): row 2048·(t / 8) + r of the adjacency matrix
    against column d of the feature matrix over block t % 8 of the contraction index. -/
theorem blockProduct2 (c : Dev nD) (t : Fin cfg2.N) (r : Fin 2048) (d : Fin 256) (I : Fin 16384)
    (hI : I.val = 2048 * (t.val / 8) + r.val) :
    ∑ j : Fin 2048, adjBlock2 V c t (ix2 r j) * featBlock2 V c t (ix2 j d) = blockDot2 (adj2 V c) (feat2 V c) I d (t.val % 8) := by
  have hk : t.val % 8 < 8 := Nat.mod_lt _ (by decide)
  unfold blockDot2
  rw [dif_pos hk]
  refine Finset.sum_congr rfl fun j _ => ?_
  exact congrArg₂ (· * ·)
    (iblk2_0_apply V c t r j I ⟨2048 * (t.val % 8) + j.val, by have := j.isLt; omega⟩ hI rfl)
    (iblk2_1_apply V c t j d ⟨2048 * (t.val % 8) + j.val, by have := j.isLt; omega⟩ rfl)

/-- After point n the accumulator holds, at (r, d), row 2048·(n / 8) + r of the adjacency matrix against column d of
    the feature matrix over the blocks 0 … n % 8 of the contraction index: the sum restarts at each block row's first
    point and grows by one block per point. -/
theorem acc2_apply (c : Dev nD) (n : ℕ) (hn : n < cfg2.N) (r : Fin 2048) (d : Fin 256) (I : Fin 16384)
    (hI : I.val = 2048 * (n / 8) + r.val) :
    acc2 V c n hn (ix2 r d) = ∑ s ∈ Finset.range (n % 8 + 1), blockDot2 (adj2 V c) (feat2 V c) I d s := by
  induction n using Nat.strong_induction_on generalizing I with
  | _ n ih =>
    have hN : n < 64 := lt_of_lt_of_eq hn N_2
    by_cases h0 : n % 8 = 0
    · rw [acc2_first V c n hn h0]
      refine (Cert.KernelIdeal.Payload.k2_pay2_apply _ (adjBlock2 V c ⟨n, hn⟩) (featBlock2 V c ⟨n, hn⟩) r d).trans ?_
      rw [Cert.KernelIdeal.Payload.k2_pay1_apply, zero_add, blockProduct2 V c ⟨n, hn⟩ r d I hI]
      show blockDot2 (adj2 V c) (feat2 V c) I d (n % 8) = _
      rw [h0, Finset.sum_range_one]
    · rw [acc2_next V c n hn h0]
      refine (Cert.KernelIdeal.Payload.k2_pay2_apply _ (adjBlock2 V c ⟨n, hn⟩) (featBlock2 V c ⟨n, hn⟩) r d).trans ?_
      rw [ih (n - 1) (by omega) _ I (by omega), blockProduct2 V c ⟨n, hn⟩ r d I hI]
      show _ + blockDot2 (adj2 V c) (feat2 V c) I d (n % 8) = _
      rw [show (n - 1) % 8 + 1 = n % 8 from by omega, Finset.sum_range_succ]

/-! ## The result array -/

/-- The layer's output at (I, q): row I of the adjacency matrix times the feature matrix, scaled by row I's factor,
    against column q of the weights, plus the bias of column q, cut off below at zero. -/
def entry2 (c : Dev nD) (I : Fin 16384) (q : Fin 256) : EReal :=
  max ((∑ d : Fin 256, ((∑ J : Fin 16384, adj2 V c (ix2 I J) * feat2 V c (ix2 J d)) * dis2 V c (ix2 I (0 : Fin 1)))
    * w2 V c (ix2 d q)) + bias2 V c (ix2 (0 : Fin 1) q)) 0

/-- The layer's output as an array: what the result array ends holding. -/
def layer2 (c : Dev nD) : S16384x256.Idx → EReal := fun i => entry2 V c (i 0 : Fin 16384) (i 1 : Fin 256)

theorem layer2_apply (c : Dev nD) (i : S16384x256.Idx) : layer2 V c i = entry2 V c (i 0 : Fin 16384) (i 1 : Fin 256) := rfl

/-- The finished block at a block row's last point, at (r, q). -/
theorem out2_entry (c : Dev nD) (t : Fin cfg2.N) (h1 : t.val % 8 = 7) (r : Fin 2048) (q : Fin 256) (I : Fin 16384)
    (hI : I.val = 2048 * (t.val / 8) + r.val) :
    k2_pay3 (F := Ideal) (acc2 V c t.val t.isLt) (disBlock2 V c t) (wBlock2 V c t) (biasBlock2 V c t) (ix2 r q)
      = entry2 V c I q := by
  have h8 : t.val % 8 + 1 = 8 := by omega
  have hd : disBlock2 V c t (ix2 r (0 : Fin 1)) = dis2 V c (ix2 I (0 : Fin 1)) := iblk2_2_apply V c t r I hI
  have hb : biasBlock2 V c t (ix2 (0 : Fin 1) q) = bias2 V c (ix2 (0 : Fin 1) q) := iblk2_4_apply V c t q
  unfold entry2
  refine (Cert.KernelIdeal.Payload.k2_pay3_apply _ _ _ _ r q).trans ?_
  rw [hd, hb]
  refine congrArg (fun x => max (x + bias2 V c (ix2 (0 : Fin 1) q)) 0) (Finset.sum_congr rfl fun d _ => ?_)
  have hw : wBlock2 V c t (ix2 d q) = w2 V c (ix2 d q) := iblk2_3_apply V c t d q
  rw [hw, acc2_apply V c t.val t.isLt r d I hI, h8, sum_blockDot2]

/-- What a block row's last point writes back is that block row of the layer's output. -/
theorem flushed2_5_eq (c : Dev nD) (t : Fin cfg2.N) (hf : (cfg2.win 5).flush t = true) :
    (dat2 V c).flushed 5 t = ((cfg2.win 5).blk t).view.read (Elt Ideal) (layer2 V c) := by
  have h1 : t.val % 8 = 7 := (flush2_5 t).mp hf
  have hN : t.val < 64 := lt_of_lt_of_eq t.isLt N_2
  obtain ⟨-, -, -, -, -, -, -, -, -, -, e0, e1⟩ := index2_facts t
  funext y
  have hy : (cfg2.win 5).xinj (grid2.coords t) y
      = ix2 (⟨(y 0).val, (y 0).isLt⟩ : Fin 2048) (⟨(y 1).val, (y 1).isLt⟩ : Fin 256) := by
    funext a
    apply Fin.ext
    match a with
    | ⟨0, _⟩ => rfl
    | ⟨1, _⟩ => rfl
  have hI : ((((cfg2.win 5).blk t).view.emb y) 0 : Fin 16384).val = 2048 * (t.val / 8) + (y 0).val := by
    show win2_5.index t 0 * 2048 + 1 * (y 0).val = _
    rw [e0]; omega
  have hq : ((((cfg2.win 5).blk t).view.emb y) 1 : Fin 256) = (⟨(y 1).val, (y 1).isLt⟩ : Fin 256) := by
    apply Fin.ext
    show win2_5.index t 1 * 256 + 1 * (y 1).val = (y 1).val
    rw [e1]; omega
  show (cfg2.win 5).cut (grid2.coords t) ((dat2 V c).after 5 t) y = _
  rw [after2_5, View.read_apply]
  refine Eq.trans (congrArg (k2_pay3 (F := Ideal) (acc2 V c t.val t.isLt) (iblk2 V c 2 t) (iblk2 V c 3 t) (iblk2 V c 4 t)) hy) ?_
  refine (out2_entry V c t h1 _ _ ((((cfg2.win 5).blk t).view.emb y) 0) hI).trans ?_
  generalize hz : layer2 V c (((cfg2.win 5).blk t).view.emb y) = z
  show _ = z
  rw [← hz, layer2_apply, hq]

/-- Every entry of the result lies in the block some block row's last point writes back. -/
theorem cover2_5 (i : S16384x256.Idx) : ∃ t : Fin cfg2.N, (cfg2.win 5).flush t = true ∧ i ∈ ((cfg2.win 5).blk t).view.set := by
  have hi0 : (i 0).val < 16384 := (i 0).isLt
  have hi1 : (i 1).val < 256 := (i 1).isLt
  have ht : 8 * ((i 0).val / 2048) + 7 < cfg2.N := by rw [show cfg2.N = 64 from N_2]; omega
  obtain ⟨-, -, -, -, -, -, -, -, -, -, e0, e1⟩ := index2_facts ⟨8 * ((i 0).val / 2048) + 7, ht⟩
  refine ⟨⟨8 * ((i 0).val / 2048) + 7, ht⟩, (flush2_5 _).mpr (by show (8 * ((i 0).val / 2048) + 7) % 8 = 7; omega), ?_⟩
  show i ∈ ((View.whole main_v51).slice (win2_5.rect ⟨8 * ((i 0).val / 2048) + 7, ht⟩)).set
  rw [View.set_slice_whole, Rect.mem_set_unit]
  intro a
  match a with
  | ⟨0, _⟩ =>
    show win2_5.index ⟨8 * ((i 0).val / 2048) + 7, ht⟩ 0 * 2048 ≤ (i 0).val ∧ (i 0).val < win2_5.index ⟨8 * ((i 0).val / 2048) + 7, ht⟩ 0 * 2048 + 2048
    rw [e0]
    show (8 * ((i 0).val / 2048) + 7) / 8 * 2048 ≤ (i 0).val ∧ (i 0).val < (8 * ((i 0).val / 2048) + 7) / 8 * 2048 + 2048
    omega
  | ⟨1, _⟩ =>
    show win2_5.index ⟨8 * ((i 0).val / 2048) + 7, ht⟩ 1 * 256 ≤ (i 1).val ∧ (i 1).val < win2_5.index ⟨8 * ((i 0).val / 2048) + 7, ht⟩ 1 * 256 + 256
    rw [e1]
    omega

/-- The result array ends holding the layer's output. -/
theorem final2_5 (c : Dev nD) : (dat2 V c).arrAt 5 cfg2.N = layer2 V c :=
  (dat2 V c).arrAt_eq_of_cover 5 (layer2 V c) (flushed2_5_eq V c) fun i => cover2_5 i

/-- THE RESULT of region 2: entry (I, q) of the result array, over the arrays as the region finds them. -/
theorem region2_value (c : Dev nD) (I : Fin 16384) (q : Fin 256) :
    (dat2 V c).arrAt 5 cfg2.N (ix2 I q)
      = max ((∑ d : Fin 256, ((∑ J : Fin 16384, adj2 V c (ix2 I J) * feat2 V c (ix2 J d)) * dis2 V c (ix2 I (0 : Fin 1)))
          * w2 V c (ix2 d q)) + bias2 V c (ix2 (0 : Fin 1) q)) 0 := by
  rw [final2_5]
  rfl

end Exact

end Cert.KernelIdeal.Gen

end
-- ==== Proof.LibScatterKeeps.lean ====
/-
  A scatter whose body returns the update keeps every property shared by the operand's and the updates' entries.

  The host's scatter is a left fold over the update indices: each step either leaves the running result alone (the
  update's target is outside the operand) or replaces one entry by the body applied to the old entry and the
  update. When the body is `fun _ b => b` the replaced entry IS the update. So every entry of the result is an
  entry of the operand or an entry of the updates, and a predicate that holds of all of those holds of every entry
  of the result — whatever the shapes, the index array and the dimension numbers are.
-/
import Idealize.ShloMosaic.PureOps.ShapeOps

namespace Cert.LibScatterKeeps

open Idealize.ShloMosaic

variable {α : Type} {w : Nat} {s si u : Shape}

/-- One step of the fold, for any body `f` that keeps `P`: if `P` holds of every entry of the running result and of
    the update, it holds of every entry after the step. -/
theorem step_keeps (P : α → Prop) (f : α → α → α) (hf : ∀ a b, P a → P b → P (f a b))
    (o : Option s.Idx) (r : s.Idx → α) (b : α) (hr : ∀ i, P (r i)) (hb : P b) (i' : s.Idx) :
    P ((match o with
        | some i => fun i' => if i' = i then f (r i) b else r i'
        | none => r) i') := by
  cases o with
  | none => exact hr i'
  | some i =>
    show P (if i' = i then f (r i) b else r i')
    by_cases h : i' = i
    · rw [if_pos h]; exact hf _ _ (hr i) hb
    · rw [if_neg h]; exact hr i'

/-- A scatter with a body that keeps `P` keeps `P`: if `P` holds of every operand entry and of every update entry,
    and `f` maps two entries with `P` to an entry with `P`, then `P` holds of every entry of the result. -/
theorem scatter_keeps_of_body (P : α → Prop) (d : ScatterDims s si u) (f : α → α → α)
    (hf : ∀ a b, P a → P b → P (f a b)) (x : s.Idx → α) (idx : IVec si w) (upd : u.Idx → α)
    (hx : ∀ i, P (x i)) (hu : ∀ j, P (upd j)) (i : s.Idx) :
    P (Host.scatter d f x idx upd i) := by
  unfold Host.scatter
  generalize List.finRange u.numel = l
  induction l generalizing x i with
  | nil => exact hx i
  | cons n l ih =>
    rw [List.foldl_cons]
    exact ih _ (fun i' => step_keeps P f hf _ x _ hx (hu _) i') i

/-- A scatter whose body returns the update (`x.at[idx].set(upd)`): every entry of the result satisfies any
    predicate that all operand entries and all update entries satisfy. -/
theorem scatter_set_keeps (P : α → Prop) (d : ScatterDims s si u) (x : s.Idx → α) (idx : IVec si w)
    (upd : u.Idx → α) (hx : ∀ i, P (x i)) (hu : ∀ j, P (upd j)) (i : s.Idx) :
    P (Host.scatter d (fun _ b => b) x idx upd i) :=
  scatter_keeps_of_body P d (fun _ b => b) (fun _ _ _ hb => hb) x idx upd hx hu i

end Cert.LibScatterKeeps
-- ==== Proof.RefAdjacency.lean ====
/-
  The reference's adjacency matrix has entries 0 and 1 only.

  The reference builds its dense adjacency matrix from an all-zero matrix by two scatters whose body returns the
  update: first the constant 1 at the edge list's (source, target) pairs, then the constant 1 on the diagonal. A
  scatter of that kind keeps every property shared by its operand's and its updates' entries, so every entry of the
  result is 0 or 1 — whatever the edge list holds (out-of-range pairs are dropped, repeated pairs collapse).
-/
import proofs.«103720_j9775345566347_1_alg».proof.Proof.Gen.ReferenceIdeal.Read
import proofs.«103720_j9775345566347_1_alg».proof.Proof.LibScatterKeeps
import Idealize.ShloMosaic.Lib.IdealHost

noncomputable section

namespace Cert.ReferenceIdeal.Stages

open Cert.ReferenceIdeal Cert.ReferenceIdeal.Gen Cert.ReferenceIdeal.Read
open Idealize.ShloMosaic Idealize.ShloMosaic.ValueIdx Idealize.ShloMosaic.StableHlo

/-- The edge list as the reference receives it: a 2 × 524288 array of 32-bit words. -/
abbrev EdgeList := (⟨S2x524288, .i32⟩ : BufTy).Contents (Elt Ideal)

/-- An extended real that is 0 or 1. -/
def ZeroOrOne (e : EReal) : Prop := e = 0 ∨ e = 1

/-- Every entry of the all-zero starting matrix is 0. -/
theorem zeros_apply (i : S16384x16384.Idx) : val_main_v0 (F := Ideal) i = (0 : EReal) := by
  rw [val_main_v0_apply, val_main_cst_apply, Ideal.ofBits_def, Ideal.ofBits_zero_f32]

/-- Every entry of the edge updates is 1. -/
theorem edgeOnes_apply (i : S524288.Idx) : val_main_v18 (F := Ideal) i = (1 : EReal) := by
  rw [val_main_v18_apply, val_main_cst_3_apply, Ideal.ofBits_def, Ideal.ofBits_one_f32]

/-- Every entry of the diagonal updates is 1. -/
theorem diagOnes_apply (i : S16384.Idx) : val_main_v34 (F := Ideal) i = (1 : EReal) := by
  rw [val_main_v34_apply, val_main_cst_8_apply, Ideal.ofBits_def, Ideal.ofBits_one_f32]

/-- After the edges are written, every entry is 0 or 1. -/
theorem edges_zeroOrOne (x1 : EdgeList) (i : S16384x16384.Idx) : ZeroOrOne (val_main_v19 (F := Ideal) x1 i) := by
  unfold val_main_v19
  exact Cert.LibScatterKeeps.scatter_set_keeps ZeroOrOne _ _ _ _
    (fun i => Or.inl (zeros_apply i)) (fun j => Or.inr (edgeOnes_apply j)) i

/-- The adjacency matrix (edges, then the diagonal): every entry is 0 or 1. -/
theorem adj_zeroOrOne (x1 : EdgeList) (i : S16384x16384.Idx) : ZeroOrOne (val_main_v35 (F := Ideal) x1 i) := by
  unfold val_main_v35
  exact Cert.LibScatterKeeps.scatter_set_keeps ZeroOrOne _ _ _ _
    (fun i => edges_zeroOrOne x1 i) (fun j => Or.inr (diagOnes_apply j)) i

/-- (R6) The adjacency matrix at row `i`, column `j` is 0 or 1. -/
theorem adj_apply_zero_or_one (x1 : EdgeList) (i j : Fin 16384) :
    val_main_v35 (F := Ideal) x1 (ix2 i j) = (0 : EReal) ∨ val_main_v35 (F := Ideal) x1 (ix2 i j) = (1 : EReal) :=
  adj_zeroOrOne x1 (ix2 i j)

/-- The adjacency matrix's entries are real: each is the coercion of the real 0 or the real 1. -/
theorem adj_apply_real (x1 : EdgeList) (i j : Fin 16384) :
    ∃ a : ℝ, (a = 0 ∨ a = 1) ∧ val_main_v35 (F := Ideal) x1 (ix2 i j) = ((a : ℝ) : EReal) := by
  rcases adj_apply_zero_or_one x1 i j with h | h
  · exact ⟨0, Or.inl rfl, by rw [h]; rfl⟩
  · exact ⟨1, Or.inr rfl, by rw [h]; rfl⟩

end Cert.ReferenceIdeal.Stages
-- ==== Proof.RefStages.lean ====
/-
  The reference's graph-convolution stages, read at an index by coordinates.

  With adj the 0/1 adjacency matrix (edges and the diagonal), the reference computes
    deg i   = 0 + Σ_j adj i j,
    dis i   = (max 1 (deg i)) ^ (−1/2),
    A i j   = (dis i · adj i j) · dis j,
    h₁ i c  = max (Σ_d (Σ_j A i j · x j d) · W₁ d c + b₁ c) 0,
    h₂ i c  = max (Σ_d (Σ_j A i j · h₁ j d) · W₂ d c + b₂ c) 0.
  Each line below is the corresponding stage of the generated reading of the reference, with the composed index
  functions identified with explicit coordinates. Because adj's entries are 0 or 1, deg i is a real number that is
  not negative, max 1 (deg i) is a real number that is at least 1, and dis i is a positive real number.
-/
import proofs.«103720_j9775345566347_1_alg».proof.Proof.RefAdjacency

noncomputable section

namespace Cert.ReferenceIdeal.Stages

open Cert.ReferenceIdeal Cert.ReferenceIdeal.Gen Cert.ReferenceIdeal.Read
open Idealize.ShloMosaic Idealize.ShloMosaic.ValueIdx Idealize.ShloMosaic.StableHlo
open scoped BigOperators

/-- The node features: a 16384 × 128 array. -/
abbrev Features := (⟨S16384x128, .f32⟩ : BufTy).Contents (Elt Ideal)
/-- The first layer's weights: a 128 × 256 array. -/
abbrev Weights1 := (⟨S128x256, .f32⟩ : BufTy).Contents (Elt Ideal)
/-- The second layer's weights: a 256 × 256 array. -/
abbrev Weights2 := (⟨S256x256, .f32⟩ : BufTy).Contents (Elt Ideal)
/-- A layer's bias: 256 entries. -/
abbrev Bias := (⟨S256, .f32⟩ : BufTy).Contents (Elt Ideal)

/-! ## Index equations -/

theorem idx_deg (i k : Fin 16384) : idx_main_v36 (ix1 i) k = ix2 i k :=
  funext fun a => Fin.ext (by match a with | ⟨0, _⟩ => rfl | ⟨1, _⟩ => rfl)

theorem idx_rowScale (i j : Fin 16384) : idx_main_v40 (idx_main_v41 (ix2 i j)) = ix1 i :=
  funext fun a => Fin.ext (by match a with | ⟨0, _⟩ => rfl)

theorem idx_colScale (i j : Fin 16384) : idx_main_v43 (idx_main_v44 (ix2 i j)) = ix1 j :=
  funext fun a => Fin.ext (by match a with | ⟨0, _⟩ => rfl)

theorem lidx_agg1 (i : Fin 16384) (d : Fin 128) (k : Fin 16384) : lidx_main_v46 (ix2 i d) k = ix2 i k :=
  funext fun a => Fin.ext (by match a with | ⟨0, _⟩ => rfl | ⟨1, _⟩ => rfl)

theorem ridx_agg1 (i : Fin 16384) (d : Fin 128) (k : Fin 16384) : ridx_main_v46 (ix2 i d) k = ix2 k d :=
  funext fun a => Fin.ext (by match a with | ⟨0, _⟩ => rfl | ⟨1, _⟩ => rfl)

theorem lidx_dense1 (i : Fin 16384) (c : Fin 256) (k : Fin 128) : lidx_main_v47 (ix2 i c) k = ix2 i k :=
  funext fun a => Fin.ext (by match a with | ⟨0, _⟩ => rfl | ⟨1, _⟩ => rfl)

theorem ridx_dense1 (i : Fin 16384) (c : Fin 256) (k : Fin 128) : ridx_main_v47 (ix2 i c) k = ix2 k c :=
  funext fun a => Fin.ext (by match a with | ⟨0, _⟩ => rfl | ⟨1, _⟩ => rfl)

theorem idx_bias1 (i : Fin 16384) (c : Fin 256) : idx_main_v48 (idx_main_v49 (ix2 i c)) = ix1 c :=
  funext fun a => Fin.ext (by match a with | ⟨0, _⟩ => rfl)

theorem lidx_agg2 (i : Fin 16384) (d : Fin 256) (k : Fin 16384) : lidx_main_v52 (ix2 i d) k = ix2 i k :=
  funext fun a => Fin.ext (by match a with | ⟨0, _⟩ => rfl | ⟨1, _⟩ => rfl)

theorem ridx_agg2 (i : Fin 16384) (d : Fin 256) (k : Fin 16384) : ridx_main_v52 (ix2 i d) k = ix2 k d :=
  funext fun a => Fin.ext (by match a with | ⟨0, _⟩ => rfl | ⟨1, _⟩ => rfl)

theorem lidx_dense2 (i : Fin 16384) (c : Fin 256) (k : Fin 256) : lidx_main_v53 (ix2 i c) k = ix2 i k :=
  funext fun a => Fin.ext (by match a with | ⟨0, _⟩ => rfl | ⟨1, _⟩ => rfl)

theorem ridx_dense2 (i : Fin 16384) (c : Fin 256) (k : Fin 256) : ridx_main_v53 (ix2 i c) k = ix2 k c :=
  funext fun a => Fin.ext (by match a with | ⟨0, _⟩ => rfl | ⟨1, _⟩ => rfl)

theorem idx_bias2 (i : Fin 16384) (c : Fin 256) : idx_main_v54 (idx_main_v55 (ix2 i c)) = ix1 c :=
  funext fun a => Fin.ext (by match a with | ⟨0, _⟩ => rfl)

/-! ## The stages -/

/-- (R1) The degree of node `i`: zero plus the sum of row `i` of the adjacency matrix. -/
theorem deg_apply (x1 : EdgeList) (i : Fin 16384) :
    val_main_v36 (F := Ideal) x1 (ix1 i) = 0 + ∑ j : Fin 16384, val_main_v35 (F := Ideal) x1 (ix2 i j) := by
  rw [val_main_v36_apply, val_main_cst_9_apply, Ideal.ofBits_def, Ideal.ofBits_zero_f32]
  simp only [idx_deg]

/-- The f32 pattern `0xBF000000` is the real −1/2. -/
theorem ofBits_neg_half_f32 : Ideal.ofBits .f32 0xBF000000#32 = (((-(1 / 2) : ℝ)) : EReal) := by
  simp [Ideal.ofBits, Ideal.ieee, -EReal.coe_mul, -EReal.coe_neg]; norm_num

/-- (R2) The normalizer of node `i`: the degree clipped below at 1, raised to the power −1/2 (the exponent kept as
    its f32 pattern). -/
theorem dis_apply (x1 : EdgeList) (i : Fin 16384) :
    val_main_v39 (F := Ideal) x1 (ix1 i)
      = Ideal.pow (max 1 (val_main_v36 (F := Ideal) x1 (ix1 i))) (Ideal.ofBits .f32 0xBF000000#32) := by
  rw [val_main_v39_apply, val_main_v37_apply, val_main_call0_v1_apply, val_main_call0_v0_apply,
    val_main_cst_10_apply, val_main_v38_apply, val_main_cst_11_apply]
  simp only [Ideal.hostPowf_def, Ideal.maximumf_def, Ideal.ofBits_def, Ideal.ofBits_one_f32]

/-- (R3) The normalized adjacency matrix: (dis i · adj i j) · dis j. -/
theorem normAdj_apply (x1 : EdgeList) (i j : Fin 16384) :
    val_main_v45 (F := Ideal) x1 (ix2 i j)
      = (val_main_v39 (F := Ideal) x1 (ix1 i) * val_main_v35 (F := Ideal) x1 (ix2 i j))
          * val_main_v39 (F := Ideal) x1 (ix1 j) := by
  rw [val_main_v45_apply, val_main_v42_apply, val_main_v41_apply, val_main_v40_apply, val_main_v44_apply,
    val_main_v43_apply, idx_rowScale, idx_colScale]
  simp only [Ideal.mulf_def]

/-- (R4) The first layer: aggregate over the neighbours, apply the dense map, add the bias, clip below at 0. -/
theorem layer1_apply (x0 : Features) (x1 : EdgeList) (x3 : Weights1) (x4 : Bias) (i : Fin 16384) (c : Fin 256) :
    val_main_v51 (F := Ideal) x0 x1 x3 x4 (ix2 i c)
      = max (∑ d : Fin 128, (∑ j : Fin 16384, val_main_v45 (F := Ideal) x1 (ix2 i j) * x0 (ix2 j d)) * x3 (ix2 d c)
              + x4 (ix1 c)) 0 := by
  rw [val_main_v51_apply, val_main_v50_apply, val_main_v47_apply, val_main_v49_apply, val_main_v48_apply,
    val_main_call1_v0_apply, val_main_call1_cst_apply, idx_bias1]
  simp only [val_main_v46_apply, lidx_dense1, ridx_dense1, lidx_agg1, ridx_agg1, Ideal.maximumf_def, Ideal.addf_def,
    Ideal.ofBits_def, Ideal.ofBits_zero_f32]

/-- (R5) The second layer: the same one layer up, on the first layer's output. -/
theorem layer2_apply (x0 : Features) (x1 : EdgeList) (x3 : Weights1) (x4 : Bias) (x5 : Weights2) (x6 : Bias)
    (i : Fin 16384) (c : Fin 256) :
    val_main_v57 (F := Ideal) x0 x1 x3 x4 x5 x6 (ix2 i c)
      = max (∑ d : Fin 256, (∑ j : Fin 16384, val_main_v45 (F := Ideal) x1 (ix2 i j)
                * val_main_v51 (F := Ideal) x0 x1 x3 x4 (ix2 j d)) * x5 (ix2 d c)
              + x6 (ix1 c)) 0 := by
  rw [val_main_v57_apply, val_main_v56_apply, val_main_v53_apply, val_main_v55_apply, val_main_v54_apply,
    val_main_call2_v0_apply, val_main_call2_cst_apply, idx_bias2]
  simp only [val_main_v52_apply, lidx_dense2, ridx_dense2, lidx_agg2, ridx_agg2, Ideal.maximumf_def, Ideal.addf_def,
    Ideal.ofBits_def, Ideal.ofBits_zero_f32]

/-! ## The degree and the normalizer are real -/

/-- A finite sum of extended reals that are each 0 or 1 is a real number that is not negative. -/
theorem sum_zeroOrOne_real {ι : Type} (s : Finset ι) (f : ι → EReal) (h : ∀ j ∈ s, f j = 0 ∨ f j = 1) :
    ∃ r : ℝ, 0 ≤ r ∧ ∑ j ∈ s, f j = ((r : ℝ) : EReal) := by
  classical
  revert h
  refine Finset.induction_on s ?_ ?_
  · intro _
    exact ⟨0, le_refl _, by rw [Finset.sum_empty]; rfl⟩
  · intro a s ha ih h
    obtain ⟨r, hr0, hr⟩ := ih (fun j hj => h j (Finset.mem_insert_of_mem hj))
    rw [Finset.sum_insert ha, hr]
    rcases h a (Finset.mem_insert_self a s) with h0 | h1
    · exact ⟨r, hr0, by rw [h0, zero_add]⟩
    · exact ⟨1 + r, by linarith, by rw [h1, EReal.coe_add, EReal.coe_one]⟩

/-- The degree of node `i` is a real number that is not negative, as soon as row `i` of the adjacency matrix holds
    only 0 and 1. -/
theorem deg_real_of (x1 : EdgeList) (i : Fin 16384)
    (h : ∀ j : Fin 16384, val_main_v35 (F := Ideal) x1 (ix2 i j) = 0 ∨ val_main_v35 (F := Ideal) x1 (ix2 i j) = 1) :
    ∃ r : ℝ, 0 ≤ r ∧ val_main_v36 (F := Ideal) x1 (ix1 i) = ((r : ℝ) : EReal) := by
  obtain ⟨r, hr0, hr⟩ := sum_zeroOrOne_real Finset.univ (fun j : Fin 16384 => val_main_v35 (F := Ideal) x1 (ix2 i j))
    (fun j _ => h j)
  exact ⟨r, hr0, by rw [deg_apply, hr, zero_add]⟩

/-- (R2, realness) If row `i` of the adjacency matrix holds only 0 and 1, the normalizer of node `i` is the real
    number `d ^ (−1/2)` for a real `d ≥ 1` (the clipped degree); in particular it is a positive real. -/
theorem dis_real_of (x1 : EdgeList) (i : Fin 16384)
    (h : ∀ j : Fin 16384, val_main_v35 (F := Ideal) x1 (ix2 i j) = 0 ∨ val_main_v35 (F := Ideal) x1 (ix2 i j) = 1) :
    ∃ d : ℝ, 1 ≤ d ∧ max 1 (val_main_v36 (F := Ideal) x1 (ix1 i)) = ((d : ℝ) : EReal)
      ∧ val_main_v39 (F := Ideal) x1 (ix1 i) = ((Real.rpow d (-(1 / 2)) : ℝ) : EReal) := by
  obtain ⟨r, _, hr⟩ := deg_real_of x1 i h
  have hmax : max (1 : EReal) ((r : ℝ) : EReal) = ((max 1 r : ℝ) : EReal) := by
    rw [← EReal.coe_one]; exact (EReal.coe_strictMono.monotone.map_max).symm
  refine ⟨max 1 r, le_max_left _ _, by rw [hr, hmax], ?_⟩
  rw [dis_apply, hr, hmax, ofBits_neg_half_f32, Ideal.pow_coe_coe]

/-- (R2, realness) The normalizer of node `i` is a positive real number. -/
theorem dis_real (x1 : EdgeList) (i : Fin 16384) :
    ∃ ρ : ℝ, 0 < ρ ∧ val_main_v39 (F := Ideal) x1 (ix1 i) = ((ρ : ℝ) : EReal) := by
  obtain ⟨d, hd, _, hv⟩ := dis_real_of x1 i (fun j => adj_apply_zero_or_one x1 i j)
  exact ⟨Real.rpow d (-(1 / 2)), Real.rpow_pos_of_pos (by linarith) _, hv⟩

/-- The normalized adjacency matrix's entries are real numbers that are not negative. -/
theorem normAdj_real (x1 : EdgeList) (i j : Fin 16384) :
    ∃ a : ℝ, 0 ≤ a ∧ val_main_v45 (F := Ideal) x1 (ix2 i j) = ((a : ℝ) : EReal) := by
  obtain ⟨ρi, hi, ei⟩ := dis_real x1 i
  obtain ⟨ρj, hj, ej⟩ := dis_real x1 j
  obtain ⟨e, he, ee⟩ := adj_apply_real x1 i j
  refine ⟨ρi * e * ρj, ?_, by rw [normAdj_apply, ei, ej, ee, ← EReal.coe_mul, ← EReal.coe_mul]⟩
  have he0 : 0 ≤ e := by rcases he with h | h <;> rw [h] <;> norm_num
  exact mul_nonneg (mul_nonneg hi.le he0) hj.le

end Cert.ReferenceIdeal.Stages
-- ==== Proof.BridgeTail.lean ====
/-
  The reference's mean pool and classifier are the kernel program's last host stretch, as one function.

  After the second layer both programs do the same thing to the hidden features h₂: sum the rows of each graph of the
  batch, divide by the number of rows of that graph clipped below at 1, apply the classifier's dense map and add its
  bias. The two printed programs spell this with the same operations in the same order, over shape records that are
  separate constants with equal fields, so the reference's last stage IS the kernel program's tail function of h₂,
  the batch vector, the classifier's weights and its bias.
-/
import proofs.«103720_j9775345566347_1_alg».proof.Proof.RefStages
import proofs.«103720_j9775345566347_1_alg».proof.Proof.HostStretches

noncomputable section

namespace Cert.Bridge

open Idealize.ShloMosaic

/-- The reference's result is the kernel program's tail function applied to the reference's second layer. -/
theorem ref_tail
    (x0 : (⟨Cert.ReferenceIdeal.S16384x128, .f32⟩ : BufTy).Contents (Elt Ideal))
    (x1 : (⟨Cert.ReferenceIdeal.S2x524288, .i32⟩ : BufTy).Contents (Elt Ideal))
    (x2 : (⟨Cert.ReferenceIdeal.S16384, .i32⟩ : BufTy).Contents (Elt Ideal))
    (x3 : (⟨Cert.ReferenceIdeal.S128x256, .f32⟩ : BufTy).Contents (Elt Ideal))
    (x4 : (⟨Cert.ReferenceIdeal.S256, .f32⟩ : BufTy).Contents (Elt Ideal))
    (x5 : (⟨Cert.ReferenceIdeal.S256x256, .f32⟩ : BufTy).Contents (Elt Ideal))
    (x6 : (⟨Cert.ReferenceIdeal.S256, .f32⟩ : BufTy).Contents (Elt Ideal))
    (x7 : (⟨Cert.ReferenceIdeal.S256x10, .f32⟩ : BufTy).Contents (Elt Ideal))
    (x8 : (⟨Cert.ReferenceIdeal.S10, .f32⟩ : BufTy).Contents (Elt Ideal)) :
    Cert.ReferenceIdeal.Read.val_main_v72 (F := Ideal) x0 x1 x2 x3 x4 x5 x6 x7 x8
      = Cert.KernelIdeal.Gen.tailOf (F := Ideal)
          (Cert.ReferenceIdeal.Read.val_main_v57 (F := Ideal) x0 x1 x3 x4 x5 x6) x2 x7 x8 :=
  rfl

end Cert.Bridge
-- ==== Proof.BridgeAdjacency.lean ====
/-
  The two programs build the same adjacency matrix.

  The kernel program's first stretch of host operations builds the dense 0/1 adjacency matrix exactly as the
  reference does — an all-zero matrix, the constant 1 scattered at the edge list's (source, target) pairs, then the
  constant 1 scattered on the diagonal, with the same index arithmetic (negative indices wrapped by the extent) —
  except that its constants are bf16 patterns where the reference's are f32 patterns. At the exact instance both
  zeros denote 0 and both ones denote 1, so the two matrices are equal, entry for entry.
-/
import proofs.«103720_j9775345566347_1_alg».proof.Proof.RefAdjacency
import proofs.«103720_j9775345566347_1_alg».proof.Proof.Gen.KernelIdeal.Launch
import Idealize.ShloMosaic.Lib.StableHlo.Run
import Idealize.ShloMosaic.Lib.IdealHost

noncomputable section

namespace Cert.Bridge

open Idealize.ShloMosaic Idealize.ShloMosaic.TcCoe Idealize.SL.Sem Idealize.ShloMosaic.StableHlo
open Cert.KernelIdeal Cert.KernelIdeal.Gen

/-- Two scatters with the same dimension numbers and body agree when their operands, index arrays and updates do. -/
theorem scatter_congr {α : Type} {w : Nat} {s si u : Shape} (d : ScatterDims s si u) (f : α → α → α)
    {x x' : s.Idx → α} {idx idx' : IVec si w} {upd upd' : u.Idx → α} (hx : x = x') (hi : idx = idx')
    (hu : upd = upd') : Host.scatter d f x idx upd = Host.scatter d f x' idx' upd' := by
  subst hx hi hu; rfl

/-- Two arrays joined along an axis: the joins agree when the pieces do. -/
theorem concatenate_pair_congr {α : Type} (t : Shape) (ax : Fin t.rank) {s1 s2 : Shape} {a a' : s1.Idx → α}
    {b b' : s2.Idx → α}
    (h : Shape.Concatenates (([⟨s1, a⟩, ⟨s2, b⟩] : List ((s : Shape) × (s.Idx → α))).map (·.1)) t ax)
    (h' : Shape.Concatenates (([⟨s1, a'⟩, ⟨s2, b'⟩] : List ((s : Shape) × (s.Idx → α))).map (·.1)) t ax)
    (ha : a = a') (hb : b = b') :
    concatenate t ax [⟨s1, a⟩, ⟨s2, b⟩] h = concatenate t ax [⟨s1, a'⟩, ⟨s2, b'⟩] h' := by
  subst ha hb; rfl

/-- The kernel program's adjacency matrix, after its first stretch of host operations entered with contents `Wb`,
    is the reference's adjacency matrix of the same edge list. -/
theorem adj_kernel_eq (Wb : Valuation Cert.KernelIdeal.τ Cert.KernelIdeal.sig (Elt Ideal)) :
    (StableHlo.after (Cert.KernelIdeal.Gen.hostOps0 (F := Ideal)) Wb (Proc.devRef .tc Cert.KernelIdeal.main_v35)
        : Cert.KernelIdeal.S16384x16384.Idx → EReal)
      = Cert.ReferenceIdeal.Read.val_main_v35 (F := Ideal) (Wb (Proc.devRef .tc Cert.KernelIdeal.main_arg1)) := by
  dsimp only [Cert.KernelIdeal.Gen.hostOps0]
  after_results_simp
  unfold Cert.ReferenceIdeal.Read.val_main_v35 Cert.ReferenceIdeal.Read.val_main_v19
    Cert.ReferenceIdeal.Read.val_main_v17 Cert.ReferenceIdeal.Read.val_main_v33
  refine scatter_congr _ _ (scatter_congr _ _ ?z (concatenate_pair_congr _ _ _ _ ?a ?b) ?o1)
    (concatenate_pair_congr _ _ _ _ ?c ?d) ?o2
  case z =>
    funext i
    exact Ideal.ofBits_zero_bf16.trans (Cert.ReferenceIdeal.Stages.zeros_apply i).symm
  case o1 =>
    funext i
    exact Ideal.ofBits_one_bf16.trans (Cert.ReferenceIdeal.Stages.edgeOnes_apply i).symm
  case o2 =>
    funext i
    exact Ideal.ofBits_one_bf16.trans (Cert.ReferenceIdeal.Stages.diagOnes_apply i).symm
  case a => after_results_simp; rfl
  case b => after_results_simp; rfl
  case c => after_results_simp; rfl
  case d => after_results_simp; rfl

end Cert.Bridge
-- ==== Proof.LibGcnNormalise.lean ====
/-
  The symmetric normalisation of a graph convolution, applied to the features or folded into the adjacency matrix.

  A graph-convolution layer aggregates the features f over the neighbours with the normalised adjacency matrix
  Â i j = (s i · a i j) · s j, where a is the adjacency matrix and s the per-node scale (degree to the power −1/2).
  One arrangement scales the features first, aggregates with the raw matrix, and scales the result:
      (Σ_j a j · (f j d · s j)) · sI,
  the other builds the normalised matrix and aggregates the raw features:
      Σ_j ((sI · a j) · s j) · f j d.
  On the extended reals multiplication does not distribute over addition at the infinities, so the two are not equal
  in general; they are equal when every entry involved is real, because the sum of coerced reals is the coerced real
  sum and there the ring laws apply. The same then holds for a whole layer (dense map, bias, clip below at 0), since
  the two arrangements only differ inside the aggregation; and a layer whose inputs are all real has real outputs.
-/
import Mathlib.Data.EReal.Operations
import Mathlib.Algebra.BigOperators.Ring.Finset
import Mathlib.Tactic.Ring
import Mathlib.Tactic.Linarith

noncomputable section

namespace Cert.LibGcnNormalise

open scoped BigOperators

variable {ι κ μ : Type*}

/-! ## Real entries inside the extended reals -/

/-- The sum of coerced reals is the coerced real sum. -/
theorem coe_sum (t : Finset ι) (g : ι → ℝ) :
    (∑ i ∈ t, ((g i : ℝ) : EReal)) = ((∑ i ∈ t, g i : ℝ) : EReal) := by
  classical
  refine Finset.induction_on t ?_ ?_
  · rw [Finset.sum_empty, Finset.sum_empty]; rfl
  · intro a t ha ih
    rw [Finset.sum_insert ha, Finset.sum_insert ha, ih, EReal.coe_add]

/-- A product of two reals is real. -/
theorem real_mul {x y : EReal} (hx : ∃ r : ℝ, x = ((r : ℝ) : EReal)) (hy : ∃ r : ℝ, y = ((r : ℝ) : EReal)) :
    ∃ r : ℝ, x * y = ((r : ℝ) : EReal) := by
  obtain ⟨p, rfl⟩ := hx; obtain ⟨q, rfl⟩ := hy
  exact ⟨p * q, (EReal.coe_mul p q).symm⟩

/-- A sum of two reals is real. -/
theorem real_add {x y : EReal} (hx : ∃ r : ℝ, x = ((r : ℝ) : EReal)) (hy : ∃ r : ℝ, y = ((r : ℝ) : EReal)) :
    ∃ r : ℝ, x + y = ((r : ℝ) : EReal) := by
  obtain ⟨p, rfl⟩ := hx; obtain ⟨q, rfl⟩ := hy
  exact ⟨p + q, (EReal.coe_add p q).symm⟩

/-- A finite sum of reals is real. -/
theorem real_sum (t : Finset ι) (g : ι → EReal) (hg : ∀ i, ∃ r : ℝ, g i = ((r : ℝ) : EReal)) :
    ∃ r : ℝ, ∑ i ∈ t, g i = ((r : ℝ) : EReal) := by
  choose g' hg' using hg
  exact ⟨∑ i ∈ t, g' i, by rw [← coe_sum]; exact Finset.sum_congr rfl fun i _ => hg' i⟩

/-- The larger of a real and 0 is a real that is not negative. -/
theorem real_max_zero {x : EReal} (hx : ∃ r : ℝ, x = ((r : ℝ) : EReal)) :
    ∃ r : ℝ, 0 ≤ r ∧ max x 0 = ((r : ℝ) : EReal) := by
  obtain ⟨p, rfl⟩ := hx
  refine ⟨max p 0, le_max_right _ _, ?_⟩
  rw [← EReal.coe_zero]; exact (EReal.coe_strictMono.monotone.map_max).symm

/-! ## The normalisation law -/

section Law
variable [Fintype ι]

/-- One column: scaling the features by `s`, aggregating with the raw row `a` and scaling the result by `sI` is
    aggregating the raw features with the normalised row `(sI · a j) · s j`, when all entries are real. -/
theorem scaled_column (a s g : ι → EReal) (sI : EReal)
    (ha : ∀ j, ∃ r : ℝ, a j = ((r : ℝ) : EReal)) (hs : ∀ j, ∃ r : ℝ, s j = ((r : ℝ) : EReal))
    (hsI : ∃ r : ℝ, sI = ((r : ℝ) : EReal)) (hg : ∀ j, ∃ r : ℝ, g j = ((r : ℝ) : EReal)) :
    (∑ j, a j * (g j * s j)) * sI = ∑ j, ((sI * a j) * s j) * g j := by
  choose a' ha' using ha
  choose s' hs' using hs
  choose g' hg' using hg
  obtain ⟨c, rfl⟩ := hsI
  obtain rfl : a = fun j => ((a' j : ℝ) : EReal) := funext ha'
  obtain rfl : s = fun j => ((s' j : ℝ) : EReal) := funext hs'
  obtain rfl : g = fun j => ((g' j : ℝ) : EReal) := funext hg'
  have hl : (∑ j, ((a' j : ℝ) : EReal) * (((g' j : ℝ) : EReal) * ((s' j : ℝ) : EReal)))
      = ((∑ j, a' j * (g' j * s' j) : ℝ) : EReal) := by
    rw [← coe_sum]; exact Finset.sum_congr rfl fun j _ => by rw [← EReal.coe_mul, ← EReal.coe_mul]
  have hr : (∑ j, ((((c : ℝ) : EReal) * ((a' j : ℝ) : EReal)) * ((s' j : ℝ) : EReal)) * ((g' j : ℝ) : EReal))
      = ((∑ j, c * a' j * s' j * g' j : ℝ) : EReal) := by
    rw [← coe_sum]
    exact Finset.sum_congr rfl fun j _ => by rw [← EReal.coe_mul, ← EReal.coe_mul, ← EReal.coe_mul]
  show (∑ j, ((a' j : ℝ) : EReal) * (((g' j : ℝ) : EReal) * ((s' j : ℝ) : EReal))) * ((c : ℝ) : EReal)
      = ∑ j, ((((c : ℝ) : EReal) * ((a' j : ℝ) : EReal)) * ((s' j : ℝ) : EReal)) * ((g' j : ℝ) : EReal)
  rw [hl, hr, ← EReal.coe_mul, Finset.sum_mul]
  exact congrArg _ (Finset.sum_congr rfl fun j _ => by ring)

/-- The aggregation of a feature matrix, column `d`: the two arrangements agree when all entries are real. -/
theorem scaled_aggregate (a s : ι → EReal) (sI : EReal) (f : ι → κ → EReal)
    (ha : ∀ j, ∃ r : ℝ, a j = ((r : ℝ) : EReal)) (hs : ∀ j, ∃ r : ℝ, s j = ((r : ℝ) : EReal))
    (hsI : ∃ r : ℝ, sI = ((r : ℝ) : EReal)) (hf : ∀ j d, ∃ r : ℝ, f j d = ((r : ℝ) : EReal)) (d : κ) :
    (∑ j, a j * (f j d * s j)) * sI = ∑ j, ((sI * a j) * s j) * f j d :=
  scaled_column a s (fun j => f j d) sI ha hs hsI (fun j => hf j d)

/-- A whole layer (aggregate, dense map `W`, bias `b`, clip below at 0): the two arrangements agree when the
    adjacency row, the scales and the features are real; the weights and the bias are arbitrary. -/
theorem scaled_layer [Fintype κ] (a s : ι → EReal) (sI : EReal) (f : ι → κ → EReal) (W : κ → μ → EReal)
    (b : μ → EReal)
    (ha : ∀ j, ∃ r : ℝ, a j = ((r : ℝ) : EReal)) (hs : ∀ j, ∃ r : ℝ, s j = ((r : ℝ) : EReal))
    (hsI : ∃ r : ℝ, sI = ((r : ℝ) : EReal)) (hf : ∀ j d, ∃ r : ℝ, f j d = ((r : ℝ) : EReal)) (q : μ) :
    max ((∑ d, ((∑ j, a j * (f j d * s j)) * sI) * W d q) + b q) 0
      = max ((∑ d, (∑ j, ((sI * a j) * s j) * f j d) * W d q) + b q) 0 := by
  have h : ∀ d, (∑ j, a j * (f j d * s j)) * sI = ∑ j, ((sI * a j) * s j) * f j d :=
    fun d => scaled_aggregate a s sI f ha hs hsI hf d
  simp only [h]

/-! ## A layer with real inputs has real outputs -/

/-- A layer's output, in the arrangement with a ready aggregation matrix row `A`: real (and not negative) when the
    row, the features, the weights and the bias are real. -/
theorem layer_real [Fintype κ] (A : ι → EReal) (f : ι → κ → EReal) (W : κ → μ → EReal) (b : μ → EReal)
    (hA : ∀ j, ∃ r : ℝ, A j = ((r : ℝ) : EReal)) (hf : ∀ j d, ∃ r : ℝ, f j d = ((r : ℝ) : EReal))
    (hW : ∀ d q, ∃ r : ℝ, W d q = ((r : ℝ) : EReal)) (hb : ∀ q, ∃ r : ℝ, b q = ((r : ℝ) : EReal)) (q : μ) :
    ∃ r : ℝ, 0 ≤ r ∧ max ((∑ d, (∑ j, A j * f j d) * W d q) + b q) 0 = ((r : ℝ) : EReal) :=
  real_max_zero (real_add
    (real_sum _ _ fun d => real_mul (real_sum _ _ fun j => real_mul (hA j) (hf j d)) (hW d q)) (hb q))

/-- The same for the arrangement with the normalised row spelled out, `(sI · a j) · s j`. -/
theorem normalised_layer_real [Fintype κ] (a s : ι → EReal) (sI : EReal) (f : ι → κ → EReal) (W : κ → μ → EReal)
    (b : μ → EReal)
    (ha : ∀ j, ∃ r : ℝ, a j = ((r : ℝ) : EReal)) (hs : ∀ j, ∃ r : ℝ, s j = ((r : ℝ) : EReal))
    (hsI : ∃ r : ℝ, sI = ((r : ℝ) : EReal)) (hf : ∀ j d, ∃ r : ℝ, f j d = ((r : ℝ) : EReal))
    (hW : ∀ d q, ∃ r : ℝ, W d q = ((r : ℝ) : EReal)) (hb : ∀ q, ∃ r : ℝ, b q = ((r : ℝ) : EReal)) (q : μ) :
    ∃ r : ℝ, 0 ≤ r ∧ max ((∑ d, (∑ j, ((sI * a j) * s j) * f j d) * W d q) + b q) 0 = ((r : ℝ) : EReal) :=
  layer_real (fun j => (sI * a j) * s j) f W b (fun j => real_mul (real_mul hsI (ha j)) (hs j)) hf hW hb q

/-- The same for the arrangement that scales the features first and the aggregate after. -/
theorem scaled_layer_real [Fintype κ] (a s : ι → EReal) (sI : EReal) (f : ι → κ → EReal) (W : κ → μ → EReal)
    (b : μ → EReal)
    (ha : ∀ j, ∃ r : ℝ, a j = ((r : ℝ) : EReal)) (hs : ∀ j, ∃ r : ℝ, s j = ((r : ℝ) : EReal))
    (hsI : ∃ r : ℝ, sI = ((r : ℝ) : EReal)) (hf : ∀ j d, ∃ r : ℝ, f j d = ((r : ℝ) : EReal))
    (hW : ∀ d q, ∃ r : ℝ, W d q = ((r : ℝ) : EReal)) (hb : ∀ q, ∃ r : ℝ, b q = ((r : ℝ) : EReal)) (q : μ) :
    ∃ r : ℝ, 0 ≤ r ∧ max ((∑ d, ((∑ j, a j * (f j d * s j)) * sI) * W d q) + b q) 0 = ((r : ℝ) : EReal) := by
  rw [scaled_layer a s sI f W b ha hs hsI hf q]
  exact normalised_layer_real a s sI f W b ha hs hsI hf hW hb q

end Law

end Cert.LibGcnNormalise
-- ==== Proof.KernelValue.lean ====
/-
  The kernel program's result, at exact arithmetic, is the reference's result function of the same arguments.
  Stage by stage along the run's boundaries: the adjacency matrices are one matrix; the degree region's row sums are
  the reference's; so are the normalisers max(1, deg)^(-1/2); each layer region computes
  max(((A·(h ⊙ s)) ⊙ s)·W + b, 0) with the scales s folded into the features, which for real entries is the
  reference's max(((s ⊙ A ⊙ sᵀ)·h)·W + b, 0); and the mean pool and classifier are one function of the second
  layer's output. Realness: adjacency entries are 0 or 1, the scales are positive reals, the features are real by
  the precondition and stay real through a layer.
-/
import proofs.«103720_j9775345566347_1_alg».proof.Proof.KernelRun
import proofs.«103720_j9775345566347_1_alg».proof.Proof.HostAtIndex
import proofs.«103720_j9775345566347_1_alg».proof.Proof.Region0Value
import proofs.«103720_j9775345566347_1_alg».proof.Proof.Region1Value
import proofs.«103720_j9775345566347_1_alg».proof.Proof.Region2Value
import proofs.«103720_j9775345566347_1_alg».proof.Proof.RefStages
import proofs.«103720_j9775345566347_1_alg».proof.Proof.BridgeTail
import proofs.«103720_j9775345566347_1_alg».proof.Proof.BridgeAdjacency
import proofs.«103720_j9775345566347_1_alg».proof.Proof.LibGcnNormalise

set_option maxRecDepth 16384

noncomputable section

namespace Cert.KernelIdeal.Gen

open Idealize.ShloMosaic Idealize.ShloMosaic.TcCoe Idealize.ShloMosaic.ValueIdx Idealize.SL.Sem
open Cert.ReferenceIdeal.Read Cert.ReferenceIdeal.Stages Cert.LibGcnNormalise

variable (m : (ℓ : Loc nD τ sig) → Buf (Elt Ideal) ℓ)

/-! ## The arguments on a core, at the types the reference's stage functions take -/

abbrev xF (c : Dev nD) : Features := m ((c : Thread nD τ).loc main_arg0)
abbrev xE (c : Dev nD) : EdgeList := m ((c : Thread nD τ).loc main_arg1)
abbrev xB (c : Dev nD) : (⟨Cert.ReferenceIdeal.S16384, .i32⟩ : BufTy).Contents (Elt Ideal) := m ((c : Thread nD τ).loc main_arg2)
abbrev xW1 (c : Dev nD) : Weights1 := m ((c : Thread nD τ).loc main_arg3)
abbrev xb1 (c : Dev nD) : Bias := m ((c : Thread nD τ).loc main_arg4)
abbrev xW2 (c : Dev nD) : Weights2 := m ((c : Thread nD τ).loc main_arg5)
abbrev xb2 (c : Dev nD) : Bias := m ((c : Thread nD τ).loc main_arg6)
abbrev xWc (c : Dev nD) : (⟨Cert.ReferenceIdeal.S256x10, .f32⟩ : BufTy).Contents (Elt Ideal) := m ((c : Thread nD τ).loc main_arg7)
abbrev xbc (c : Dev nD) : (⟨Cert.ReferenceIdeal.S10, .f32⟩ : BufTy).Contents (Elt Ideal) := m ((c : Thread nD τ).loc main_arg8)

/-! ## The quantities the run's boundaries hold -/

abbrev adjK (c : Dev nD) : S16384x16384.Idx → EReal := W1 m c (Proc.devRef .tc main_v35)
abbrev degK (c : Dev nD) : S16384x1.Idx → EReal := W2 m c (Proc.devRef .tc main_v36)
abbrev disK (c : Dev nD) : S16384x1.Idx → EReal := W5 m c (Proc.devRef .tc main_v39)
abbrev h1K (c : Dev nD) : S16384x256.Idx → EReal := W6 m c (Proc.devRef .tc main_v45)
abbrev h2K (c : Dev nD) : S16384x256.Idx → EReal := W8 m c (Proc.devRef .tc main_v51)

/-! ## Buffers carried unchanged -/

theorem W2_kept (c : Dev nD) (r : Ref sig .tc) (h0 : r ∉ hostOps0_W) (ha0 : ∀ w, Pipeline.arrRef spec0 w ≠ r) :
    W2 m c (Proc.devRef .tc r) = m ((c : Thread nD τ).loc r) :=
  (W2_of_ne m c r ha0).trans ((stretch0_of (W0 m c) r h0).trans rfl)

theorem W6_kept (c : Dev nD) (r : Ref sig .tc) (h0 : r ∉ hostOps0_W) (h1 : r ∉ hostOps1_W) (h11 : r ∉ hostOps1_1_W) (h12 : r ∉ hostOps1_2_W)
    (ha0 : ∀ w, Pipeline.arrRef spec0 w ≠ r) (ha1 : ∀ w, Pipeline.arrRef spec1 w ≠ r) :
    W6 m c (Proc.devRef .tc r) = m ((c : Thread nD τ).loc r) :=
  (W6_of_ne m c r ha1).trans ((stretch1_of (W2 m c) r h1 h11 h12).trans (W2_kept m c r h0 ha0))

theorem W8_kept (c : Dev nD) (r : Ref sig .tc) (h0 : r ∉ hostOps0_W) (h1 : r ∉ hostOps1_W) (h11 : r ∉ hostOps1_1_W) (h12 : r ∉ hostOps1_2_W)
    (h2 : r ∉ hostOps2_W) (ha0 : ∀ w, Pipeline.arrRef spec0 w ≠ r) (ha1 : ∀ w, Pipeline.arrRef spec1 w ≠ r) (ha2 : ∀ w, Pipeline.arrRef spec2 w ≠ r) :
    W8 m c (Proc.devRef .tc r) = m ((c : Thread nD τ).loc r) :=
  (W8_of_ne m c r ha2).trans ((stretch2_of (W6 m c) r h2).trans (W6_kept m c r h0 h1 h11 h12 ha0 ha1))

/-- The adjacency matrix is read, never written, by the three regions and the stretches between them. -/
theorem W2_v35 (c : Dev nD) : W2 m c (Proc.devRef .tc main_v35) = W1 m c (Proc.devRef .tc main_v35) :=
  (W2_arr m c 0).trans (((dat0 (Vin0 m) c).arrAt_in 0 rfl _).trans (A_eq0 (Vin0 m) c 0))
theorem W5_v35 (c : Dev nD) : W5 m c (Proc.devRef .tc main_v35) = W1 m c (Proc.devRef .tc main_v35) :=
  (stretch1_of (W2 m c) main_v35 (by decide) (by decide) (by decide)).trans (W2_v35 m c)
theorem W6_v35 (c : Dev nD) : W6 m c (Proc.devRef .tc main_v35) = W1 m c (Proc.devRef .tc main_v35) :=
  ((W6_arr m c 0).trans (((dat1 (Vin1 m) c).arrAt_in 0 rfl _).trans (A_eq1 (Vin1 m) c 0))).trans (W5_v35 m c)
theorem W7_v35 (c : Dev nD) : W7 m c (Proc.devRef .tc main_v35) = W1 m c (Proc.devRef .tc main_v35) :=
  (stretch2_of (W6 m c) main_v35 (by decide)).trans (W6_v35 m c)

/-- So are the normalisers, once computed. -/
theorem W6_v39 (c : Dev nD) : W6 m c (Proc.devRef .tc main_v39) = W5 m c (Proc.devRef .tc main_v39) :=
  (W6_arr m c 2).trans (((dat1 (Vin1 m) c).arrAt_in 2 rfl _).trans (A_eq1 (Vin1 m) c 2))
theorem W7_v39 (c : Dev nD) : W7 m c (Proc.devRef .tc main_v39) = W5 m c (Proc.devRef .tc main_v39) :=
  (stretch2_of (W6 m c) main_v39 (by decide)).trans (W6_v39 m c)

/-! ## The adjacency matrix, the degrees, the normalisers -/

theorem adjK_eq (c : Dev nD) : adjK m c = val_main_v35 (F := Ideal) (xE m c) :=
  Cert.Bridge.adj_kernel_eq (W0 m c)

theorem degK_apply (c : Dev nD) (I : Fin 16384) :
    degK m c (ix2 I (0 : Fin 1)) = ∑ J : Fin 16384, val_main_v35 (F := Ideal) (xE m c) (ix2 I J) := by
  have h : degK m c (ix2 I (0 : Fin 1)) = ∑ J : Fin 16384, adj0 (Vin0 m) c (ix2 I J) :=
    (congrFun (W2_arr m c 1) (ix2 I (0 : Fin 1))).trans (region0_value (Vin0 m) c I)
  have e : adj0 (Vin0 m) c = val_main_v35 (F := Ideal) (xE m c) := adjK_eq m c
  rw [h, e]

theorem disK_eq (c : Dev nD) : disK m c = disOf (F := Ideal) (degK m c) := stretch1_v39 (W2 m c)

theorem disK_apply (c : Dev nD) (I : Fin 16384) :
    disK m c (ix2 I (0 : Fin 1)) = val_main_v39 (F := Ideal) (xE m c) (ix1 I) := by
  rw [disK_eq, disOf_apply, degK_apply, Cert.ReferenceIdeal.Stages.dis_apply, Cert.ReferenceIdeal.Stages.deg_apply, zero_add]

/-! ## Realness -/

theorem adj_real (c : Dev nD) (I J : Fin 16384) : ∃ r : ℝ, val_main_v35 (F := Ideal) (xE m c) (ix2 I J) = ((r : ℝ) : EReal) := by
  obtain ⟨a, -, h⟩ := adj_apply_real (xE m c) I J
  exact ⟨a, h⟩

theorem dis_real' (c : Dev nD) (I : Fin 16384) : ∃ r : ℝ, val_main_v39 (F := Ideal) (xE m c) (ix1 I) = ((r : ℝ) : EReal) := by
  obtain ⟨ρ, -, h⟩ := dis_real (xE m c) I
  exact ⟨ρ, h⟩

/-! ## The first layer -/

theorem xs_apply (c : Dev nD) (J : Fin 16384) (d : Fin 128) :
    (W5 m c (Proc.devRef .tc main_v42) : S16384x128.Idx → EReal) (ix2 J d)
      = xF m c (ix2 J d) * val_main_v39 (F := Ideal) (xE m c) (ix1 J) := by
  have e : (W5 m c (Proc.devRef .tc main_v42) : S16384x128.Idx → EReal) = _ := stretch1_v42 (W2 m c)
  rw [e, scaled128_apply, W2_kept m c main_arg0 (by decide) (by decide)]
  exact congrArg _ ((congrFun (disK_eq m c) _).symm.trans (disK_apply m c J))

theorem w1_apply (c : Dev nD) (d : Fin 128) (q : Fin 256) :
    (W5 m c (Proc.devRef .tc main_v43) : S128x256.Idx → EReal) (ix2 d q) = xW1 m c (ix2 d q) := by
  have e : (W5 m c (Proc.devRef .tc main_v43) : S128x256.Idx → EReal) = _ := stretch1_v43 (W2 m c)
  rw [e, truncf_apply, W2_kept m c main_arg3 (by decide) (by decide)]

theorem b1_apply (c : Dev nD) (q : Fin 256) :
    (W5 m c (Proc.devRef .tc main_v44) : S1x256.Idx → EReal) (ix2 (0 : Fin 1) q) = xb1 m c (ix1 q) := by
  have e : (W5 m c (Proc.devRef .tc main_v44) : S1x256.Idx → EReal) = _ := stretch1_v44 (W2 m c)
  rw [e, biasRow_apply, W2_kept m c main_arg4 (by decide) (by decide)]

theorem h1K_apply (c : Dev nD) (hx : ∀ i, ∃ r : ℝ, xF m c i = ((r : ℝ) : EReal)) (I : Fin 16384) (q : Fin 256) :
    h1K m c (ix2 I q) = val_main_v51 (F := Ideal) (xF m c) (xE m c) (xW1 m c) (xb1 m c) (ix2 I q) := by
  have h : h1K m c (ix2 I q) = max ((∑ d : Fin 128, ((∑ J : Fin 16384, adj1 (Vin1 m) c (ix2 I J) * feat1 (Vin1 m) c (ix2 J d))
      * dis1 (Vin1 m) c (ix2 I (0 : Fin 1))) * w1 (Vin1 m) c (ix2 d q)) + bias1 (Vin1 m) c (ix2 (0 : Fin 1) q)) 0 :=
    (congrFun (W6_arr m c 5) (ix2 I q)).trans (region1_value (Vin1 m) c I q)
  have e35 : adj1 (Vin1 m) c = val_main_v35 (F := Ideal) (xE m c) := (W5_v35 m c).trans (adjK_eq m c)
  have e42 : ∀ (J : Fin 16384) (d : Fin 128), feat1 (Vin1 m) c (ix2 J d) = xF m c (ix2 J d) * val_main_v39 (F := Ideal) (xE m c) (ix1 J) := xs_apply m c
  have e39 : dis1 (Vin1 m) c (ix2 I (0 : Fin 1)) = val_main_v39 (F := Ideal) (xE m c) (ix1 I) := disK_apply m c I
  have e43 : ∀ (d : Fin 128) (q : Fin 256), w1 (Vin1 m) c (ix2 d q) = xW1 m c (ix2 d q) := w1_apply m c
  have e44 : bias1 (Vin1 m) c (ix2 (0 : Fin 1) q) = xb1 m c (ix1 q) := b1_apply m c q
  rw [h, e35, e39, e44]
  simp only [e42, e43]
  rw [Cert.ReferenceIdeal.Stages.layer1_apply]
  simp only [Cert.ReferenceIdeal.Stages.normAdj_apply]
  exact scaled_layer (fun J => val_main_v35 (F := Ideal) (xE m c) (ix2 I J)) (fun J => val_main_v39 (F := Ideal) (xE m c) (ix1 J))
    (val_main_v39 (F := Ideal) (xE m c) (ix1 I)) (fun J d => xF m c (ix2 J d)) (fun d q => xW1 m c (ix2 d q)) (fun q => xb1 m c (ix1 q))
    (fun J => adj_real m c I J) (fun J => dis_real' m c J) (dis_real' m c I) (fun J d => hx (ix2 J d)) q

/-- The first layer's output is real. -/
theorem h1_real (c : Dev nD) (hx : ∀ i, ∃ r : ℝ, xF m c i = ((r : ℝ) : EReal)) (hW : ∀ i, ∃ r : ℝ, xW1 m c i = ((r : ℝ) : EReal))
    (hb : ∀ i, ∃ r : ℝ, xb1 m c i = ((r : ℝ) : EReal)) (J : Fin 16384) (d : Fin 256) :
    ∃ r : ℝ, val_main_v51 (F := Ideal) (xF m c) (xE m c) (xW1 m c) (xb1 m c) (ix2 J d) = ((r : ℝ) : EReal) := by
  rw [Cert.ReferenceIdeal.Stages.layer1_apply]
  obtain ⟨r, -, h⟩ := layer_real (fun j => val_main_v45 (F := Ideal) (xE m c) (ix2 J j)) (fun j d => xF m c (ix2 j d)) (fun d q => xW1 m c (ix2 d q))
    (fun q => xb1 m c (ix1 q)) (fun j => by obtain ⟨a, -, h⟩ := normAdj_real (xE m c) J j; exact ⟨a, h⟩) (fun j d => hx (ix2 j d)) (fun d q => hW (ix2 d q)) (fun q => hb (ix1 q)) d
  exact ⟨r, h⟩

/-! ## The second layer -/

theorem h1s_apply (c : Dev nD) (hx : ∀ i, ∃ r : ℝ, xF m c i = ((r : ℝ) : EReal)) (J : Fin 16384) (d : Fin 256) :
    (W7 m c (Proc.devRef .tc main_v48) : S16384x256.Idx → EReal) (ix2 J d)
      = val_main_v51 (F := Ideal) (xF m c) (xE m c) (xW1 m c) (xb1 m c) (ix2 J d) * val_main_v39 (F := Ideal) (xE m c) (ix1 J) := by
  have e : (W7 m c (Proc.devRef .tc main_v48) : S16384x256.Idx → EReal) = _ := stretch2_v48 (W6 m c)
  rw [e, scaled256_apply, W6_v39 m c]
  exact congrArg₂ (· * ·) (h1K_apply m c hx J d) (disK_apply m c J)

theorem w2_apply (c : Dev nD) (d : Fin 256) (q : Fin 256) :
    (W7 m c (Proc.devRef .tc main_v49) : S256x256.Idx → EReal) (ix2 d q) = xW2 m c (ix2 d q) := by
  have e : (W7 m c (Proc.devRef .tc main_v49) : S256x256.Idx → EReal) = _ := stretch2_v49 (W6 m c)
  rw [e, truncf_apply, W6_kept m c main_arg5 (by decide) (by decide) (by decide) (by decide) (by decide) (by decide)]

theorem b2_apply (c : Dev nD) (q : Fin 256) :
    (W7 m c (Proc.devRef .tc main_v50) : S1x256.Idx → EReal) (ix2 (0 : Fin 1) q) = xb2 m c (ix1 q) := by
  have e : (W7 m c (Proc.devRef .tc main_v50) : S1x256.Idx → EReal) = _ := stretch2_v50 (W6 m c)
  rw [e, biasRow_apply, W6_kept m c main_arg6 (by decide) (by decide) (by decide) (by decide) (by decide) (by decide)]

theorem h2K_apply (c : Dev nD) (hx : ∀ i, ∃ r : ℝ, xF m c i = ((r : ℝ) : EReal)) (hW : ∀ i, ∃ r : ℝ, xW1 m c i = ((r : ℝ) : EReal))
    (hb : ∀ i, ∃ r : ℝ, xb1 m c i = ((r : ℝ) : EReal)) (I : Fin 16384) (q : Fin 256) :
    h2K m c (ix2 I q) = val_main_v57 (F := Ideal) (xF m c) (xE m c) (xW1 m c) (xb1 m c) (xW2 m c) (xb2 m c) (ix2 I q) := by
  have h : h2K m c (ix2 I q) = max ((∑ d : Fin 256, ((∑ J : Fin 16384, adj2 (Vin2 m) c (ix2 I J) * feat2 (Vin2 m) c (ix2 J d))
      * dis2 (Vin2 m) c (ix2 I (0 : Fin 1))) * w2 (Vin2 m) c (ix2 d q)) + bias2 (Vin2 m) c (ix2 (0 : Fin 1) q)) 0 :=
    (congrFun (W8_arr m c 5) (ix2 I q)).trans (region2_value (Vin2 m) c I q)
  have e35 : adj2 (Vin2 m) c = val_main_v35 (F := Ideal) (xE m c) := (W7_v35 m c).trans (adjK_eq m c)
  have e48 : ∀ (J : Fin 16384) (d : Fin 256), feat2 (Vin2 m) c (ix2 J d)
      = val_main_v51 (F := Ideal) (xF m c) (xE m c) (xW1 m c) (xb1 m c) (ix2 J d) * val_main_v39 (F := Ideal) (xE m c) (ix1 J) := h1s_apply m c hx
  have e39 : dis2 (Vin2 m) c (ix2 I (0 : Fin 1)) = val_main_v39 (F := Ideal) (xE m c) (ix1 I) :=
    (congrFun (W7_v39 m c) _).trans (disK_apply m c I)
  have e49 : ∀ (d : Fin 256) (q : Fin 256), w2 (Vin2 m) c (ix2 d q) = xW2 m c (ix2 d q) := w2_apply m c
  have e50 : bias2 (Vin2 m) c (ix2 (0 : Fin 1) q) = xb2 m c (ix1 q) := b2_apply m c q
  rw [h, e35, e39, e50]
  simp only [e48, e49]
  rw [Cert.ReferenceIdeal.Stages.layer2_apply]
  simp only [Cert.ReferenceIdeal.Stages.normAdj_apply]
  exact scaled_layer (fun J => val_main_v35 (F := Ideal) (xE m c) (ix2 I J)) (fun J => val_main_v39 (F := Ideal) (xE m c) (ix1 J))
    (val_main_v39 (F := Ideal) (xE m c) (ix1 I)) (fun J d => val_main_v51 (F := Ideal) (xF m c) (xE m c) (xW1 m c) (xb1 m c) (ix2 J d))
    (fun d q => xW2 m c (ix2 d q)) (fun q => xb2 m c (ix1 q))
    (fun J => adj_real m c I J) (fun J => dis_real' m c J) (dis_real' m c I) (fun J d => h1_real m c hx hW hb J d) q

/-! ## The result -/

/-- The kernel program's result buffer, at the run's last boundary, holds the reference's result function of the
    arguments — for real features, first-layer weights and first-layer bias. -/
theorem kernel_value (c : Dev nD) (hx : ∀ i, ∃ r : ℝ, xF m c i = ((r : ℝ) : EReal)) (hW : ∀ i, ∃ r : ℝ, xW1 m c i = ((r : ℝ) : EReal))
    (hb : ∀ i, ∃ r : ℝ, xb1 m c i = ((r : ℝ) : EReal)) :
    (W11 m c (Proc.devRef .tc main_v66) : S64x10.Idx → EReal)
      = val_main_v72 (F := Ideal) (xF m c) (xE m c) (xB m c) (xW1 m c) (xb1 m c) (xW2 m c) (xb2 m c) (xWc m c) (xbc m c) := by
  have e : (W11 m c (Proc.devRef .tc main_v66) : S64x10.Idx → EReal) = _ := stretch3_v66 (W8 m c)
  rw [e, Cert.Bridge.ref_tail,
    W8_kept m c main_arg2 (by decide) (by decide) (by decide) (by decide) (by decide) (by decide) (by decide) (by decide),
    W8_kept m c main_arg7 (by decide) (by decide) (by decide) (by decide) (by decide) (by decide) (by decide) (by decide),
    W8_kept m c main_arg8 (by decide) (by decide) (by decide) (by decide) (by decide) (by decide) (by decide) (by decide)]
  have hh : (W8 m c (Proc.devRef .tc main_v51) : S16384x256.Idx → EReal)
      = val_main_v57 (F := Ideal) (xF m c) (xE m c) (xW1 m c) (xb1 m c) (xW2 m c) (xb2 m c) := by
    funext i
    rw [eq_ix2 i]
    exact h2K_apply m c hx hW hb (i 0) (i 1)
  rw [hh]

end Cert.KernelIdeal.Gen

end
-- ==== Proof.LibFiniteDecode.lean ====
/-
  "Every entry has absolute value below +∞" read as "every entry is a real".

  A precondition that an array is finite is printed as an all-reduce by "and" of the comparison |a| < +∞ against the
  word of +∞. On the extended reals |x| < +∞ says x is neither infinity, that is, x is a real. The lemma below takes one
  such conjunct — the all-reduce equal to 1 — to "every entry of `a` is real", for an array of any shape reduced over all
  its axes.
-/
import Idealize.ShloMosaic.PureOps.Ideal
import Idealize.ShloMosaic.Lib.ReduceAll
import Idealize.ShloMosaic.Lib.ValueIdx

noncomputable section

namespace Cert.LibFiniteDecode

open Idealize.ShloMosaic Idealize.ShloMosaic.ValueIdx

/-- The scalar shape has one index. -/
instance : Subsingleton (⟨0, ![]⟩ : Shape).Idx := ⟨fun a b => funext fun d => d.elim0⟩

/-- The word of +∞ denotes the top of the extended reals. -/
theorem ofBits_inf : Ideal.ofBits .f32 0x7F800000#32 = (⊤ : EReal) := by
  simp [Ideal.ofBits, Ideal.ieee]

/-- An extended real whose absolute value is below +∞ is a real. -/
theorem real_of_abs_lt (x : EReal) (h : max x (-x) < ⊤) : ∃ r : ℝ, x = ((r : ℝ) : EReal) := by
  induction x using EReal.rec with
  | bot => simp at h
  | coe r => exact ⟨r, rfl⟩
  | top => simp at h

/-- One conjunct of a finiteness precondition: an all-reduce by "and" of the comparison |a| < +∞ that is 1 makes every
    entry of `a` a real. -/
theorem real_of_all {s : Shape} {axes : List (Fin s.rank)} (a : FVec Ideal s .f32)
    (hb : (⟨0, ![]⟩ : Shape).BroadcastsInDim s ![]) (hred : s.ReducesTo axes ⟨0, ![]⟩) (hu : 0 < (⟨0, ![]⟩ : Shape).numel)
    (e : Host.reduce IntOp.andi (cmpf .olt (Host.absf a) (broadcastInDim s ![] hb (constant ⟨0, ![]⟩ .f32 0x7F800000#32)))
      (constantI ⟨0, ![]⟩ 1 1#1) hred hu ix0 = 1#1) (i : s.Idx) : ∃ r : ℝ, a i = ((r : ℝ) : EReal) := by
  have h := Host.reduce_andi_all _ _ hred hu ix0 e i
  have h' : Ideal.cmp .olt (max (a i) (-(a i))) (Ideal.ofBits .f32 0x7F800000#32) = 1#1 := h
  rw [ofBits_inf] at h'
  refine real_of_abs_lt (a i) ?_
  unfold Ideal.cmp at h'
  by_contra hn
  simp [hn] at h'

end Cert.LibFiniteDecode

end
-- ==== Proof.BridgeFinite.lean ====
/-
  The finiteness precondition gives real entries.

  The precondition is the conjunction, over the seven float inputs, of "every entry has absolute value below +∞".
  It is printed as a chain of "and"s of all-reduces; equal to 1, every conjunct is 1, and each conjunct makes every
  entry of its input a real number.
-/
import proofs.«103720_j9775345566347_1_alg».proof.Pre_finite_inputs
import proofs.«103720_j9775345566347_1_alg».proof.Proof.LibFiniteDecode
import Idealize.ShloMosaic.Lib.Affine

noncomputable section

namespace Cert.Bridge

open Idealize.ShloMosaic Idealize.ShloMosaic.ValueIdx Cert.Pre_finite_inputs

variable [Cert.Pre_finite_inputs.Facts]

/-- Every entry of every float input is real: the features, the two layers' weights and biases, the classifier's
    weights and bias (in the order of the program's arguments 0, 3, 4, 5, 6, 7, 8). -/
theorem finite_inputs_real
    (a0 : FVec Ideal S16384x128 .f32) (a1 : IVec S2x524288 32) (a2 : IVec S16384 32) (a3 : FVec Ideal S128x256 .f32)
    (a4 : FVec Ideal S256 .f32) (a5 : FVec Ideal S256x256 .f32) (a6 : FVec Ideal S256 .f32)
    (a7 : FVec Ideal S256x10 .f32) (a8 : FVec Ideal S10 .f32)
    (h : Cert.Pre_finite_inputs.fn (F := Ideal) a0 a1 a2 a3 a4 a5 a6 a7 a8 = fun _ => 1#1) :
    (∀ i, ∃ r : ℝ, a0 i = ((r : ℝ) : EReal)) ∧ (∀ i, ∃ r : ℝ, a3 i = ((r : ℝ) : EReal))
      ∧ (∀ i, ∃ r : ℝ, a4 i = ((r : ℝ) : EReal)) ∧ (∀ i, ∃ r : ℝ, a5 i = ((r : ℝ) : EReal))
      ∧ (∀ i, ∃ r : ℝ, a6 i = ((r : ℝ) : EReal)) ∧ (∀ i, ∃ r : ℝ, a7 i = ((r : ℝ) : EReal))
      ∧ (∀ i, ∃ r : ℝ, a8 i = ((r : ℝ) : EReal)) := by
  have h0 := congrFun h ix0
  dsimp only [Cert.Pre_finite_inputs.fn, Cert.Pre_finite_inputs.fn_part1, andi] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨Cert.LibFiniteDecode.real_of_all a0 _ _ _ e0, Cert.LibFiniteDecode.real_of_all a3 _ _ _ e3,
    Cert.LibFiniteDecode.real_of_all a4 _ _ _ e4, Cert.LibFiniteDecode.real_of_all a5 _ _ _ e5,
    Cert.LibFiniteDecode.real_of_all a6 _ _ _ e6, Cert.LibFiniteDecode.real_of_all a7 _ _ _ e7,
    Cert.LibFiniteDecode.real_of_all a8 _ _ _ e8⟩

end Cert.Bridge
-- ==== Proof.lean ====
/-
  Two graph-convolution layers over a dense 0/1 adjacency matrix with self-loops, symmetric degree normalisation,
  a mean pool over the graphs of the batch and a linear classifier: a tiled kernel program against its plain reference.

  The kernel program builds the adjacency matrix on the host, sums its rows in a first tiled region (a column
  accumulator carried over the eight column blocks of a row band), takes s = max(1, deg)^(-1/2), and runs each
  layer as a tiled region computing max(((A·(h ⊙ s)) ⊙ s)·W + b, 0): the scales are folded into the features, the
  product A·(h ⊙ s) accumulated over the eight column blocks in a carried accumulator. The reference normalises the
  matrix itself, (s ⊙ A ⊙ sᵀ), and multiplies. At exact arithmetic the two agree entry by entry as soon as the
  entries are real: adjacency entries are 0 or 1, the scales are positive reals, the features are real by the
  precondition and stay real through a layer; then a scale moves across the adjacency sum by distributivity. Sums
  over column blocks regroup by associativity alone.

  Frames: every weakly fair execution of either kernel program runs its eleven segments — eight host stretches and
  three regions, each region's accumulator tracked point by point in its invariant — to the end, and no segment
  writes an argument. The reference's frame is its run with the result dropped. The idealisation rewrote nothing.
-/
import proofs.«103720_j9775345566347_1_alg».proof.Defs
import proofs.«103720_j9775345566347_1_alg».proof.Proof.Gen.Kernel
import proofs.«103720_j9775345566347_1_alg».proof.Proof.Gen.KernelIdeal
import proofs.«103720_j9775345566347_1_alg».proof.Proof.Gen.ReferenceIdeal
import proofs.«103720_j9775345566347_1_alg».proof.Proof.Gen.Pre_finite_inputs
import proofs.«103720_j9775345566347_1_alg».proof.Proof.Gen.ReferenceIdeal.Run
import proofs.«103720_j9775345566347_1_alg».proof.Proof.Gen.ReferenceIdeal.Read
import proofs.«103720_j9775345566347_1_alg».proof.Proof.BitsKernelRun
import proofs.«103720_j9775345566347_1_alg».proof.Proof.KernelRun
import proofs.«103720_j9775345566347_1_alg».proof.Proof.KernelValue
import proofs.«103720_j9775345566347_1_alg».proof.Proof.BridgeFinite
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_p : Cert.frame_Kernel := fun m ρ _ => Cert.Kernel.Gen.frame_all m ρ

/-- So does the kernel program read at exact arithmetic. -/
theorem frame_pi : Cert.frame_KernelIdeal := fun m ρ _ => Cert.KernelIdeal.Gen.frame_all m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- At exact arithmetic, from memories agreeing on the arguments, both programs end with the reference's result
    function of the arguments: the kernel program by its run read stage by stage, the reference by its own run. -/
theorem algebraic : Cert.algebraic_KernelIdeal_ReferenceIdeal := by
  intro m ρ m' ρ' hpre hagree
  refine ⟨fun c => Cert.KernelIdeal.Gen.W11 m c (Proc.devRef .tc Cert.KernelIdeal.main_v66), Cert.KernelIdeal.Gen.run_result m ρ, ?_⟩
  refine (θ_run Cert.ReferenceIdeal.defs _ _).mono (fun r h c => ⟨(h c).1.trans ?_, (h c).2⟩)
    (Cert.ReferenceIdeal.Value.run (F := Ideal) m' ρ')
  obtain ⟨hx, hW, hb, -⟩ := Cert.Bridge.finite_inputs_real _ _ _ _ _ _ _ _ _ (hpre c)
  obtain ⟨e0, e1, e2, e3, e4, e5, e6, e7, e8⟩ := hagree c
  rw [Cert.ReferenceIdeal.Read.val_main_v72_eq, e0, e1, e2, e3, e4, e5, e6, e7, e8]
  exact (Cert.KernelIdeal.Gen.kernel_value m c hx hW hb).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
